-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S3 : Shape := ⟨1, ![3]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3 : S_.BroadcastsInDim S3 (![] : Fin 0 → Fin S3.rank)
  reducesTo_S3_S_d0 : S3.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_

variable [Facts]

def fn_part6 {F : FTy → Type} [FloatOps F] (main_arg11 : FVec F S3x256 .f32) (main_arg17 : FVec F S3x128 .f32) (main_arg23 : FVec F S3 .f32) (main_v98 : IVec S_ 1) (main_v101 : IVec S64x3 1) (main_c_39 : IVec S_ 1) : IVec S_ 1 :=
  let main_v102 : IVec S_ 1 := (fun x v => Host.reduce IntOp.andi x v reducesTo_S64x3_S_d0_1 h_S_) main_v101 main_c_39
  let main_v103 : IVec S_ 1 := andi main_v98 main_v102
  let main_v104 : FVec F S3 .f32 := Host.absf main_arg23
  let main_cst_40 : FVec F S_ .f32 := constant S_ .f32 0x7F800000#32
  let main_v105 : FVec F S3 .f32 := broadcastInDim S3 ![] bcast_S_S3 main_cst_40
  let main_v106 : IVec S3 1 := cmpf .olt main_v104 main_v105
  let main_c_41 : IVec S_ 1 := constantI S_ 1 1#1
  let main_v107 : IVec S_ 1 := (fun x v => Host.reduce IntOp.andi x v reducesTo_S3_S_d0 h_S_) main_v106 main_c_41
  let main_v108 : IVec S_ 1 := andi main_v103 main_v107
  let main_cst_42 : FVec F S_ .f32 := constant S_ .f32 0x00000000#32
  let main_v109 : FVec F S3x256 .f32 := broadcastInDim S3x256 ![] bcast_S_S3x256 main_cst_42
  let main_v110 : IVec S3x256 1 := cmpf .oge main_arg11 main_v109
  let main_c_43 : IVec S_ 1 := constantI S_ 1 1#1
  let main_v111 : IVec S_ 1 := (fun x v => Host.reduce IntOp.andi x v reducesTo_S3x256_S_d0_1 h_S_) main_v110 main_c_43
  let main_v112 : IVec S_ 1 := andi main_v108 main_v111
  let main_cst_44 : FVec F S_ .f32 := constant S_ .f32 0x00000000#32
  let main_v113 : FVec F S3x128 .f32 := broadcastInDim S3x128 ![] bcast_S_S3x128 main_cst_44
  let main_v114 : IVec S3x128 1 := cmpf .oge main_arg17 main_v113
  let main_c_45 : IVec S_ 1 := constantI S_ 1 1#1
  let main_v115 : IVec S_ 1 := (fun x v => Host.reduce IntOp.andi x v reducesTo_S3x128_S_d0_1 h_S_) main_v114 main_c_45
  let main_v116 : IVec S_ 1 := andi main_v112 main_v115
  main_v116

def fn_part5 {F : FTy → Type} [FloatOps F] (main_arg11 : FVec F S3x256 .f32) (main_arg17 : FVec F S3x128 .f32) (main_arg20 : FVec F S128x64 .f32) (main_arg21 : FVec F S64 .f32) (main_arg22 : FVec F S64x3 .f32) (main_arg23 : FVec F S3 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg20
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x3 .f32 := Host.absf main_arg22
  let main_cst_38 : FVec F S_ .f32 := constant S_ .f32 0x7F800000#32
  let main_v100 : FVec F S64x3 .f32 := broadcastInDim S64x3 ![] bcast_S_S64x3 main_cst_38
  let main_v101 : IVec S64x3 1 := cmpf .olt main_v99 main_v100
  let main_c_39 : IVec S_ 1 := constantI S_ 1 1#1
  fn_part6 (F := F) main_arg11 main_arg17 main_arg23 main_v98 main_v101 main_c_39

def fn_part4 {F : FTy → Type} [FloatOps F] (main_arg11 : FVec F S3x256 .f32) (main_arg16 : FVec F S3x128 .f32) (main_arg17 : FVec F S3x128 .f32) (main_arg18 : FVec F S128x128 .f32) (main_arg19 : FVec F S128 .f32) (main_arg20 : FVec F S128x64 .f32) (main_arg21 : FVec F S64 .f32) (main_arg22 : FVec F S64x3 .f32) (main_arg23 : FVec F S3 .f32) (main_v63 : IVec S_ 1) (main_v67 : IVec S_ 1) : IVec S_ 1 :=
  let main_v68 : IVec S_ 1 := andi main_v63 main_v67
  let main_v69 : FVec F S3x128 .f32 := Host.absf main_arg16
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg17
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg11 main_arg17 main_arg20 main_arg21 main_arg22 main_arg23 main_v83 main_v84 main_cst_32

def fn_part3 {F : FTy → Type} [FloatOps F] (main_arg11 : FVec F S3x256 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x64 .f32) (main_arg21 : FVec F S64 .f32) (main_arg22 : FVec F S64x3 .f32) (main_arg23 : FVec F S3 .f32) (main_v48 : IVec S_ 1) (main_v49 : FVec F S3x256x128 .f32) (main_v50 : FVec F S3x256x128 .f32) : IVec S_ 1 :=
  let main_v51 : IVec S3x256x128 1 := cmpf .olt main_v49 main_v50
  let main_c_19 : IVec S_ 1 := constantI S_ 1 1#1
  let main_v52 : IVec S_ 1 := (fun x v => Host.reduce IntOp.andi x v reducesTo_S3x256x128_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg14
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg15
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg11 main_arg16 main_arg17 main_arg18 main_arg19 main_arg20 main_arg21 main_arg22 main_arg23 main_v63 main_v67

def fn_part2 {F : FTy → Type} [FloatOps F] (main_arg9 : FVec F S3x256 .f32) (main_arg10 : FVec F S3x256 .f32) (main_arg11 : FVec F S3x256 .f32) (main_arg12 : FVec F S3x256x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x64 .f32) (main_arg21 : FVec F S64 .f32) (main_arg22 : FVec F S64x3 .f32) (main_arg23 : FVec F S3 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256 .f32 := Host.absf main_arg11
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256x128 .f32 := Host.absf main_arg12
  let main_cst_18 : FVec F S_ .f32 := constant S_ .f32 0x7F800000#32
  let main_v50 : FVec F S3x256x128 .f32 := broadcastInDim S3x256x128 ![] bcast_S_S3x256x128 main_cst_18
  fn_part3 (F := F) main_arg11 main_arg13 main_arg14 main_arg15 main_arg16 main_arg17 main_arg18 main_arg19 main_arg20 main_arg21 main_arg22 main_arg23 main_v48 main_v49 main_v50

def fn_part1 {F : FTy → Type} [FloatOps F] (main_arg6 : FVec F S3x128x256 .f32) (main_arg7 : FVec F S3x256 .f32) (main_arg8 : FVec F S3x256 .f32) (main_arg9 : FVec F S3x256 .f32) (main_arg10 : FVec F S3x256 .f32) (main_arg11 : FVec F S3x256 .f32) (main_arg12 : FVec F S3x256x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x64 .f32) (main_arg21 : FVec F S64 .f32) (main_arg22 : FVec F S64x3 .f32) (main_arg23 : FVec F S3 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x128x256 .f32 := Host.absf main_arg6
  let main_cst_6 : FVec F S_ .f32 := constant S_ .f32 0x7F800000#32
  let main_v20 : FVec F S3x128x256 .f32 := broadcastInDim S3x128x256 ![] bcast_S_S3x128x256 main_cst_6
  let main_v21 : IVec S3x128x256 1 := cmpf .olt main_v19 main_v20
  let main_c_7 : IVec S_ 1 := constantI S_ 1 1#1
  let main_v22 : IVec S_ 1 := (fun x v => Host.reduce IntOp.andi x v reducesTo_S3x128x256_S_d0_1_2 h_S_) main_v21 main_c_7
  let main_v23 : IVec S_ 1 := andi main_v18 main_v22
  let main_v24 : FVec F S3x256 .f32 := Host.absf main_arg7
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S3 .f32) (main_arg6 : FVec F S3x128x256 .f32) (main_arg7 : FVec F S3x256 .f32) (main_arg8 : FVec F S3x256 .f32) (main_arg9 : FVec F S3x256 .f32) (main_arg10 : FVec F S3x256 .f32) (main_arg11 : FVec F S3x256 .f32) (main_arg12 : FVec F S3x256x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S128x128 .f32) (main_arg19 : FVec F S128 .f32) (main_arg20 : FVec F S128x64 .f32) (main_arg21 : FVec F S64 .f32) (main_arg22 : FVec F S64x3 .f32) (main_arg23 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3 .f32 := Host.absf main_arg5
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S3 : Shape := ⟨1, ![3]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S4000x64 : Shape := ⟨2, ![4000, 64]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x1 : Shape := ⟨2, ![1, 1]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S4000x256 : Shape := ⟨2, ![4000, 256]⟩
abbrev S512x128 : Shape := ⟨2, ![512, 128]⟩
abbrev S100000x1 : Shape := ⟨2, ![100000, 1]⟩
abbrev S1x64 : Shape := ⟨2, ![1, 64]⟩
abbrev S1x3 : Shape := ⟨2, ![1, 3]⟩
abbrev S512x3 : Shape := ⟨2, ![512, 3]⟩
abbrev S512x64 : Shape := ⟨2, ![512, 64]⟩

abbrev nBuf : Space → Nat
  | .hbm => 227
  | .vmem => 53
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S3, .f32⟩
  | 6 => ⟨S3x128x256, .f32⟩
  | 7 => ⟨S3x256, .f32⟩
  | 8 => ⟨S3x256, .f32⟩
  | 9 => ⟨S3x256, .f32⟩
  | 10 => ⟨S3x256, .f32⟩
  | 11 => ⟨S3x256, .f32⟩
  | 12 => ⟨S3x256x128, .f32⟩
  | 13 => ⟨S3x128, .f32⟩
  | 14 => ⟨S3x128, .f32⟩
  | 15 => ⟨S3x128, .f32⟩
  | 16 => ⟨S3x128, .f32⟩
  | 17 => ⟨S3x128, .f32⟩
  | 18 => ⟨S128x128, .f32⟩
  | 19 => ⟨S128, .f32⟩
  | 20 => ⟨S128x64, .f32⟩
  | 21 => ⟨S64, .f32⟩
  | 22 => ⟨S64x3, .f32⟩
  | 23 => ⟨S3, .f32⟩
  | 24 => ⟨S1x1600000, .i32⟩
  | 25 => ⟨S1600000, .i32⟩
  | 26 => ⟨S1x1600000, .i32⟩
  | 27 => ⟨S1600000, .i32⟩
  | 28 => ⟨S1x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S1, .f32⟩
  | 44 => ⟨S_, .f32⟩
  | 45 => ⟨S_, .f32⟩
  | 46 => ⟨S_, .f32⟩
  | 47 => ⟨S1x1, .f32⟩
  | 48 => ⟨S1x256, .f32⟩
  | 49 => ⟨S256, .f32⟩
  | 50 => ⟨S1x256, .f32⟩
  | 51 => ⟨S256, .f32⟩
  | 52 => ⟨S1x256, .f32⟩
  | 53 => ⟨S256, .f32⟩
  | 54 => ⟨S1x256, .f32⟩
  | 55 => ⟨S256, .f32⟩
  | 56 => ⟨S1x256, .f32⟩
  | 57 => ⟨S256, .f32⟩
  | 58 => ⟨S_, .f32⟩
  | 59 => ⟨S256, .f32⟩
  | 60 => ⟨S256, .f32⟩
  | 61 => ⟨S256, .f32⟩
  | 62 => ⟨S256, .f32⟩
  | 63 => ⟨S256, .f32⟩
  | 64 => ⟨S256, .f32⟩
  | 65 => ⟨S256, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S128, .f32⟩
  | 79 => ⟨S128, .f32⟩
  | 80 => ⟨S128, .f32⟩
  | 81 => ⟨S128, .f32⟩
  | 82 => ⟨S128, .f32⟩
  | 83 => ⟨S128, .f32⟩
  | 84 => ⟨S1x128x256, .f32⟩
  | 85 => ⟨S128x256, .f32⟩
  | 86 => ⟨S1x256, .f32⟩
  | 87 => ⟨S1x256, .f32⟩
  | 88 => ⟨S1x256x128, .f32⟩
  | 89 => ⟨S256x128, .f32⟩
  | 90 => ⟨S1x128, .f32⟩
  | 91 => ⟨S1x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S1, .f32⟩
  | 107 => ⟨S_, .f32⟩
  | 108 => ⟨S_, .f32⟩
  | 109 => ⟨S_, .f32⟩
  | 110 => ⟨S1x1, .f32⟩
  | 111 => ⟨S1x256, .f32⟩
  | 112 => ⟨S256, .f32⟩
  | 113 => ⟨S1x256, .f32⟩
  | 114 => ⟨S256, .f32⟩
  | 115 => ⟨S1x256, .f32⟩
  | 116 => ⟨S256, .f32⟩
  | 117 => ⟨S1x256, .f32⟩
  | 118 => ⟨S256, .f32⟩
  | 119 => ⟨S1x256, .f32⟩
  | 120 => ⟨S256, .f32⟩
  | 121 => ⟨S_, .f32⟩
  | 122 => ⟨S256, .f32⟩
  | 123 => ⟨S256, .f32⟩
  | 124 => ⟨S256, .f32⟩
  | 125 => ⟨S256, .f32⟩
  | 126 => ⟨S256, .f32⟩
  | 127 => ⟨S256, .f32⟩
  | _ => ⟨S100000x64, .f32⟩

abbrev hbmTy0_1 (i : Nat) : BufTy := match i % 128 with
  | 0 => ⟨S256, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S1x128x256, .f32⟩
  | 20 => ⟨S128x256, .f32⟩
  | 21 => ⟨S1x256, .f32⟩
  | 22 => ⟨S1x256, .f32⟩
  | 23 => ⟨S1x256x128, .f32⟩
  | 24 => ⟨S256x128, .f32⟩
  | 25 => ⟨S1x128, .f32⟩
  | 26 => ⟨S1x128, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S1, .f32⟩
  | 42 => ⟨S_, .f32⟩
  | 43 => ⟨S_, .f32⟩
  | 44 => ⟨S_, .f32⟩
  | 45 => ⟨S1x1, .f32⟩
  | 46 => ⟨S1x256, .f32⟩
  | 47 => ⟨S256, .f32⟩
  | 48 => ⟨S1x256, .f32⟩
  | 49 => ⟨S256, .f32⟩
  | 50 => ⟨S1x256, .f32⟩
  | 51 => ⟨S256, .f32⟩
  | 52 => ⟨S1x256, .f32⟩
  | 53 => ⟨S256, .f32⟩
  | 54 => ⟨S1x256, .f32⟩
  | 55 => ⟨S256, .f32⟩
  | 56 => ⟨S_, .f32⟩
  | 57 => ⟨S256, .f32⟩
  | 58 => ⟨S256, .f32⟩
  | 59 => ⟨S256, .f32⟩
  | 60 => ⟨S256, .f32⟩
  | 61 => ⟨S256, .f32⟩
  | 62 => ⟨S256, .f32⟩
  | 63 => ⟨S256, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S128, .f32⟩
  | 77 => ⟨S128, .f32⟩
  | 78 => ⟨S128, .f32⟩
  | 79 => ⟨S128, .f32⟩
  | 80 => ⟨S128, .f32⟩
  | 81 => ⟨S128, .f32⟩
  | 82 => ⟨S1x128x256, .f32⟩
  | 83 => ⟨S128x256, .f32⟩
  | 84 => ⟨S1x256, .f32⟩
  | 85 => ⟨S1x256, .f32⟩
  | 86 => ⟨S1x256x128, .f32⟩
  | 87 => ⟨S256x128, .f32⟩
  | 88 => ⟨S1x128, .f32⟩
  | 89 => ⟨S1x128, .f32⟩
  | 90 => ⟨S100000x128, .f32⟩
  | 91 => ⟨S_, .f32⟩
  | 92 => ⟨S512x128, .f32⟩
  | 93 => ⟨S100000x1, .i32⟩
  | 94 => ⟨S512x128, .f32⟩
  | 95 => ⟨S1x128, .f32⟩
  | 96 => ⟨S1x64, .f32⟩
  | 97 => ⟨S1x3, .f32⟩
  | 98 => ⟨S512x3, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S1x1, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S1x1, .f32⟩
  | .local _ .vmem, ⟨24, _⟩ => ⟨S128x256, .f32⟩
  | .local _ .vmem, ⟨25, _⟩ => ⟨S1x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S1x1, .f32⟩
  | .local _ .vmem, ⟨37, _⟩ => ⟨S128x256, .f32⟩
  | .local _ .vmem, ⟨38, _⟩ => ⟨S1x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S1x128, .f32⟩
  | .local _ .vmem, ⟨43, _⟩ => ⟨S4000x128, .f32⟩
  | .local _ .vmem, ⟨44, _⟩ => ⟨S4000x128, .f32⟩
  | .local _ .vmem, ⟨45, _⟩ => ⟨S512x128, .f32⟩
  | .local _ .vmem, ⟨46, _⟩ => ⟨S128x128, .f32⟩
  | .local _ .vmem, ⟨47, _⟩ => ⟨S1x128, .f32⟩
  | .local _ .vmem, ⟨48, _⟩ => ⟨S128x64, .f32⟩
  | .local _ .vmem, ⟨49, _⟩ => ⟨S1x64, .f32⟩
  | .local _ .vmem, ⟨50, _⟩ => ⟨S64x3, .f32⟩
  | .local _ .vmem, ⟨51, _⟩ => ⟨S1x3, .f32⟩
  | .local _ .vmem, ⟨52, _⟩ => ⟨S512x3, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_4 : Ref sig .tc := ⟨.hbm, 93, rfl⟩
abbrev main_v63 : Ref sig .tc := ⟨.hbm, 94, rfl⟩
abbrev main_v64 : Ref sig .tc := ⟨.hbm, 95, rfl⟩
abbrev main_c_5 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_8 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_9 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_10 : Ref sig .tc := ⟨.hbm, 156, rfl⟩
abbrev main_v120 : Ref sig .tc := ⟨.hbm, 157, rfl⟩
abbrev main_v121 : Ref sig .tc := ⟨.hbm, 158, rfl⟩
abbrev main_c_11 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_12 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_13 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_14 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_15 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_16 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc4_stg0_0 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44
abbrev cc4_sem0_0 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x3 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3_S1_0 : S3.Slices ![0] S1
  shapeCasts_S1_S_ : S1.ShapeCasts S_
  shapeCasts_S_S1x1 : S_.ShapeCasts S1x1
  slices_S3x256_S1x256_0_0 : S3x256.Slices ![0, 0] S1x256
  shapeCasts_S1x256_S256 : S1x256.ShapeCasts S256
  bcast_S_S256 : S_.BroadcastsInDim S256 (![] : Fin 0 → Fin S256.rank)
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x256_S1x128x256_0_0_0 : S3x128x256.Slices ![0, 0, 0] S1x128x256
  shapeCasts_S1x128x256_S128x256 : S1x128x256.ShapeCasts S128x256
  shapeCasts_S256_S1x256 : S256.ShapeCasts S1x256
  slices_S3x256x128_S1x256x128_0_0_0 : S3x256x128.Slices ![0, 0, 0] S1x256x128
  shapeCasts_S1x256x128_S256x128 : S1x256x128.ShapeCasts S256x128
  shapeCasts_S4000x128_S4000x128 : S4000x128.ShapeCasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S3_S1_1 : S3.Slices ![1] S1
  slices_S3x256_S1x256_1_0 : S3x256.Slices ![1, 0] S1x256
  slices_S3x128_S1x128_1_0 : S3x128.Slices ![1, 0] S1x128
  slices_S3x128x256_S1x128x256_1_0_0 : S3x128x256.Slices ![1, 0, 0] S1x128x256
  slices_S3x256x128_S1x256x128_1_0_0 : S3x256x128.Slices ![1, 0, 0] S1x256x128
  slices_S3_S1_2 : S3.Slices ![2] S1
  slices_S3x256_S1x256_2_0 : S3x256.Slices ![2, 0] S1x256
  slices_S3x128_S1x128_2_0 : S3x128.Slices ![2, 0] S1x128
  slices_S3x128x256_S1x128x256_2_0_0 : S3x128x256.Slices ![2, 0, 0] S1x128x256
  slices_S3x256x128_S1x256x128_2_0_0 : S3x256x128.Slices ![2, 0, 0] S1x256x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S64_S1x64 : S64.ShapeCasts S1x64
  shapeCasts_S3_S1x3 : S3.ShapeCasts S1x3
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  inb_S512x3_S512x3_0_0 : ∀ a, (![0, 0] : Fin 2 → Nat) a + S512x3.size a ≤ S512x3.size a
  h_S512x3 : 0 < S512x3.numel
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  dot_S512x64_S64x3_S512x3_1_0_0_1_n_n_wf : DotDims.WF S512x64 S64x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S256x128.size a
  hwx2_6 : ∀ i : grid2.Coords, EltTy.bits .f32 = 32 ∨ (Rect.block (s := S256x128) S256x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x128.size a ≤ S256x128.size a
  hwx3_6 : ∀ i : grid3.Coords, EltTy.bits .f32 = 32 ∨ (Rect.block (s := S256x128) S256x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S100000x128.size a
  hwx3_9 : ∀ i : grid3.Coords, EltTy.bits .f32 = 32 ∨ (Rect.block (s := S100000x128) S4000x128.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x3.size a ≤ S64x3.size a
  hwx4_5 : ∀ i : grid4.Coords, EltTy.bits .f32 = 32 ∨ (Rect.block (s := S64x3) S64x3.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x3.size a ≤ S1x3.size a
  hwx4_6 : ∀ i : grid4.Coords, EltTy.bits .f32 = 32 ∨ (Rect.block (s := S1x3) S1x3.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x3.size a ≤ S512x3.size a
  hwx4_7 : ∀ i : grid4.Coords, EltTy.bits .f32 = 32 ∨ (Rect.block (s := S512x3) S512x3.size (cc4_transform_7 i) (hinb4_7 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v62) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v112) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v113) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v114) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v116) S256x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v117) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v118) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v119) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v119) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v129) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v133) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v169) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v170) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v171) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v173) S256x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v174) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v175) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v176) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v179) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v180) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v181) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg22) S64x3.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v182) S1x3.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v183) S512x3.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S3 : Shape := ⟨1, ![3]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S512x128 : Shape := ⟨2, ![512, 128]⟩
abbrev S100000x1 : Shape := ⟨2, ![100000, 1]⟩
abbrev S512x64 : Shape := ⟨2, ![512, 64]⟩
abbrev S1x64 : Shape := ⟨2, ![1, 64]⟩
abbrev S512x3 : Shape := ⟨2, ![512, 3]⟩
abbrev S1x3 : Shape := ⟨2, ![1, 3]⟩

abbrev nBuf : Space → Nat
  | .hbm => 315
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S3, .f32⟩
  | 6 => ⟨S3x128x256, .f32⟩
  | 7 => ⟨S3x256, .f32⟩
  | 8 => ⟨S3x256, .f32⟩
  | 9 => ⟨S3x256, .f32⟩
  | 10 => ⟨S3x256, .f32⟩
  | 11 => ⟨S3x256, .f32⟩
  | 12 => ⟨S3x256x128, .f32⟩
  | 13 => ⟨S3x128, .f32⟩
  | 14 => ⟨S3x128, .f32⟩
  | 15 => ⟨S3x128, .f32⟩
  | 16 => ⟨S3x128, .f32⟩
  | 17 => ⟨S3x128, .f32⟩
  | 18 => ⟨S128x128, .f32⟩
  | 19 => ⟨S128, .f32⟩
  | 20 => ⟨S128x64, .f32⟩
  | 21 => ⟨S64, .f32⟩
  | 22 => ⟨S64x3, .f32⟩
  | 23 => ⟨S3, .f32⟩
  | 24 => ⟨S1x1600000, .i32⟩
  | 25 => ⟨S1600000, .i32⟩
  | 26 => ⟨S1x1600000, .i32⟩
  | 27 => ⟨S1600000, .i32⟩
  | 28 => ⟨S100000x128, .f32⟩
  | 29 => ⟨S1x128, .f32⟩
  | 30 => ⟨S100000x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S1, .f32⟩
  | 46 => ⟨S_, .f32⟩
  | 47 => ⟨S_, .f32⟩
  | 48 => ⟨S_, .f32⟩
  | 49 => ⟨S100000x128, .f32⟩
  | 50 => ⟨S100000x128, .f32⟩
  | 51 => ⟨S100000x128, .f32⟩
  | 52 => ⟨S1x128x256, .f32⟩
  | 53 => ⟨S128x256, .f32⟩
  | 54 => ⟨S100000x256, .f32⟩
  | 55 => ⟨S1x256, .f32⟩
  | 56 => ⟨S256, .f32⟩
  | 57 => ⟨S1x256, .f32⟩
  | 58 => ⟨S100000x256, .f32⟩
  | 59 => ⟨S100000x256, .f32⟩
  | 60 => ⟨S1x256, .f32⟩
  | 61 => ⟨S256, .f32⟩
  | 62 => ⟨S1x256, .f32⟩
  | 63 => ⟨S256, .f32⟩
  | 64 => ⟨S1x256, .f32⟩
  | 65 => ⟨S256, .f32⟩
  | 66 => ⟨S1x256, .f32⟩
  | 67 => ⟨S256, .f32⟩
  | 68 => ⟨S1x256, .f32⟩
  | 69 => ⟨S100000x256, .f32⟩
  | 70 => ⟨S100000x256, .f32⟩
  | 71 => ⟨S_, .f32⟩
  | 72 => ⟨S256, .f32⟩
  | 73 => ⟨S256, .f32⟩
  | 74 => ⟨S256, .f32⟩
  | 75 => ⟨S256, .f32⟩
  | 76 => ⟨S1x256, .f32⟩
  | 77 => ⟨S100000x256, .f32⟩
  | 78 => ⟨S100000x256, .f32⟩
  | 79 => ⟨S1x256, .f32⟩
  | 80 => ⟨S100000x256, .f32⟩
  | 81 => ⟨S100000x256, .f32⟩
  | 82 => ⟨S_, .f32⟩
  | 83 => ⟨S100000x256, .f32⟩
  | 84 => ⟨S100000x256, .f32⟩
  | 85 => ⟨S1x256x128, .f32⟩
  | 86 => ⟨S256x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x64, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S1, .f32⟩
  | 5 => ⟨S_, .f32⟩
  | 6 => ⟨S_, .f32⟩
  | 7 => ⟨S_, .f32⟩
  | 8 => ⟨S100000x128, .f32⟩
  | 9 => ⟨S100000x128, .f32⟩
  | 10 => ⟨S100000x128, .f32⟩
  | 11 => ⟨S1x128x256, .f32⟩
  | 12 => ⟨S128x256, .f32⟩
  | 13 => ⟨S100000x256, .f32⟩
  | 14 => ⟨S1x256, .f32⟩
  | 15 => ⟨S256, .f32⟩
  | 16 => ⟨S1x256, .f32⟩
  | 17 => ⟨S100000x256, .f32⟩
  | 18 => ⟨S100000x256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S100000x256, .f32⟩
  | 29 => ⟨S100000x256, .f32⟩
  | 30 => ⟨S_, .f32⟩
  | 31 => ⟨S256, .f32⟩
  | 32 => ⟨S256, .f32⟩
  | 33 => ⟨S256, .f32⟩
  | 34 => ⟨S256, .f32⟩
  | 35 => ⟨S1x256, .f32⟩
  | 36 => ⟨S100000x256, .f32⟩
  | 37 => ⟨S100000x256, .f32⟩
  | 38 => ⟨S1x256, .f32⟩
  | 39 => ⟨S100000x256, .f32⟩
  | 40 => ⟨S100000x256, .f32⟩
  | 41 => ⟨S_, .f32⟩
  | 42 => ⟨S100000x256, .f32⟩
  | 43 => ⟨S100000x256, .f32⟩
  | 44 => ⟨S1x256x128, .f32⟩
  | 45 => ⟨S256x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1, .f32⟩
  | 92 => ⟨S_, .f32⟩
  | 93 => ⟨S_, .f32⟩
  | 94 => ⟨S_, .f32⟩
  | 95 => ⟨S100000x128, .f32⟩
  | 96 => ⟨S100000x128, .f32⟩
  | 97 => ⟨S100000x128, .f32⟩
  | 98 => ⟨S1x128x256, .f32⟩
  | 99 => ⟨S128x256, .f32⟩
  | 100 => ⟨S100000x256, .f32⟩
  | 101 => ⟨S1x256, .f32⟩
  | 102 => ⟨S256, .f32⟩
  | 103 => ⟨S1x256, .f32⟩
  | 104 => ⟨S100000x256, .f32⟩
  | 105 => ⟨S100000x256, .f32⟩
  | 106 => ⟨S1x256, .f32⟩
  | 107 => ⟨S256, .f32⟩
  | 108 => ⟨S1x256, .f32⟩
  | 109 => ⟨S256, .f32⟩
  | 110 => ⟨S1x256, .f32⟩
  | 111 => ⟨S256, .f32⟩
  | 112 => ⟨S1x256, .f32⟩
  | 113 => ⟨S256, .f32⟩
  | 114 => ⟨S1x256, .f32⟩
  | 115 => ⟨S100000x256, .f32⟩
  | 116 => ⟨S100000x256, .f32⟩
  | 117 => ⟨S_, .f32⟩
  | 118 => ⟨S256, .f32⟩
  | 119 => ⟨S256, .f32⟩
  | 120 => ⟨S256, .f32⟩
  | 121 => ⟨S256, .f32⟩
  | 122 => ⟨S1x256, .f32⟩
  | 123 => ⟨S100000x256, .f32⟩
  | 124 => ⟨S100000x256, .f32⟩
  | 125 => ⟨S1x256, .f32⟩
  | 126 => ⟨S100000x256, .f32⟩
  | 127 => ⟨S100000x256, .f32⟩
  | _ => ⟨S100000x64, .f32⟩

abbrev hbmTy0_2 (i : Nat) : BufTy := match i % 128 with
  | 0 => ⟨S_, .f32⟩
  | 1 => ⟨S100000x256, .f32⟩
  | 2 => ⟨S100000x256, .f32⟩
  | 3 => ⟨S1x256x128, .f32⟩
  | 4 => ⟨S256x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S128, .f32⟩
  | 24 => ⟨S128, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S_, .f32⟩
  | 38 => ⟨S512x128, .f32⟩
  | 39 => ⟨S100000x1, .i32⟩
  | 40 => ⟨S512x128, .f32⟩
  | 41 => ⟨S512x128, .f32⟩
  | 42 => ⟨S1x128, .f32⟩
  | 43 => ⟨S512x128, .f32⟩
  | 44 => ⟨S512x128, .f32⟩
  | 45 => ⟨S_, .f32⟩
  | 46 => ⟨S512x128, .f32⟩
  | 47 => ⟨S512x128, .f32⟩
  | 48 => ⟨S512x64, .f32⟩
  | 49 => ⟨S1x64, .f32⟩
  | 50 => ⟨S512x64, .f32⟩
  | 51 => ⟨S512x64, .f32⟩
  | 52 => ⟨S_, .f32⟩
  | 53 => ⟨S512x64, .f32⟩
  | 54 => ⟨S512x64, .f32⟩
  | 55 => ⟨S512x3, .f32⟩
  | 56 => ⟨S1x3, .f32⟩
  | 57 => ⟨S512x3, .f32⟩
  | 58 => ⟨S512x3, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_2 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call0_cst : Ref sig .tc := ⟨.hbm, 82, rfl⟩
abbrev main_call0_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_3 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call1_cst : Ref sig .tc := ⟨.hbm, 115, rfl⟩
abbrev main_call1_v0 : Ref sig .tc := ⟨.hbm, 116, rfl⟩
abbrev main_v83 : Ref sig .tc := ⟨.hbm, 117, rfl⟩
abbrev main_v84 : Ref sig .tc := ⟨.hbm, 118, rfl⟩
abbrev main_c_4 : Ref sig .tc := ⟨.hbm, 119, rfl⟩
abbrev main_v85 : Ref sig .tc := ⟨.hbm, 120, rfl⟩
abbrev main_v86 : Ref sig .tc := ⟨.hbm, 121, rfl⟩
abbrev main_c_5 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_6 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_7 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_8 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call2_cst : Ref sig .tc := ⟨.hbm, 169, rfl⟩
abbrev main_call2_v0 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_9 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_call3_cst : Ref sig .tc := ⟨.hbm, 202, rfl⟩
abbrev main_call3_v0 : Ref sig .tc := ⟨.hbm, 203, rfl⟩
abbrev main_v160 : Ref sig .tc := ⟨.hbm, 204, rfl⟩
abbrev main_v161 : Ref sig .tc := ⟨.hbm, 205, rfl⟩
abbrev main_c_10 : Ref sig .tc := ⟨.hbm, 206, rfl⟩
abbrev main_v162 : Ref sig .tc := ⟨.hbm, 207, rfl⟩
abbrev main_v163 : Ref sig .tc := ⟨.hbm, 208, rfl⟩
abbrev main_c_11 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_12 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_13 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_14 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_call4_cst : Ref sig .tc := ⟨.hbm, 256, rfl⟩
abbrev main_call4_v0 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_cst_15 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_call5_cst : Ref sig .tc := ⟨.hbm, 289, rfl⟩
abbrev main_call5_v0 : Ref sig .tc := ⟨.hbm, 290, rfl⟩
abbrev main_v237 : Ref sig .tc := ⟨.hbm, 291, rfl⟩
abbrev main_v238 : Ref sig .tc := ⟨.hbm, 292, rfl⟩
abbrev main_cst_16 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_call6_cst : Ref sig .tc := ⟨.hbm, 301, rfl⟩
abbrev main_call6_v0 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_call7_cst : Ref sig .tc := ⟨.hbm, 308, rfl⟩
abbrev main_call7_v0 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3_S1_0 : S3.Slices ![0] S1
  shapeCasts_S1_S_ : S1.ShapeCasts S_
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  dot_S512x64_S64x3_S512x3_1_0_0_1_n_n_wf : DotDims.WF S512x64 S64x3 S512x3 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf

class Facts : Prop extends Facts₀ where

variable [Facts]
-- ==== Proof.HostChain.lean ====
/-
  What the idealized kernel's host lines put in front of each launch.

  Between launches the program runs host operations on whole arrays. For one device this module reads the contents of every
  array a launch takes, as a function of the program's arguments and of the previous launch's output:
  * the embedding launch takes the node features and the embedding matrix as launched, and the embedding bias as a row;
  * each GIN launch takes the previous features, their neighbour sum — a gather of the source nodes' rows scatter-added at the
    destination nodes —, the scalar `1 + ε_l`, the layer's two weight matrices, and for each of its two normalisations a scale row
    `g * rsqrt (v + ε)` and a bias row `(b - m) * scale + β`;
  * the read-out launch takes the last features scatter-added by graph, and the read-out weights with their biases as rows.
  The index vectors and the parameter rows are the SAME host operations on the SAME arguments as the reference program's, so
  they are stated as the reference's stages (`ReadP.val_main_v…`) of the arguments, reshaped to rows where the kernel takes rows.
  An argument buffer is written by no host line and is an output of no launch, so it is as launched at every boundary.
-/
import proofs.«156994_j78795470012791_1_alg».proof.Proof.Gen.KernelIdeal.Frame
import proofs.«156994_j78795470012791_1_alg».proof.Proof.RefReadP
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- No operation of a host stretch writes the buffer. -/
local macro "not_written" : tactic =>
  `(tactic| exact List.forall_iff_forall_mem.mp (by
      simp only [hostOps0, hostOps1, hostOps2, hostOps3, hostOps4, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide)))

/-- A buffer no operation of a host stretch writes holds after the stretch what it held before. -/
local macro "untouched" : tactic => `(tactic| exact StableHlo.after_of_forall_not_mem _ _ (by not_written))

/-! ## A buffer that no host line writes and no launch outputs, at each boundary -/

theorem W1_keep (b : Ref sig .tc) (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h0

theorem W2_keep (b : Ref sig .tc) (h0 : ∀ op ∈ (hostOps0 : List (HloOp τ sig (Elt Ideal))), Proc.devRef .tc b ∉ op.writes)
    (r0 : ∀ w, Pipeline.arrRef spec0 w ≠ b) : W2 m ρ c (Proc.devRef .tc b) = m ((c : Thread nD τ).loc b) :=
  (W2_of_ne m ρ c b r0).trans (W1_keep m ρ c b h0)

theorem W4_keep (b : Ref sig .tc) (h0 : ∀ op ∈ (hostOps0 : List (HloOp τ sig (Elt Ideal))), Proc.devRef .tc b ∉ op.writes)
    (r0 : ∀ w, Pipeline.arrRef spec0 w ≠ b) (h1 : ∀ op ∈ (hostOps1 : List (HloOp τ sig (Elt Ideal))), Proc.devRef .tc b ∉ op.writes)
    (r1 : ∀ w, Pipeline.arrRef spec1 w ≠ b) : W4 m ρ c (Proc.devRef .tc b) = m ((c : Thread nD τ).loc b) :=
  (W4_of_ne m ρ c b r1).trans ((StableHlo.after_of_forall_not_mem _ _ h1).trans (W2_keep m ρ c b h0 r0))

theorem W6_keep (b : Ref sig .tc) (h0 : ∀ op ∈ (hostOps0 : List (HloOp τ sig (Elt Ideal))), Proc.devRef .tc b ∉ op.writes)
    (r0 : ∀ w, Pipeline.arrRef spec0 w ≠ b) (h1 : ∀ op ∈ (hostOps1 : List (HloOp τ sig (Elt Ideal))), Proc.devRef .tc b ∉ op.writes)
    (r1 : ∀ w, Pipeline.arrRef spec1 w ≠ b) (h2 : ∀ op ∈ (hostOps2 : List (HloOp τ sig (Elt Ideal))), Proc.devRef .tc b ∉ op.writes)
    (r2 : ∀ w, Pipeline.arrRef spec2 w ≠ b) : W6 m ρ c (Proc.devRef .tc b) = m ((c : Thread nD τ).loc b) :=
  (W6_of_ne m ρ c b r2).trans ((StableHlo.after_of_forall_not_mem _ _ h2).trans (W4_keep m ρ c b h0 r0 h1 r1))

theorem W8_keep (b : Ref sig .tc) (h0 : ∀ op ∈ (hostOps0 : List (HloOp τ sig (Elt Ideal))), Proc.devRef .tc b ∉ op.writes)
    (r0 : ∀ w, Pipeline.arrRef spec0 w ≠ b) (h1 : ∀ op ∈ (hostOps1 : List (HloOp τ sig (Elt Ideal))), Proc.devRef .tc b ∉ op.writes)
    (r1 : ∀ w, Pipeline.arrRef spec1 w ≠ b) (h2 : ∀ op ∈ (hostOps2 : List (HloOp τ sig (Elt Ideal))), Proc.devRef .tc b ∉ op.writes)
    (r2 : ∀ w, Pipeline.arrRef spec2 w ≠ b) (h3 : ∀ op ∈ (hostOps3 : List (HloOp τ sig (Elt Ideal))), Proc.devRef .tc b ∉ op.writes)
    (r3 : ∀ w, Pipeline.arrRef spec3 w ≠ b) : W8 m ρ c (Proc.devRef .tc b) = m ((c : Thread nD τ).loc b) :=
  (W8_of_ne m ρ c b r3).trans ((StableHlo.after_of_forall_not_mem _ _ h3).trans (W6_keep m ρ c b h0 r0 h1 r1 h2 r2))

/-! ## Before the embedding launch -/

theorem V1_x : V1 m ρ c main_arg0 = (m ((c : Thread nD τ).loc main_arg0)) := W1_keep m ρ c main_arg0 (by not_written)
theorem V1_w0 : V1 m ρ c main_arg3 = (m ((c : Thread nD τ).loc main_arg3)) := W1_keep m ρ c main_arg3 (by not_written)

theorem W1_src : W1 m ρ c (Proc.devRef .tc main_v1) = val_main_v1 (F := Ideal) (m ((c : Thread nD τ).loc main_arg1)) := by
  show StableHlo.after hostOps0 (W0 m ρ c) (Proc.devRef .tc main_v1) = _
  after_results
  rfl

theorem W1_dst : W1 m ρ c (Proc.devRef .tc main_v3) = val_main_v3 (F := Ideal) (m ((c : Thread nD τ).loc main_arg1)) := by
  show StableHlo.after hostOps0 (W0 m ρ c) (Proc.devRef .tc main_v3) = _
  after_results
  rfl

theorem V1_biasRow : V1 m ρ c main_v4 = shapeCast S1x128 (m ((c : Thread nD τ).loc main_arg4)) shapeCasts_S128_S1x128 := by
  show StableHlo.after hostOps0 (W0 m ρ c) (Proc.devRef .tc main_v4) = _
  after_results
  rfl

/-! ## The source and destination index vectors at each later boundary: written once, before the embedding launch -/

theorem W2_src : W2 m ρ c (Proc.devRef .tc main_v1) = val_main_v1 (F := Ideal) (m ((c : Thread nD τ).loc main_arg1)) :=
  (W2_of_ne m ρ c main_v1 (by decide)).trans (W1_src m ρ c)
theorem W2_dst : W2 m ρ c (Proc.devRef .tc main_v3) = val_main_v3 (F := Ideal) (m ((c : Thread nD τ).loc main_arg1)) :=
  (W2_of_ne m ρ c main_v3 (by decide)).trans (W1_dst m ρ c)
theorem W4_src : W4 m ρ c (Proc.devRef .tc main_v1) = val_main_v1 (F := Ideal) (m ((c : Thread nD τ).loc main_arg1)) :=
  (W4_of_ne m ρ c main_v1 (by decide)).trans ((StableHlo.after_of_forall_not_mem _ _ (by not_written)).trans (W2_src m ρ c))
theorem W4_dst : W4 m ρ c (Proc.devRef .tc main_v3) = val_main_v3 (F := Ideal) (m ((c : Thread nD τ).loc main_arg1)) :=
  (W4_of_ne m ρ c main_v3 (by decide)).trans ((StableHlo.after_of_forall_not_mem _ _ (by not_written)).trans (W2_dst m ρ c))
theorem W6_src : W6 m ρ c (Proc.devRef .tc main_v1) = val_main_v1 (F := Ideal) (m ((c : Thread nD τ).loc main_arg1)) :=
  (W6_of_ne m ρ c main_v1 (by decide)).trans ((StableHlo.after_of_forall_not_mem _ _ (by not_written)).trans (W4_src m ρ c))
theorem W6_dst : W6 m ρ c (Proc.devRef .tc main_v3) = val_main_v3 (F := Ideal) (m ((c : Thread nD τ).loc main_arg1)) :=
  (W6_of_ne m ρ c main_v3 (by decide)).trans ((StableHlo.after_of_forall_not_mem _ _ (by not_written)).trans (W4_dst m ρ c))

/-! ## Before GIN launch 1 (layer 0) -/

theorem W2_arg5 : W2 m ρ c (Proc.devRef .tc main_arg5) = (m ((c : Thread nD τ).loc main_arg5)) := W2_keep m ρ c main_arg5 (by not_written) (by decide)
theorem W2_arg6 : W2 m ρ c (Proc.devRef .tc main_arg6) = (m ((c : Thread nD τ).loc main_arg6)) := W2_keep m ρ c main_arg6 (by not_written) (by decide)
theorem W2_arg7 : W2 m ρ c (Proc.devRef .tc main_arg7) = (m ((c : Thread nD τ).loc main_arg7)) := W2_keep m ρ c main_arg7 (by not_written) (by decide)
theorem W2_arg8 : W2 m ρ c (Proc.devRef .tc main_arg8) = (m ((c : Thread nD τ).loc main_arg8)) := W2_keep m ρ c main_arg8 (by not_written) (by decide)
theorem W2_arg9 : W2 m ρ c (Proc.devRef .tc main_arg9) = (m ((c : Thread nD τ).loc main_arg9)) := W2_keep m ρ c main_arg9 (by not_written) (by decide)
theorem W2_arg10 : W2 m ρ c (Proc.devRef .tc main_arg10) = (m ((c : Thread nD τ).loc main_arg10)) := W2_keep m ρ c main_arg10 (by not_written) (by decide)
theorem W2_arg11 : W2 m ρ c (Proc.devRef .tc main_arg11) = (m ((c : Thread nD τ).loc main_arg11)) := W2_keep m ρ c main_arg11 (by not_written) (by decide)
theorem W2_arg12 : W2 m ρ c (Proc.devRef .tc main_arg12) = (m ((c : Thread nD τ).loc main_arg12)) := W2_keep m ρ c main_arg12 (by not_written) (by decide)
theorem W2_arg13 : W2 m ρ c (Proc.devRef .tc main_arg13) = (m ((c : Thread nD τ).loc main_arg13)) := W2_keep m ρ c main_arg13 (by not_written) (by decide)
theorem W2_arg14 : W2 m ρ c (Proc.devRef .tc main_arg14) = (m ((c : Thread nD τ).loc main_arg14)) := W2_keep m ρ c main_arg14 (by not_written) (by decide)
theorem W2_arg15 : W2 m ρ c (Proc.devRef .tc main_arg15) = (m ((c : Thread nD τ).loc main_arg15)) := W2_keep m ρ c main_arg15 (by not_written) (by decide)
theorem W2_arg16 : W2 m ρ c (Proc.devRef .tc main_arg16) = (m ((c : Thread nD τ).loc main_arg16)) := W2_keep m ρ c main_arg16 (by not_written) (by decide)
theorem W2_arg17 : W2 m ρ c (Proc.devRef .tc main_arg17) = (m ((c : Thread nD τ).loc main_arg17)) := W2_keep m ρ c main_arg17 (by not_written) (by decide)

/-- The features the launch takes are what the previous launch left. -/
theorem V3_feat : V3 m ρ c main_v5 = W2 m ρ c (Proc.devRef .tc main_v5) := by
  show StableHlo.after hostOps1 (W2 m ρ c) (Proc.devRef .tc main_v5) = _
  untouched

/-- The neighbour sum: the reference's gather and scatter-add, of the previous launch's output. -/
theorem V3_aggr : V3 m ρ c main_v15
    = Host.scatterAdd (F := Ideal) (φ := .f32) Cert.ReferenceIdeal.scatter_S100000x128_S1600000x1_S1600000x128_1_0_0_1 (val_main_v15 (F := Ideal))
        (val_main_v16 (F := Ideal) (m ((c : Thread nD τ).loc main_arg1)))
        (Host.gather (α := Ideal .f32) Cert.ReferenceIdeal.gather_S100000x128_S1600000x1_S1600000x128_1_0_n_n_0_1_1128
          (W2 m ρ c (Proc.devRef .tc main_v5)) (val_main_v13 (F := Ideal) (m ((c : Thread nD τ).loc main_arg1)))) := by
  show StableHlo.after hostOps1 (W2 m ρ c) (Proc.devRef .tc main_v15) = _
  after_results_simp
  rw [W2_src, W2_dst]
  rfl

theorem V3_coef : V3 m ρ c main_v19 = shapeCast S1x1 (val_main_v20 (F := Ideal) (m ((c : Thread nD τ).loc main_arg5))) shapeCasts_S_S1x1 := by
  show StableHlo.after hostOps1 (W2 m ρ c) (Proc.devRef .tc main_v19) = _
  after_results_simp
  rw [W2_arg5]
  rfl

theorem V3_w1 : V3 m ρ c main_v55 = val_main_v25 (F := Ideal) (m ((c : Thread nD τ).loc main_arg6)) := by
  show StableHlo.after hostOps1 (W2 m ρ c) (Proc.devRef .tc main_v55) = _
  after_results_simp
  rw [W2_arg6]
  rfl

theorem V3_scale1 : V3 m ρ c main_v56 = shapeCast S1x256 (val_main_v46 (F := Ideal) (m ((c : Thread nD τ).loc main_arg8)) (m ((c : Thread nD τ).loc main_arg11))) shapeCasts_S256_S1x256 := by
  show StableHlo.after hostOps1 (W2 m ρ c) (Proc.devRef .tc main_v56) = _
  after_results_simp
  rw [W2_arg8, W2_arg11]
  rfl

theorem V3_bias1 : V3 m ρ c main_v57
    = shapeCast S1x256 (addf (F := Ideal) (φ := .f32) (mulf (F := Ideal) (φ := .f32) (subf (F := Ideal) (φ := .f32) (val_main_v28 (F := Ideal) (m ((c : Thread nD τ).loc main_arg7))) (val_main_v37 (F := Ideal) (m ((c : Thread nD τ).loc main_arg10))))
          (val_main_v46 (F := Ideal) (m ((c : Thread nD τ).loc main_arg8)) (m ((c : Thread nD τ).loc main_arg11)))) (val_main_v35 (F := Ideal) (m ((c : Thread nD τ).loc main_arg9)))) shapeCasts_S256_S1x256 := by
  show StableHlo.after hostOps1 (W2 m ρ c) (Proc.devRef .tc main_v57) = _
  after_results_simp
  rw [W2_arg7, W2_arg8, W2_arg9, W2_arg10, W2_arg11]
  rfl

theorem V3_w2 : V3 m ρ c main_v59 = val_main_v55 (F := Ideal) (m ((c : Thread nD τ).loc main_arg12)) := by
  show StableHlo.after hostOps1 (W2 m ρ c) (Proc.devRef .tc main_v59) = _
  after_results_simp
  rw [W2_arg12]
  rfl

theorem V3_scale2 : V3 m ρ c main_v60 = shapeCast S1x128 (val_main_v76 (F := Ideal) (m ((c : Thread nD τ).loc main_arg14)) (m ((c : Thread nD τ).loc main_arg17))) shapeCasts_S128_S1x128 := by
  show StableHlo.after hostOps1 (W2 m ρ c) (Proc.devRef .tc main_v60) = _
  after_results_simp
  rw [W2_arg14, W2_arg17]
  rfl

theorem V3_bias2 : V3 m ρ c main_v61
    = shapeCast S1x128 (addf (F := Ideal) (φ := .f32) (mulf (F := Ideal) (φ := .f32) (subf (F := Ideal) (φ := .f32) (val_main_v58 (F := Ideal) (m ((c : Thread nD τ).loc main_arg13))) (val_main_v67 (F := Ideal) (m ((c : Thread nD τ).loc main_arg16))))
          (val_main_v76 (F := Ideal) (m ((c : Thread nD τ).loc main_arg14)) (m ((c : Thread nD τ).loc main_arg17)))) (val_main_v65 (F := Ideal) (m ((c : Thread nD τ).loc main_arg15)))) shapeCasts_S128_S1x128 := by
  show StableHlo.after hostOps1 (W2 m ρ c) (Proc.devRef .tc main_v61) = _
  after_results_simp
  rw [W2_arg13, W2_arg14, W2_arg15, W2_arg16, W2_arg17]
  rfl

/-! ## Before GIN launch 2 (layer 1) -/

theorem W4_arg5 : W4 m ρ c (Proc.devRef .tc main_arg5) = (m ((c : Thread nD τ).loc main_arg5)) := W4_keep m ρ c main_arg5 (by not_written) (by decide) (by not_written) (by decide)
theorem W4_arg6 : W4 m ρ c (Proc.devRef .tc main_arg6) = (m ((c : Thread nD τ).loc main_arg6)) := W4_keep m ρ c main_arg6 (by not_written) (by decide) (by not_written) (by decide)
theorem W4_arg7 : W4 m ρ c (Proc.devRef .tc main_arg7) = (m ((c : Thread nD τ).loc main_arg7)) := W4_keep m ρ c main_arg7 (by not_written) (by decide) (by not_written) (by decide)
theorem W4_arg8 : W4 m ρ c (Proc.devRef .tc main_arg8) = (m ((c : Thread nD τ).loc main_arg8)) := W4_keep m ρ c main_arg8 (by not_written) (by decide) (by not_written) (by decide)
theorem W4_arg9 : W4 m ρ c (Proc.devRef .tc main_arg9) = (m ((c : Thread nD τ).loc main_arg9)) := W4_keep m ρ c main_arg9 (by not_written) (by decide) (by not_written) (by decide)
theorem W4_arg10 : W4 m ρ c (Proc.devRef .tc main_arg10) = (m ((c : Thread nD τ).loc main_arg10)) := W4_keep m ρ c main_arg10 (by not_written) (by decide) (by not_written) (by decide)
theorem W4_arg11 : W4 m ρ c (Proc.devRef .tc main_arg11) = (m ((c : Thread nD τ).loc main_arg11)) := W4_keep m ρ c main_arg11 (by not_written) (by decide) (by not_written) (by decide)
theorem W4_arg12 : W4 m ρ c (Proc.devRef .tc main_arg12) = (m ((c : Thread nD τ).loc main_arg12)) := W4_keep m ρ c main_arg12 (by not_written) (by decide) (by not_written) (by decide)
theorem W4_arg13 : W4 m ρ c (Proc.devRef .tc main_arg13) = (m ((c : Thread nD τ).loc main_arg13)) := W4_keep m ρ c main_arg13 (by not_written) (by decide) (by not_written) (by decide)
theorem W4_arg14 : W4 m ρ c (Proc.devRef .tc main_arg14) = (m ((c : Thread nD τ).loc main_arg14)) := W4_keep m ρ c main_arg14 (by not_written) (by decide) (by not_written) (by decide)
theorem W4_arg15 : W4 m ρ c (Proc.devRef .tc main_arg15) = (m ((c : Thread nD τ).loc main_arg15)) := W4_keep m ρ c main_arg15 (by not_written) (by decide) (by not_written) (by decide)
theorem W4_arg16 : W4 m ρ c (Proc.devRef .tc main_arg16) = (m ((c : Thread nD τ).loc main_arg16)) := W4_keep m ρ c main_arg16 (by not_written) (by decide) (by not_written) (by decide)
theorem W4_arg17 : W4 m ρ c (Proc.devRef .tc main_arg17) = (m ((c : Thread nD τ).loc main_arg17)) := W4_keep m ρ c main_arg17 (by not_written) (by decide) (by not_written) (by decide)

/-- The features the launch takes are what the previous launch left. -/
theorem V5_feat : V5 m ρ c main_v62 = W4 m ρ c (Proc.devRef .tc main_v62) := by
  show StableHlo.after hostOps2 (W4 m ρ c) (Proc.devRef .tc main_v62) = _
  untouched

/-- The neighbour sum: the reference's gather and scatter-add, of the previous launch's output. -/
theorem V5_aggr : V5 m ρ c main_v72
    = Host.scatterAdd (F := Ideal) (φ := .f32) Cert.ReferenceIdeal.scatter_S100000x128_S1600000x1_S1600000x128_1_0_0_1 (val_main_v92 (F := Ideal))
        (val_main_v93 (F := Ideal) (m ((c : Thread nD τ).loc main_arg1)))
        (Host.gather (α := Ideal .f32) Cert.ReferenceIdeal.gather_S100000x128_S1600000x1_S1600000x128_1_0_n_n_0_1_1128
          (W4 m ρ c (Proc.devRef .tc main_v62)) (val_main_v90 (F := Ideal) (m ((c : Thread nD τ).loc main_arg1)))) := by
  show StableHlo.after hostOps2 (W4 m ρ c) (Proc.devRef .tc main_v72) = _
  after_results_simp
  rw [W4_src, W4_dst]
  rfl

theorem V5_coef : V5 m ρ c main_v76 = shapeCast S1x1 (val_main_v97 (F := Ideal) (m ((c : Thread nD τ).loc main_arg5))) shapeCasts_S_S1x1 := by
  show StableHlo.after hostOps2 (W4 m ρ c) (Proc.devRef .tc main_v76) = _
  after_results_simp
  rw [W4_arg5]
  rfl

theorem V5_w1 : V5 m ρ c main_v112 = val_main_v102 (F := Ideal) (m ((c : Thread nD τ).loc main_arg6)) := by
  show StableHlo.after hostOps2 (W4 m ρ c) (Proc.devRef .tc main_v112) = _
  after_results_simp
  rw [W4_arg6]
  rfl

theorem V5_scale1 : V5 m ρ c main_v113 = shapeCast S1x256 (val_main_v123 (F := Ideal) (m ((c : Thread nD τ).loc main_arg8)) (m ((c : Thread nD τ).loc main_arg11))) shapeCasts_S256_S1x256 := by
  show StableHlo.after hostOps2 (W4 m ρ c) (Proc.devRef .tc main_v113) = _
  after_results_simp
  rw [W4_arg8, W4_arg11]
  rfl

theorem V5_bias1 : V5 m ρ c main_v114
    = shapeCast S1x256 (addf (F := Ideal) (φ := .f32) (mulf (F := Ideal) (φ := .f32) (subf (F := Ideal) (φ := .f32) (val_main_v105 (F := Ideal) (m ((c : Thread nD τ).loc main_arg7))) (val_main_v114 (F := Ideal) (m ((c : Thread nD τ).loc main_arg10))))
          (val_main_v123 (F := Ideal) (m ((c : Thread nD τ).loc main_arg8)) (m ((c : Thread nD τ).loc main_arg11)))) (val_main_v112 (F := Ideal) (m ((c : Thread nD τ).loc main_arg9)))) shapeCasts_S256_S1x256 := by
  show StableHlo.after hostOps2 (W4 m ρ c) (Proc.devRef .tc main_v114) = _
  after_results_simp
  rw [W4_arg7, W4_arg8, W4_arg9, W4_arg10, W4_arg11]
  rfl

theorem V5_w2 : V5 m ρ c main_v116 = val_main_v132 (F := Ideal) (m ((c : Thread nD τ).loc main_arg12)) := by
  show StableHlo.after hostOps2 (W4 m ρ c) (Proc.devRef .tc main_v116) = _
  after_results_simp
  rw [W4_arg12]
  rfl

theorem V5_scale2 : V5 m ρ c main_v117 = shapeCast S1x128 (val_main_v153 (F := Ideal) (m ((c : Thread nD τ).loc main_arg14)) (m ((c : Thread nD τ).loc main_arg17))) shapeCasts_S128_S1x128 := by
  show StableHlo.after hostOps2 (W4 m ρ c) (Proc.devRef .tc main_v117) = _
  after_results_simp
  rw [W4_arg14, W4_arg17]
  rfl

theorem V5_bias2 : V5 m ρ c main_v118
    = shapeCast S1x128 (addf (F := Ideal) (φ := .f32) (mulf (F := Ideal) (φ := .f32) (subf (F := Ideal) (φ := .f32) (val_main_v135 (F := Ideal) (m ((c : Thread nD τ).loc main_arg13))) (val_main_v144 (F := Ideal) (m ((c : Thread nD τ).loc main_arg16))))
          (val_main_v153 (F := Ideal) (m ((c : Thread nD τ).loc main_arg14)) (m ((c : Thread nD τ).loc main_arg17)))) (val_main_v142 (F := Ideal) (m ((c : Thread nD τ).loc main_arg15)))) shapeCasts_S128_S1x128 := by
  show StableHlo.after hostOps2 (W4 m ρ c) (Proc.devRef .tc main_v118) = _
  after_results_simp
  rw [W4_arg13, W4_arg14, W4_arg15, W4_arg16, W4_arg17]
  rfl

/-! ## Before GIN launch 3 (layer 2) -/

theorem W6_arg5 : W6 m ρ c (Proc.devRef .tc main_arg5) = (m ((c : Thread nD τ).loc main_arg5)) := W6_keep m ρ c main_arg5 (by not_written) (by decide) (by not_written) (by decide) (by not_written) (by decide)
theorem W6_arg6 : W6 m ρ c (Proc.devRef .tc main_arg6) = (m ((c : Thread nD τ).loc main_arg6)) := W6_keep m ρ c main_arg6 (by not_written) (by decide) (by not_written) (by decide) (by not_written) (by decide)
theorem W6_arg7 : W6 m ρ c (Proc.devRef .tc main_arg7) = (m ((c : Thread nD τ).loc main_arg7)) := W6_keep m ρ c main_arg7 (by not_written) (by decide) (by not_written) (by decide) (by not_written) (by decide)
theorem W6_arg8 : W6 m ρ c (Proc.devRef .tc main_arg8) = (m ((c : Thread nD τ).loc main_arg8)) := W6_keep m ρ c main_arg8 (by not_written) (by decide) (by not_written) (by decide) (by not_written) (by decide)
theorem W6_arg9 : W6 m ρ c (Proc.devRef .tc main_arg9) = (m ((c : Thread nD τ).loc main_arg9)) := W6_keep m ρ c main_arg9 (by not_written) (by decide) (by not_written) (by decide) (by not_written) (by decide)
theorem W6_arg10 : W6 m ρ c (Proc.devRef .tc main_arg10) = (m ((c : Thread nD τ).loc main_arg10)) := W6_keep m ρ c main_arg10 (by not_written) (by decide) (by not_written) (by decide) (by not_written) (by decide)
theorem W6_arg11 : W6 m ρ c (Proc.devRef .tc main_arg11) = (m ((c : Thread nD τ).loc main_arg11)) := W6_keep m ρ c main_arg11 (by not_written) (by decide) (by not_written) (by decide) (by not_written) (by decide)
theorem W6_arg12 : W6 m ρ c (Proc.devRef .tc main_arg12) = (m ((c : Thread nD τ).loc main_arg12)) := W6_keep m ρ c main_arg12 (by not_written) (by decide) (by not_written) (by decide) (by not_written) (by decide)
theorem W6_arg13 : W6 m ρ c (Proc.devRef .tc main_arg13) = (m ((c : Thread nD τ).loc main_arg13)) := W6_keep m ρ c main_arg13 (by not_written) (by decide) (by not_written) (by decide) (by not_written) (by decide)
theorem W6_arg14 : W6 m ρ c (Proc.devRef .tc main_arg14) = (m ((c : Thread nD τ).loc main_arg14)) := W6_keep m ρ c main_arg14 (by not_written) (by decide) (by not_written) (by decide) (by not_written) (by decide)
theorem W6_arg15 : W6 m ρ c (Proc.devRef .tc main_arg15) = (m ((c : Thread nD τ).loc main_arg15)) := W6_keep m ρ c main_arg15 (by not_written) (by decide) (by not_written) (by decide) (by not_written) (by decide)
theorem W6_arg16 : W6 m ρ c (Proc.devRef .tc main_arg16) = (m ((c : Thread nD τ).loc main_arg16)) := W6_keep m ρ c main_arg16 (by not_written) (by decide) (by not_written) (by decide) (by not_written) (by decide)
theorem W6_arg17 : W6 m ρ c (Proc.devRef .tc main_arg17) = (m ((c : Thread nD τ).loc main_arg17)) := W6_keep m ρ c main_arg17 (by not_written) (by decide) (by not_written) (by decide) (by not_written) (by decide)

/-- The features the launch takes are what the previous launch left. -/
theorem V7_feat : V7 m ρ c main_v119 = W6 m ρ c (Proc.devRef .tc main_v119) := by
  show StableHlo.after hostOps3 (W6 m ρ c) (Proc.devRef .tc main_v119) = _
  untouched

/-- The neighbour sum: the reference's gather and scatter-add, of the previous launch's output. -/
theorem V7_aggr : V7 m ρ c main_v129
    = Host.scatterAdd (F := Ideal) (φ := .f32) Cert.ReferenceIdeal.scatter_S100000x128_S1600000x1_S1600000x128_1_0_0_1 (val_main_v169 (F := Ideal))
        (val_main_v170 (F := Ideal) (m ((c : Thread nD τ).loc main_arg1)))
        (Host.gather (α := Ideal .f32) Cert.ReferenceIdeal.gather_S100000x128_S1600000x1_S1600000x128_1_0_n_n_0_1_1128
          (W6 m ρ c (Proc.devRef .tc main_v119)) (val_main_v167 (F := Ideal) (m ((c : Thread nD τ).loc main_arg1)))) := by
  show StableHlo.after hostOps3 (W6 m ρ c) (Proc.devRef .tc main_v129) = _
  after_results_simp
  rw [W6_src, W6_dst]
  rfl

theorem V7_coef : V7 m ρ c main_v133 = shapeCast S1x1 (val_main_v174 (F := Ideal) (m ((c : Thread nD τ).loc main_arg5))) shapeCasts_S_S1x1 := by
  show StableHlo.after hostOps3 (W6 m ρ c) (Proc.devRef .tc main_v133) = _
  after_results_simp
  rw [W6_arg5]
  rfl

theorem V7_w1 : V7 m ρ c main_v169 = val_main_v179 (F := Ideal) (m ((c : Thread nD τ).loc main_arg6)) := by
  show StableHlo.after hostOps3 (W6 m ρ c) (Proc.devRef .tc main_v169) = _
  after_results_simp
  rw [W6_arg6]
  rfl

theorem V7_scale1 : V7 m ρ c main_v170 = shapeCast S1x256 (val_main_v200 (F := Ideal) (m ((c : Thread nD τ).loc main_arg8)) (m ((c : Thread nD τ).loc main_arg11))) shapeCasts_S256_S1x256 := by
  show StableHlo.after hostOps3 (W6 m ρ c) (Proc.devRef .tc main_v170) = _
  after_results_simp
  rw [W6_arg8, W6_arg11]
  rfl

theorem V7_bias1 : V7 m ρ c main_v171
    = shapeCast S1x256 (addf (F := Ideal) (φ := .f32) (mulf (F := Ideal) (φ := .f32) (subf (F := Ideal) (φ := .f32) (val_main_v182 (F := Ideal) (m ((c : Thread nD τ).loc main_arg7))) (val_main_v191 (F := Ideal) (m ((c : Thread nD τ).loc main_arg10))))
          (val_main_v200 (F := Ideal) (m ((c : Thread nD τ).loc main_arg8)) (m ((c : Thread nD τ).loc main_arg11)))) (val_main_v189 (F := Ideal) (m ((c : Thread nD τ).loc main_arg9)))) shapeCasts_S256_S1x256 := by
  show StableHlo.after hostOps3 (W6 m ρ c) (Proc.devRef .tc main_v171) = _
  after_results_simp
  rw [W6_arg7, W6_arg8, W6_arg9, W6_arg10, W6_arg11]
  rfl

theorem V7_w2 : V7 m ρ c main_v173 = val_main_v209 (F := Ideal) (m ((c : Thread nD τ).loc main_arg12)) := by
  show StableHlo.after hostOps3 (W6 m ρ c) (Proc.devRef .tc main_v173) = _
  after_results_simp
  rw [W6_arg12]
  rfl

theorem V7_scale2 : V7 m ρ c main_v174 = shapeCast S1x128 (val_main_v230 (F := Ideal) (m ((c : Thread nD τ).loc main_arg14)) (m ((c : Thread nD τ).loc main_arg17))) shapeCasts_S128_S1x128 := by
  show StableHlo.after hostOps3 (W6 m ρ c) (Proc.devRef .tc main_v174) = _
  after_results_simp
  rw [W6_arg14, W6_arg17]
  rfl

theorem V7_bias2 : V7 m ρ c main_v175
    = shapeCast S1x128 (addf (F := Ideal) (φ := .f32) (mulf (F := Ideal) (φ := .f32) (subf (F := Ideal) (φ := .f32) (val_main_v212 (F := Ideal) (m ((c : Thread nD τ).loc main_arg13))) (val_main_v221 (F := Ideal) (m ((c : Thread nD τ).loc main_arg16))))
          (val_main_v230 (F := Ideal) (m ((c : Thread nD τ).loc main_arg14)) (m ((c : Thread nD τ).loc main_arg17)))) (val_main_v219 (F := Ideal) (m ((c : Thread nD τ).loc main_arg15)))) shapeCasts_S128_S1x128 := by
  show StableHlo.after hostOps3 (W6 m ρ c) (Proc.devRef .tc main_v175) = _
  after_results_simp
  rw [W6_arg13, W6_arg14, W6_arg15, W6_arg16, W6_arg17]
  rfl

/-! ## Before the read-out launch -/

theorem W8_arg2 : W8 m ρ c (Proc.devRef .tc main_arg2) = (m ((c : Thread nD τ).loc main_arg2)) := W8_keep m ρ c main_arg2 (by not_written) (by decide) (by not_written) (by decide) (by not_written) (by decide) (by not_written) (by decide)
theorem W8_arg18 : W8 m ρ c (Proc.devRef .tc main_arg18) = (m ((c : Thread nD τ).loc main_arg18)) := W8_keep m ρ c main_arg18 (by not_written) (by decide) (by not_written) (by decide) (by not_written) (by decide) (by not_written) (by decide)
theorem W8_arg19 : W8 m ρ c (Proc.devRef .tc main_arg19) = (m ((c : Thread nD τ).loc main_arg19)) := W8_keep m ρ c main_arg19 (by not_written) (by decide) (by not_written) (by decide) (by not_written) (by decide) (by not_written) (by decide)
theorem W8_arg20 : W8 m ρ c (Proc.devRef .tc main_arg20) = (m ((c : Thread nD τ).loc main_arg20)) := W8_keep m ρ c main_arg20 (by not_written) (by decide) (by not_written) (by decide) (by not_written) (by decide) (by not_written) (by decide)
theorem W8_arg21 : W8 m ρ c (Proc.devRef .tc main_arg21) = (m ((c : Thread nD τ).loc main_arg21)) := W8_keep m ρ c main_arg21 (by not_written) (by decide) (by not_written) (by decide) (by not_written) (by decide) (by not_written) (by decide)
theorem W8_arg22 : W8 m ρ c (Proc.devRef .tc main_arg22) = (m ((c : Thread nD τ).loc main_arg22)) := W8_keep m ρ c main_arg22 (by not_written) (by decide) (by not_written) (by decide) (by not_written) (by decide) (by not_written) (by decide)
theorem W8_arg23 : W8 m ρ c (Proc.devRef .tc main_arg23) = (m ((c : Thread nD τ).loc main_arg23)) := W8_keep m ρ c main_arg23 (by not_written) (by decide) (by not_written) (by decide) (by not_written) (by decide) (by not_written) (by decide)

/-- The pooled features: the reference's scatter-add by graph, of the last GIN launch's output. -/
theorem V9_pool : V9 m ρ c main_v179
    = Host.scatterAdd (F := Ideal) (φ := .f32) Cert.ReferenceIdeal.scatter_S512x128_S100000x1_S100000x128_1_0_0_1 (val_main_v239 (F := Ideal))
        (val_main_v240 (F := Ideal) (m ((c : Thread nD τ).loc main_arg2))) (W8 m ρ c (Proc.devRef .tc main_v176)) := by
  show StableHlo.after hostOps4 (W8 m ρ c) (Proc.devRef .tc main_v179) = _
  after_results_simp
  rw [W8_arg2]
  rfl

theorem V9_wa : V9 m ρ c main_arg18 = (m ((c : Thread nD τ).loc main_arg18)) := by
  show StableHlo.after hostOps4 (W8 m ρ c) (Proc.devRef .tc main_arg18) = _
  exact (StableHlo.after_of_forall_not_mem _ _ (by not_written)).trans (W8_arg18 m ρ c)
theorem V9_wb : V9 m ρ c main_arg20 = (m ((c : Thread nD τ).loc main_arg20)) := by
  show StableHlo.after hostOps4 (W8 m ρ c) (Proc.devRef .tc main_arg20) = _
  exact (StableHlo.after_of_forall_not_mem _ _ (by not_written)).trans (W8_arg20 m ρ c)
theorem V9_wc : V9 m ρ c main_arg22 = (m ((c : Thread nD τ).loc main_arg22)) := by
  show StableHlo.after hostOps4 (W8 m ρ c) (Proc.devRef .tc main_arg22) = _
  exact (StableHlo.after_of_forall_not_mem _ _ (by not_written)).trans (W8_arg22 m ρ c)

theorem V9_ba : V9 m ρ c main_v180 = shapeCast S1x128 (m ((c : Thread nD τ).loc main_arg19)) shapeCasts_S128_S1x128 := by
  show StableHlo.after hostOps4 (W8 m ρ c) (Proc.devRef .tc main_v180) = _
  after_results_simp
  rw [W8_arg19]
  rfl
theorem V9_bb : V9 m ρ c main_v181 = shapeCast S1x64 (m ((c : Thread nD τ).loc main_arg21)) shapeCasts_S64_S1x64 := by
  show StableHlo.after hostOps4 (W8 m ρ c) (Proc.devRef .tc main_v181) = _
  after_results_simp
  rw [W8_arg21]
  rfl
theorem V9_bc : V9 m ρ c main_v182 = shapeCast S1x3 (m ((c : Thread nD τ).loc main_arg23)) shapeCasts_S3_S1x3 := by
  show StableHlo.after hostOps4 (W8 m ρ c) (Proc.devRef .tc main_v182) = _
  after_results_simp
  rw [W8_arg23]
  rfl

end Cert.KernelIdeal.HostChain

end
-- ==== Proof.BnFold.lean ====
/-
  Folding an affine normalisation into a scale and a bias, on the extended reals.

  A batch normalisation in evaluation mode sends a pre-activation `u` to `((u + b) - m) * s + β`, where `b` is the
  linear layer's bias, `m` the running mean, `β` the shift and `s = g * rsqrt (v + ε)` the scale made of the gain `g`,
  the running variance `v` and a positive `ε`. The same map can be written `u * s + ((b - m) * s + β)`: the scale
  and the bias are computed once from the parameters and the pre-activation is touched by one multiply and one add.
  The two forms differ by distributing `s` over `u + (b - m)`. On the extended reals that law fails when `s` is
  infinite (`(3 - 2) * ⊤ = ⊤` but `3 * ⊤ + (-2) * ⊤ = ⊤ + ⊥ = ⊥`), so it is proved here for a REAL scale and a REAL
  offset and an ARBITRARY extended-real `u` — the pre-activation needs no finiteness — and the scale is real as
  soon as the gain is real and `v + ε` is a positive real, which `0 ≤ v` and `0 < ε` give.
-/
import Idealize.ShloMosaic.PureOps.Ideal

noncomputable section

namespace Cert.BnFold

open Idealize.ShloMosaic

/-- Distributing a real factor over the sum of an arbitrary extended real and a real: at `u = ⊤` or `u = ⊥` both sides
    are the infinity whose sign is that of `s` (or `0` when `s = 0`), because adding the real `d`, or the real `d * s`,
    does not move an infinity. -/
theorem add_coe_mul_coe (u : EReal) (d s : ℝ) : (u + (d : EReal)) * (s : EReal) = u * (s : EReal) + (d : EReal) * (s : EReal) := by
  induction u using EReal.rec with
  | bot =>
    rw [EReal.bot_add]
    rcases lt_trichotomy s 0 with hs | hs | hs
    · rw [EReal.bot_mul_coe_of_neg hs, ← EReal.coe_mul, EReal.top_add_coe]
    · subst hs; simp
    · rw [EReal.bot_mul_coe_of_pos hs, EReal.bot_add]
  | coe x =>
    rw [← EReal.coe_add, ← EReal.coe_mul, ← EReal.coe_mul, ← EReal.coe_mul, ← EReal.coe_add, add_mul]
  | top =>
    rw [EReal.top_add_coe]
    rcases lt_trichotomy s 0 with hs | hs | hs
    · rw [EReal.top_mul_coe_of_neg hs, EReal.bot_add]
    · subst hs; simp
    · rw [EReal.top_mul_coe_of_pos hs, ← EReal.coe_mul, EReal.top_add_coe]

/-- The normalisation with a real offset `b - m` and a real scale `s`, in its two forms. -/
theorem fold_coe (u β : EReal) (b m s : ℝ) :
    ((u + (b : EReal)) - (m : EReal)) * (s : EReal) + β
      = u * (s : EReal) + (((b : EReal) - (m : EReal)) * (s : EReal) + β) := by
  have h1 : (u + (b : EReal)) - (m : EReal) = u + ((b - m : ℝ) : EReal) := by
    rw [sub_eq_add_neg, add_assoc, ← EReal.coe_neg, ← EReal.coe_add, ← sub_eq_add_neg]
  have h2 : (b : EReal) - (m : EReal) = ((b - m : ℝ) : EReal) := (EReal.coe_sub b m).symm
  rw [h1, h2, add_coe_mul_coe, add_assoc]

/-- The reciprocal square root of a positive real is a real. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- The scale `g * rsqrt (v + ε)` of real parameters with `0 ≤ v`, `0 < ε` is a real. -/
theorem scale_real (g v ε : ℝ) (hv : 0 ≤ v) (hε : 0 < ε) :
    (g : EReal) * Ideal.rsqrt ((v : EReal) + (ε : EReal)) = ((g * (Real.sqrt (v + ε))⁻¹ : ℝ) : EReal) := by
  rw [← EReal.coe_add, rsqrt_pos (v + ε) (by linarith), ← EReal.coe_mul]

/-- THE FOLD, in the form both programs spell it: for real bias, mean, gain, variance `0 ≤ v` and `0 < ε`, and any
    extended-real pre-activation `u` and shift `β`. -/
theorem fold (u β : EReal) (b m g v ε : ℝ) (hv : 0 ≤ v) (hε : 0 < ε) :
    ((u + (b : EReal)) - (m : EReal)) * ((g : EReal) * Ideal.rsqrt ((v : EReal) + (ε : EReal))) + β
      = u * ((g : EReal) * Ideal.rsqrt ((v : EReal) + (ε : EReal)))
        + (((b : EReal) - (m : EReal)) * ((g : EReal) * Ideal.rsqrt ((v : EReal) + (ε : EReal))) + β) := by
  rw [scale_real g v ε hv hε]
  exact fold_coe u β b m _

/-- The float literal `9.99999974e-6` (the nearest single-precision number to `1e-5`) denotes a positive real. -/
theorem eps_pos : ∃ ε : ℝ, 0 < ε ∧ Ideal.ofBits .f32 0x3727C5AC#32 = (ε : EReal) := by
  refine ⟨10995116 / 1099511627776, by norm_num, ?_⟩
  simp [Ideal.ofBits, Ideal.ieee, -EReal.coe_mul]
  norm_num

end Cert.BnFold

end
-- ==== Proof.GinSpec.lean ====
/-
  The network, one node (one row) at a time, on the extended reals.

  Every dense stage of the graph network acts on a node's feature row alone: the embedding `x W₀ + b₀`, the GIN
  update `relu (BN₂ (relu (BN₁ (z W₁ + b₁)) W₂ + b₂)) + h` with `z = c · h + a` (`h` the node's features, `a` the sum of its
  in-neighbours' features, `c = 1 + ε_l`), and the read-out `relu (relu (g W_a + b_a) W_b + b_b) W_c + b_c` of a pooled
  graph row. The stages are stated over plain functions of `Fin` indices; an array `X` of shape `[n, d]` enters as
  `fun r j => X (ix2 r j)`.

  The GIN update has two spellings. `ginRowNorm` normalises after each linear map, `((u + b) - m) * (g * rsqrt (v + ε)) + β`;
  `ginRowFolded` takes a scale `s` and a bias `t` per channel and computes `u * s + t`. `ginRow_fold` says they agree
  when `s = g * rsqrt (v + ε)` and `t = (b - m) * s + β`, provided the bias, mean, gain and variance are real numbers,
  the variance is non-negative and `ε` is a positive real. Nothing is asked of the features, the neighbour sum or the
  weights: the pre-activations may be any extended reals (Proof/BnFold.lean).
-/
import proofs.«156994_j78795470012791_1_alg».proof.Proof.BnFold

noncomputable section

namespace Cert.GinSpec

open Idealize.ShloMosaic

/-- A node's embedded features: `(x W)_q + b_q`. -/
def embedRow (x : Fin 64 → EReal) (w : Fin 64 → Fin 128 → EReal) (b : Fin 128 → EReal) (q : Fin 128) : EReal :=
  (∑ k : Fin 64, x k * w k q) + b q

/-- The GIN update of one node with each normalisation folded into a per-channel scale and bias. -/
def ginRowFolded (h a : Fin 128 → EReal) (c : EReal) (w1 : Fin 128 → Fin 256 → EReal) (s1 t1 : Fin 256 → EReal)
    (w2 : Fin 256 → Fin 128 → EReal) (s2 t2 : Fin 128 → EReal) (q : Fin 128) : EReal :=
  max ((∑ k : Fin 256, max ((∑ j : Fin 128, (c * h j + a j) * w1 j k) * s1 k + t1 k) 0 * w2 k q) * s2 q + t2 q) 0 + h q

/-- The GIN update of one node with each normalisation applied to the biased pre-activation. -/
def ginRowNorm (h a : Fin 128 → EReal) (c : EReal) (w1 : Fin 128 → Fin 256 → EReal) (b1 g1 β1 m1 v1 : Fin 256 → EReal)
    (w2 : Fin 256 → Fin 128 → EReal) (b2 g2 β2 m2 v2 : Fin 128 → EReal) (ε : EReal) (q : Fin 128) : EReal :=
  max ((((∑ k : Fin 256,
            max ((((∑ j : Fin 128, (c * h j + a j) * w1 j k) + b1 k) - m1 k) * (g1 k * Ideal.rsqrt (v1 k + ε)) + β1 k) 0 * w2 k q)
          + b2 q) - m2 q) * (g2 q * Ideal.rsqrt (v2 q + ε)) + β2 q) 0 + h q

/-- A pooled graph row through the read-out network. -/
def readoutRow (g : Fin 128 → EReal) (wa : Fin 128 → Fin 128 → EReal) (ba : Fin 128 → EReal)
    (wb : Fin 128 → Fin 64 → EReal) (bb : Fin 64 → EReal) (wc : Fin 64 → Fin 3 → EReal) (bc : Fin 3 → EReal) (q : Fin 3) : EReal :=
  (∑ k : Fin 64, max ((∑ j : Fin 128, max ((∑ i : Fin 128, g i * wa i j) + ba j) 0 * wb j k) + bb k) 0 * wc k q) + bc q

/-- The two spellings of the GIN update agree under real normalisation parameters with non-negative variances. -/
theorem ginRow_fold (h a : Fin 128 → EReal) (c : EReal) (w1 : Fin 128 → Fin 256 → EReal) (b1 g1 β1 m1 v1 : Fin 256 → EReal)
    (w2 : Fin 256 → Fin 128 → EReal) (b2 g2 β2 m2 v2 : Fin 128 → EReal) (ε : EReal)
    (hε : ∃ e : ℝ, 0 < e ∧ ε = (e : EReal))
    (hb1 : ∀ k, ∃ r : ℝ, b1 k = (r : EReal)) (hm1 : ∀ k, ∃ r : ℝ, m1 k = (r : EReal)) (hg1 : ∀ k, ∃ r : ℝ, g1 k = (r : EReal))
    (hv1 : ∀ k, ∃ r : ℝ, 0 ≤ r ∧ v1 k = (r : EReal))
    (hb2 : ∀ k, ∃ r : ℝ, b2 k = (r : EReal)) (hm2 : ∀ k, ∃ r : ℝ, m2 k = (r : EReal)) (hg2 : ∀ k, ∃ r : ℝ, g2 k = (r : EReal))
    (hv2 : ∀ k, ∃ r : ℝ, 0 ≤ r ∧ v2 k = (r : EReal)) (q : Fin 128) :
    ginRowNorm h a c w1 b1 g1 β1 m1 v1 w2 b2 g2 β2 m2 v2 ε q
      = ginRowFolded h a c w1 (fun k => g1 k * Ideal.rsqrt (v1 k + ε))
          (fun k => (b1 k - m1 k) * (g1 k * Ideal.rsqrt (v1 k + ε)) + β1 k)
          w2 (fun k => g2 k * Ideal.rsqrt (v2 k + ε))
          (fun k => (b2 k - m2 k) * (g2 k * Ideal.rsqrt (v2 k + ε)) + β2 k) q := by
  obtain ⟨e, he, rfl⟩ := hε
  have inner : ∀ k : Fin 256,
      (((∑ j : Fin 128, (c * h j + a j) * w1 j k) + b1 k) - m1 k) * (g1 k * Ideal.rsqrt (v1 k + (e : EReal))) + β1 k
        = (∑ j : Fin 128, (c * h j + a j) * w1 j k) * (g1 k * Ideal.rsqrt (v1 k + (e : EReal)))
          + ((b1 k - m1 k) * (g1 k * Ideal.rsqrt (v1 k + (e : EReal))) + β1 k) := fun k => by
    obtain ⟨b, hb⟩ := hb1 k; obtain ⟨m, hm⟩ := hm1 k; obtain ⟨g, hg⟩ := hg1 k; obtain ⟨v, hv, hv'⟩ := hv1 k
    rw [hb, hm, hg, hv']
    exact Cert.BnFold.fold _ _ b m g v e hv he
  unfold ginRowNorm ginRowFolded
  obtain ⟨b, hb⟩ := hb2 q; obtain ⟨m, hm⟩ := hm2 q; obtain ⟨g, hg⟩ := hg2 q; obtain ⟨v, hv, hv'⟩ := hv2 q
  simp only [inner]
  rw [hb, hm, hg, hv']
  rw [Cert.BnFold.fold _ _ b m g v e hv he]

end Cert.GinSpec

end
-- ==== Proof.Region0.lean ====
/-
  The embedding kernel, from blocks to the whole array, on the extended reals.

  The kernel body at a row of its block is that row times the weight matrix plus the bias row (`pay0_apply`): the product
  into the zero accumulator is a plain sum over the contracted axis, the roundings to a narrower format are the identity,
  the broadcast of the bias row reads its one row. The input window and the output window move one block of 4000 rows
  per grid point; the weight and bias windows stay on their whole arrays. So the block the pipeline writes back at point
  `t` is block `t` of one function of the entry arrays (`flushed0_eq`), the 25 blocks cover the 100000 rows (`cover0`), and
  the output array ends holding that function (`final0`, `region0_value`).
-/
import proofs.«156994_j78795470012791_1_alg».proof.Proof.Gen.KernelIdeal.Frame
import proofs.«156994_j78795470012791_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block access. -/
theorem hz_r0 : (![0, 0] : Fin 2 → Nat) = fun _ => 0 := funext fun a => by fin_cases a <;> rfl

/-- A row vector broadcast along the rows, read at an index: the row's entry in that column. -/
theorem bcast_row_apply_r0 {m n : Nat} (v : (⟨2, ![1, n]⟩ : Shape).Idx → EReal) (h : (⟨2, ![1, n]⟩ : Shape).Broadcasts ⟨2, ![m, n]⟩)
    (hn : n ≠ 1) (p : Fin m) (q : Fin n) :
    broadcastTo (⟨2, ![m, n]⟩ : Shape) v h (ix2 p q) = v (ix2 0 q) :=
  broadcastTo_apply v h (ix2 p q) (ix2 0 q) (fun a => by
    match a with
    | ⟨0, _⟩ => rfl
    | ⟨1, _⟩ => show q.val = if n = 1 then 0 else q.val; rw [if_neg hn])

/-- A single entry broadcast to a matrix, read at an index: that entry. -/
theorem bcast_one_apply_r0 {m n : Nat} (v : (⟨2, ![1, 1]⟩ : Shape).Idx → EReal) (h : (⟨2, ![1, 1]⟩ : Shape).Broadcasts ⟨2, ![m, n]⟩)
    (p : Fin m) (q : Fin n) :
    broadcastTo (⟨2, ![m, n]⟩ : Shape) v h (ix2 p q) = v (ix2 0 0) :=
  broadcastTo_apply v h (ix2 p q) (ix2 0 0) (fun a => by
    match a with
    | ⟨0, _⟩ => rfl
    | ⟨1, _⟩ => rfl)

/-- A `[4000,64] × [64,128]` product into the zero accumulator, read at row `p` and column `q`: the sum over the
    contracted axis of the products of row `p` of the left factor with column `q` of the right one. -/
theorem matmul_64_128_apply_r0 (l : FVec Ideal S4000x64 .bf16) (r : FVec Ideal S64x128 .bf16) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun a => Fin.ext (by
    match a with
    | ⟨0, _⟩ =>
      show (dot_S4000x64_S64x128_S4000x128_1_0_0_1_n_n.lhsIdx (ix2 p q) _ 0).val = p.val
      unfold DotDims.lhsIdx
      rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
      rfl
    | ⟨1, _⟩ => exact (dot_S4000x64_S64x128_S4000x128_1_0_0_1_n_n.lhsIdx_val_of_single rfl _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun a => Fin.ext (by
    match a with
    | ⟨0, _⟩ => exact (dot_S4000x64_S64x128_S4000x128_1_0_0_1_n_n.rhsIdx_val_of_single rfl _ _).trans hk
    | ⟨1, _⟩ =>
      show (dot_S4000x64_S64x128_S4000x128_1_0_0_1_n_n.rhsIdx (ix2 p q) _ 1).val = q.val
      unfold DotDims.rhsIdx
      rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
      rfl)
  rw [el, er]

/-- The body of the embedding kernel at row `p`, column `q` of its block: that row's embedding. -/
theorem pay0_apply (x0 : Vec Ideal S4000x64 .f32) (x1 : Vec Ideal S64x128 .f32) (x2 : Vec Ideal S1x128 .f32) (p : Fin 4000) (q : Fin 128) :
    k0_pay1 (F := Ideal) x0 x1 x2 (ix2 p q)
      = Cert.GinSpec.embedRow (fun k => x0 (ix2 p k)) (fun k q' => x1 (ix2 k q')) (fun q' => x2 (ix2 0 q')) q := by
  unfold k0_pay1 Cert.GinSpec.embedRow
  simp only [shapeCast_self, addf_apply, truncf_apply, bcast_row_apply_r0 _ _ (by decide : (128 : Nat) ≠ 1), matmul_64_128_apply_r0]

section Array

variable (V : (c : Dev nD) → (b : Ref sig .tc) → Buf (Elt Ideal) ((c : Thread nD τ).loc b))

/-- The grid has 25 points. -/
theorem point_lt0 (t : Fin cfg0.N) : t.val < 25 :=
  lt_of_lt_of_eq t.isLt N_0

/-- Window 0's block index at a point, decided over the grid: the point's number along the rows, 0 along the columns. -/
theorem idx0_0 : ∀ t : Fin cfg0.N, win0_0.index t (0 : Fin 2) = t.val ∧ win0_0.index t (1 : Fin 2) = 0 :=
  (by decide +kernel : ∀ t : Fin grid0.N, _)

/-- Window 1's block index at a point, decided over the grid: always (0, 0). -/
theorem idx0_1 : ∀ t : Fin cfg0.N, win0_1.index t (0 : Fin 2) = 0 ∧ win0_1.index t (1 : Fin 2) = 0 :=
  (by decide +kernel : ∀ t : Fin grid0.N, _)

/-- Window 2's block index at a point, decided over the grid: always (0, 0). -/
theorem idx0_2 : ∀ t : Fin cfg0.N, win0_2.index t (0 : Fin 2) = 0 ∧ win0_2.index t (1 : Fin 2) = 0 :=
  (by decide +kernel : ∀ t : Fin grid0.N, _)

/-- Window 3's block index at a point, decided over the grid: the point's number along the rows, 0 along the columns. -/
theorem idx0_3 : ∀ t : Fin cfg0.N, win0_3.index t (0 : Fin 2) = t.val ∧ win0_3.index t (1 : Fin 2) = 0 :=
  (by decide +kernel : ∀ t : Fin grid0.N, _)

/-- The row of the whole array that row `p` of the block at point `t` is. -/
def row0 (t : Fin cfg0.N) (p : Fin 4000) : Fin 100000 :=
  ⟨t.val * 4000 + p.val, by have := point_lt0 t; have := p.isLt; omega⟩

/-- Input window 0's block at point `t`, read at an index: the entry array read at the block's row offset plus the row. -/
theorem iblk0_0_apply (c : Dev nD) (t : Fin cfg0.N) (a : Fin 4000) (b : Fin 64) :
    (iblk0 V c 0 t : S4000x64.Idx → EReal) (ix2 a b) = (V c main_arg0 : S100000x64.Idx → EReal) (ix2 (row0 t a) b) := by
  obtain ⟨e0, e1⟩ := idx0_0 t
  unfold iblk0
  rw [View.read_apply]
  show (V c main_arg0 : S100000x64.Idx → EReal) _ = _
  refine congrArg (V c main_arg0 : S100000x64.Idx → EReal) (funext fun d => Fin.ext ?_)
  match d with
  | ⟨0, _⟩ => show win0_0.index t (0 : Fin 2) * 4000 + 1 * a.val = t.val * 4000 + a.val; rw [e0]; omega
  | ⟨1, _⟩ => show win0_0.index t (1 : Fin 2) * 64 + 1 * b.val = b.val; rw [e1]; omega

/-- Input window 1's block at point `t`, read at an index: the entry array read at the same index. -/
theorem iblk0_1_apply (c : Dev nD) (t : Fin cfg0.N) (a : Fin 64) (b : Fin 128) :
    (iblk0 V c 1 t : S64x128.Idx → EReal) (ix2 a b) = (V c main_arg3 : S64x128.Idx → EReal) (ix2 a b) := by
  obtain ⟨e0, e1⟩ := idx0_1 t
  unfold iblk0
  rw [View.read_apply]
  show (V c main_arg3 : S64x128.Idx → EReal) _ = _
  refine congrArg (V c main_arg3 : S64x128.Idx → EReal) (funext fun d => Fin.ext ?_)
  match d with
  | ⟨0, _⟩ => show win0_1.index t (0 : Fin 2) * 64 + 1 * a.val = a.val; rw [e0]; omega
  | ⟨1, _⟩ => show win0_1.index t (1 : Fin 2) * 128 + 1 * b.val = b.val; rw [e1]; omega

/-- Input window 2's block at point `t`, read at an index: the entry array read at the same index. -/
theorem iblk0_2_apply (c : Dev nD) (t : Fin cfg0.N) (a : Fin 1) (b : Fin 128) :
    (iblk0 V c 2 t : S1x128.Idx → EReal) (ix2 a b) = (V c main_v4 : S1x128.Idx → EReal) (ix2 a b) := by
  obtain ⟨e0, e1⟩ := idx0_2 t
  unfold iblk0
  rw [View.read_apply]
  show (V c main_v4 : S1x128.Idx → EReal) _ = _
  refine congrArg (V c main_v4 : S1x128.Idx → EReal) (funext fun d => Fin.ext ?_)
  match d with
  | ⟨0, _⟩ => show win0_2.index t (0 : Fin 2) * 1 + 1 * a.val = a.val; rw [e0]; omega
  | ⟨1, _⟩ => show win0_2.index t (1 : Fin 2) * 128 + 1 * b.val = b.val; rw [e1]; omega

/-- The embedding of node `r`, channel `q`, of the arrays as the region finds them. -/
def rowSpec0 (c : Dev nD) (r : Fin 100000) (q : Fin 128) : EReal :=
  Cert.GinSpec.embedRow (fun k => (V c main_arg0 : S100000x64.Idx → EReal) (ix2 r k)) (fun k q' => (V c main_arg3 : S64x128.Idx → EReal) (ix2 k q')) (fun q' => (V c main_v4 : S1x128.Idx → EReal) (ix2 0 q')) q

/-- The whole output array: `rowSpec0` at every row and column. -/
def G0 (c : Dev nD) : S100000x128.Idx → EReal := fun i =>
  rowSpec0 V c ⟨(i 0).val, idx2_lt0 i⟩ ⟨(i 1).val, idx2_lt1 i⟩

/-- What point `t` writes back is block `t` of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz_r0]
  simp only [View.ld_unit_zero (S := S4000x64) hz_r0, View.ld_unit_zero (S := S64x128) hz_r0, View.ld_unit_zero (S := S1x128) hz_r0, View.ld_unit_zero (S := S4000x128) hz_r0]
  funext y
  obtain ⟨p, q, rfl⟩ : ∃ (p : Fin 4000) (q : Fin 128), y = ix2 p q := ⟨y 0, y 1, @eq_ix2 4000 128 y⟩
  obtain ⟨e0, e1⟩ := idx0_3 t
  have hemb : ((cfg0.win 3).blk t).view.emb (ix2 p q) = (ix2 (row0 t p) q : S100000x128.Idx) := funext fun d => Fin.ext (by
    match d with
    | ⟨0, _⟩ => show win0_3.index t (0 : Fin 2) * 4000 + 1 * p.val = t.val * 4000 + p.val; rw [e0]; omega
    | ⟨1, _⟩ => show win0_3.index t (1 : Fin 2) * 128 + 1 * q.val = q.val; rw [e1]; omega)
  refine (pay0_apply (iblk0 V c 0 t) (iblk0 V c 1 t) (iblk0 V c 2 t) p q).trans ?_
  show _ = G0 V c (((cfg0.win 3).blk t).view.emb (ix2 p q))
  rw [hemb]
  show _ = rowSpec0 V c (row0 t p) q
  unfold rowSpec0
  simp only [iblk0_0_apply V c t, iblk0_1_apply V c t, iblk0_2_apply V c t]

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v5).slice (win0_3.rect t)).set ↔ _
  rw [View.set_slice_whole, Rect.mem_set_unit]
  exact Iff.rfl

/-- Every index of the output array is in some point's block: row `r` is in the block of point `r / 4000`. -/
theorem cover0 (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  obtain ⟨t, ht⟩ : ∃ t : Fin cfg0.N, t.val = (i 0).val / 4000 :=
    ⟨⟨(i 0).val / 4000, by rw [show cfg0.N = 25 from N_0]; omega⟩, rfl⟩
  obtain ⟨e0, e1⟩ := idx0_3 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 128 ≤ (i 1).val ∧ (i 1).val < win0_3.index t (1 : Fin 2) * 128 + 128
    rw [e1]; omega

/-- The output array after the pipeline is `G0` of the entry arrays. -/
theorem final0 (c : Dev nD) : (dat0 V c).arrAt 3 cfg0.N = G0 V c :=
  (dat0 V c).arrAt_eq_of_cover 3 (G0 V c) (fun t _ => flushed0_eq V c t) (cover0)

/-- The embedding's output array after the pipeline, read at node `r` and channel `q`: the embedding of that node's input row. -/
theorem region0_value (c : Dev nD) (r : Fin 100000) (q : Fin 128) :
    (Gen.dat0 (F := Ideal) V c).arrAt 3 cfg0.N (ix2 r q)
      = Cert.GinSpec.embedRow (fun k => V c main_arg0 (ix2 r k)) (fun k q' => V c main_arg3 (ix2 k q')) (fun q' => V c main_v4 (ix2 0 q')) q :=
  congrFun (final0 V c) (ix2 r q)

end Array

end Cert.KernelIdeal.RegionValue

end
-- ==== Proof.Region1.lean ====
/-
  The GIN layer kernel (copy 1 of three), from blocks to the whole array, on the extended reals.

  The kernel body at a row of its block is the folded GIN update of that row (`pay1_apply`): the two products into the
  zero accumulator are plain sums over the contracted axis, the roundings to a narrower format are the identity, the
  broadcasts of the per-channel rows and of the single entry `1 + ε` read the one row or entry they have. The node-feature
  and neighbour-sum windows and the output window move one block of 4000 rows per grid point; every parameter window
  stays on its whole array. So the block the pipeline writes back at point `t` is block `t` of one function of the entry
  arrays (`flushed1_eq`), the 25 blocks cover the 100000 rows (`cover1`: row `r` lies in block `r / 4000`), and the output
  array ends holding that function (`final1`, `region1_value`).
-/
import proofs.«156994_j78795470012791_1_alg».proof.Proof.Gen.KernelIdeal.Frame
import proofs.«156994_j78795470012791_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block access. -/
theorem hz_r1 : (![0, 0] : Fin 2 → Nat) = fun _ => 0 := funext fun a => by fin_cases a <;> rfl

/-- A row vector broadcast along the rows, read at an index: the row's entry in that column. -/
theorem bcast_row_apply_r1 {m n : Nat} (v : (⟨2, ![1, n]⟩ : Shape).Idx → EReal) (h : (⟨2, ![1, n]⟩ : Shape).Broadcasts ⟨2, ![m, n]⟩)
    (hn : n ≠ 1) (p : Fin m) (q : Fin n) :
    broadcastTo (⟨2, ![m, n]⟩ : Shape) v h (ix2 p q) = v (ix2 0 q) :=
  broadcastTo_apply v h (ix2 p q) (ix2 0 q) (fun a => by
    match a with
    | ⟨0, _⟩ => rfl
    | ⟨1, _⟩ => show q.val = if n = 1 then 0 else q.val; rw [if_neg hn])

/-- A single entry broadcast to a matrix, read at an index: that entry. -/
theorem bcast_one_apply_r1 {m n : Nat} (v : (⟨2, ![1, 1]⟩ : Shape).Idx → EReal) (h : (⟨2, ![1, 1]⟩ : Shape).Broadcasts ⟨2, ![m, n]⟩)
    (p : Fin m) (q : Fin n) :
    broadcastTo (⟨2, ![m, n]⟩ : Shape) v h (ix2 p q) = v (ix2 0 0) :=
  broadcastTo_apply v h (ix2 p q) (ix2 0 0) (fun a => by
    match a with
    | ⟨0, _⟩ => rfl
    | ⟨1, _⟩ => rfl)

/-- The zero word denotes zero. -/
theorem scalar_zero_r1 : Scalar.ofBits (F := Ideal) .f32 0x00000000#32 = (0 : EReal) := Ideal.ofBits_zero_f32

/-- A `[4000,128] × [128,256]` product into the zero accumulator, read at row `p` and column `q`: the sum over the
    contracted axis of the products of row `p` of the left factor with column `q` of the right one. -/
theorem matmul_128_256_apply_r1 (l : FVec Ideal S4000x128 .bf16) (r : FVec Ideal S128x256 .bf16) (p : Fin 4000) (q : Fin 256) :
    matmul dot_S4000x128_S128x256_S4000x256_1_0_0_1_n_n none l r (constant (F := Ideal) S4000x256 .f32 0x00000000#32) (ix2 p q)
      = ∑ k : Fin 128, l (ix2 p k) * r (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ =>
      show (dot_S4000x128_S128x256_S4000x256_1_0_0_1_n_n.lhsIdx (ix2 p q) _ 0).val = p.val
      unfold DotDims.lhsIdx
      rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
      rfl
    | ⟨1, _⟩ => exact (dot_S4000x128_S128x256_S4000x256_1_0_0_1_n_n.lhsIdx_val_of_single rfl _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (dot_S4000x128_S128x256_S4000x256_1_0_0_1_n_n.rhsIdx_val_of_single rfl _ _).trans hk
    | ⟨1, _⟩ =>
      show (dot_S4000x128_S128x256_S4000x256_1_0_0_1_n_n.rhsIdx (ix2 p q) _ 1).val = q.val
      unfold DotDims.rhsIdx
      rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
      rfl)
  rw [el, er]

/-- A `[4000,256] × [256,128]` product into the zero accumulator, read at row `p` and column `q`: the sum over the
    contracted axis of the products of row `p` of the left factor with column `q` of the right one. -/
theorem matmul_256_128_apply_r1 (l : FVec Ideal S4000x256 .bf16) (r : FVec Ideal S256x128 .bf16) (p : Fin 4000) (q : Fin 128) :
    matmul dot_S4000x256_S256x128_S4000x128_1_0_0_1_n_n none l r (constant (F := Ideal) S4000x128 .f32 0x00000000#32) (ix2 p q)
      = ∑ k : Fin 256, l (ix2 p k) * r (ix2 k q) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ =>
      show (dot_S4000x256_S256x128_S4000x128_1_0_0_1_n_n.lhsIdx (ix2 p q) _ 0).val = p.val
      unfold DotDims.lhsIdx
      rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
      rfl
    | ⟨1, _⟩ => exact (dot_S4000x256_S256x128_S4000x128_1_0_0_1_n_n.lhsIdx_val_of_single rfl _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (dot_S4000x256_S256x128_S4000x128_1_0_0_1_n_n.rhsIdx_val_of_single rfl _ _).trans hk
    | ⟨1, _⟩ =>
      show (dot_S4000x256_S256x128_S4000x128_1_0_0_1_n_n.rhsIdx (ix2 p q) _ 1).val = q.val
      unfold DotDims.rhsIdx
      rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
      rfl)
  rw [el, er]

/-- The body of the layer's kernel at row `p`, column `q` of its block: the folded GIN update of that row. -/
theorem pay1_apply (x0 x1 : Vec Ideal S4000x128 .f32) (x2 : Vec Ideal S1x1 .f32) (x3 : Vec Ideal S128x256 .f32)
    (x4 x5 : Vec Ideal S1x256 .f32) (x6 : Vec Ideal S256x128 .f32) (x7 x8 : Vec Ideal S1x128 .f32) (p : Fin 4000) (q : Fin 128) :
    k1_pay1 (F := Ideal) (k1_pay2 x0) (k1_pay3 x0 x1 x2 x3 x4 x5 x6 x7) x8 (ix2 p q)
      = Cert.GinSpec.ginRowFolded (fun j => x0 (ix2 p j)) (fun j => x1 (ix2 p j)) (x2 (ix2 0 0)) (fun j k => x3 (ix2 j k))
          (fun k => x4 (ix2 0 k)) (fun k => x5 (ix2 0 k)) (fun k q' => x6 (ix2 k q')) (fun q' => x7 (ix2 0 q'))
          (fun q' => x8 (ix2 0 q')) q := by
  unfold k1_pay1 k1_pay3 Cert.GinSpec.ginRowFolded
  simp only [k1_pay2, shapeCast_self, addf_apply, mulf_apply, maximumf_apply, truncf_apply, broadcast_apply,
    bcast_row_apply_r1 _ _ (by decide : (128 : Nat) ≠ 1), bcast_row_apply_r1 _ _ (by decide : (256 : Nat) ≠ 1), bcast_one_apply_r1,
    matmul_128_256_apply_r1, matmul_256_128_apply_r1, scalar_zero_r1]

section Array

variable (V : (c : Dev nD) → (b : Ref sig .tc) → Buf (Elt Ideal) ((c : Thread nD τ).loc b))

/-- The grid has 25 points. -/
theorem point_lt1 (t : Fin cfg1.N) : t.val < 25 :=
  lt_of_lt_of_eq t.isLt N_1

/-- Window 0's block index at a point, decided over the grid: the point's number along the rows, 0 along the columns. -/
theorem idx1_0 : ∀ t : Fin cfg1.N, win1_0.index t (0 : Fin 2) = t.val ∧ win1_0.index t (1 : Fin 2) = 0 :=
  (by decide +kernel : ∀ t : Fin grid1.N, _)

/-- Window 1's block index at a point, decided over the grid: the point's number along the rows, 0 along the columns. -/
theorem idx1_1 : ∀ t : Fin cfg1.N, win1_1.index t (0 : Fin 2) = t.val ∧ win1_1.index t (1 : Fin 2) = 0 :=
  (by decide +kernel : ∀ t : Fin grid1.N, _)

/-- Window 2's block index at a point, decided over the grid: always (0, 0). -/
theorem idx1_2 : ∀ t : Fin cfg1.N, win1_2.index t (0 : Fin 2) = 0 ∧ win1_2.index t (1 : Fin 2) = 0 :=
  (by decide +kernel : ∀ t : Fin grid1.N, _)

/-- Window 3's block index at a point, decided over the grid: always (0, 0). -/
theorem idx1_3 : ∀ t : Fin cfg1.N, win1_3.index t (0 : Fin 2) = 0 ∧ win1_3.index t (1 : Fin 2) = 0 :=
  (by decide +kernel : ∀ t : Fin grid1.N, _)

/-- Window 4's block index at a point, decided over the grid: always (0, 0). -/
theorem idx1_4 : ∀ t : Fin cfg1.N, win1_4.index t (0 : Fin 2) = 0 ∧ win1_4.index t (1 : Fin 2) = 0 :=
  (by decide +kernel : ∀ t : Fin grid1.N, _)

/-- Window 5's block index at a point, decided over the grid: always (0, 0). -/
theorem idx1_5 : ∀ t : Fin cfg1.N, win1_5.index t (0 : Fin 2) = 0 ∧ win1_5.index t (1 : Fin 2) = 0 :=
  (by decide +kernel : ∀ t : Fin grid1.N, _)

/-- Window 6's block index at a point, decided over the grid: always (0, 0). -/
theorem idx1_6 : ∀ t : Fin cfg1.N, win1_6.index t (0 : Fin 2) = 0 ∧ win1_6.index t (1 : Fin 2) = 0 :=
  (by decide +kernel : ∀ t : Fin grid1.N, _)

/-- Window 7's block index at a point, decided over the grid: always (0, 0). -/
theorem idx1_7 : ∀ t : Fin cfg1.N, win1_7.index t (0 : Fin 2) = 0 ∧ win1_7.index t (1 : Fin 2) = 0 :=
  (by decide +kernel : ∀ t : Fin grid1.N, _)

/-- Window 8's block index at a point, decided over the grid: always (0, 0). -/
theorem idx1_8 : ∀ t : Fin cfg1.N, win1_8.index t (0 : Fin 2) = 0 ∧ win1_8.index t (1 : Fin 2) = 0 :=
  (by decide +kernel : ∀ t : Fin grid1.N, _)

/-- Window 9's block index at a point, decided over the grid: the point's number along the rows, 0 along the columns. -/
theorem idx1_9 : ∀ t : Fin cfg1.N, win1_9.index t (0 : Fin 2) = t.val ∧ win1_9.index t (1 : Fin 2) = 0 :=
  (by decide +kernel : ∀ t : Fin grid1.N, _)

/-- The row of the whole array that row `p` of the block at point `t` is. -/
def row1 (t : Fin cfg1.N) (p : Fin 4000) : Fin 100000 :=
  ⟨t.val * 4000 + p.val, by have := point_lt1 t; have := p.isLt; omega⟩

/-- Input window 0's block at point `t`, read at an index: the entry array read at the block's row offset plus the row. -/
theorem iblk1_0_apply (c : Dev nD) (t : Fin cfg1.N) (a : Fin 4000) (b : Fin 128) :
    (iblk1 V c 0 t : S4000x128.Idx → EReal) (ix2 a b) = (V c main_v5 : S100000x128.Idx → EReal) (ix2 (row1 t a) b) := by
  obtain ⟨e0, e1⟩ := idx1_0 t
  unfold iblk1
  rw [View.read_apply]
  show (V c main_v5 : S100000x128.Idx → EReal) _ = _
  refine congrArg (V c main_v5 : S100000x128.Idx → EReal) (funext fun d => Fin.ext ?_)
  match d with
  | ⟨0, _⟩ => show win1_0.index t (0 : Fin 2) * 4000 + 1 * a.val = t.val * 4000 + a.val; rw [e0]; omega
  | ⟨1, _⟩ => show win1_0.index t (1 : Fin 2) * 128 + 1 * b.val = b.val; rw [e1]; omega

/-- Input window 1's block at point `t`, read at an index: the entry array read at the block's row offset plus the row. -/
theorem iblk1_1_apply (c : Dev nD) (t : Fin cfg1.N) (a : Fin 4000) (b : Fin 128) :
    (iblk1 V c 1 t : S4000x128.Idx → EReal) (ix2 a b) = (V c main_v15 : S100000x128.Idx → EReal) (ix2 (row1 t a) b) := by
  obtain ⟨e0, e1⟩ := idx1_1 t
  unfold iblk1
  rw [View.read_apply]
  show (V c main_v15 : S100000x128.Idx → EReal) _ = _
  refine congrArg (V c main_v15 : S100000x128.Idx → EReal) (funext fun d => Fin.ext ?_)
  match d with
  | ⟨0, _⟩ => show win1_1.index t (0 : Fin 2) * 4000 + 1 * a.val = t.val * 4000 + a.val; rw [e0]; omega
  | ⟨1, _⟩ => show win1_1.index t (1 : Fin 2) * 128 + 1 * b.val = b.val; rw [e1]; omega

/-- Input window 2's block at point `t`, read at an index: the entry array read at the same index. -/
theorem iblk1_2_apply (c : Dev nD) (t : Fin cfg1.N) (a : Fin 1) (b : Fin 1) :
    (iblk1 V c 2 t : S1x1.Idx → EReal) (ix2 a b) = (V c main_v19 : S1x1.Idx → EReal) (ix2 a b) := by
  obtain ⟨e0, e1⟩ := idx1_2 t
  unfold iblk1
  rw [View.read_apply]
  show (V c main_v19 : S1x1.Idx → EReal) _ = _
  refine congrArg (V c main_v19 : S1x1.Idx → EReal) (funext fun d => Fin.ext ?_)
  match d with
  | ⟨0, _⟩ => show win1_2.index t (0 : Fin 2) * 1 + 1 * a.val = a.val; rw [e0]; omega
  | ⟨1, _⟩ => show win1_2.index t (1 : Fin 2) * 1 + 1 * b.val = b.val; rw [e1]; omega

/-- Input window 3's block at point `t`, read at an index: the entry array read at the same index. -/
theorem iblk1_3_apply (c : Dev nD) (t : Fin cfg1.N) (a : Fin 128) (b : Fin 256) :
    (iblk1 V c 3 t : S128x256.Idx → EReal) (ix2 a b) = (V c main_v55 : S128x256.Idx → EReal) (ix2 a b) := by
  obtain ⟨e0, e1⟩ := idx1_3 t
  unfold iblk1
  rw [View.read_apply]
  show (V c main_v55 : S128x256.Idx → EReal) _ = _
  refine congrArg (V c main_v55 : S128x256.Idx → EReal) (funext fun d => Fin.ext ?_)
  match d with
  | ⟨0, _⟩ => show win1_3.index t (0 : Fin 2) * 128 + 1 * a.val = a.val; rw [e0]; omega
  | ⟨1, _⟩ => show win1_3.index t (1 : Fin 2) * 256 + 1 * b.val = b.val; rw [e1]; omega

/-- Input window 4's block at point `t`, read at an index: the entry array read at the same index. -/
theorem iblk1_4_apply (c : Dev nD) (t : Fin cfg1.N) (a : Fin 1) (b : Fin 256) :
    (iblk1 V c 4 t : S1x256.Idx → EReal) (ix2 a b) = (V c main_v56 : S1x256.Idx → EReal) (ix2 a b) := by
  obtain ⟨e0, e1⟩ := idx1_4 t
  unfold iblk1
  rw [View.read_apply]
  show (V c main_v56 : S1x256.Idx → EReal) _ = _
  refine congrArg (V c main_v56 : S1x256.Idx → EReal) (funext fun d => Fin.ext ?_)
  match d with
  | ⟨0, _⟩ => show win1_4.index t (0 : Fin 2) * 1 + 1 * a.val = a.val; rw [e0]; omega
  | ⟨1, _⟩ => show win1_4.index t (1 : Fin 2) * 256 + 1 * b.val = b.val; rw [e1]; omega

/-- Input window 5's block at point `t`, read at an index: the entry array read at the same index. -/
theorem iblk1_5_apply (c : Dev nD) (t : Fin cfg1.N) (a : Fin 1) (b : Fin 256) :
    (iblk1 V c 5 t : S1x256.Idx → EReal) (ix2 a b) = (V c main_v57 : S1x256.Idx → EReal) (ix2 a b) := by
  obtain ⟨e0, e1⟩ := idx1_5 t
  unfold iblk1
  rw [View.read_apply]
  show (V c main_v57 : S1x256.Idx → EReal) _ = _
  refine congrArg (V c main_v57 : S1x256.Idx → EReal) (funext fun d => Fin.ext ?_)
  match d with
  | ⟨0, _⟩ => show win1_5.index t (0 : Fin 2) * 1 + 1 * a.val = a.val; rw [e0]; omega
  | ⟨1, _⟩ => show win1_5.index t (1 : Fin 2) * 256 + 1 * b.val = b.val; rw [e1]; omega

/-- Input window 6's block at point `t`, read at an index: the entry array read at the same index. -/
theorem iblk1_6_apply (c : Dev nD) (t : Fin cfg1.N) (a : Fin 256) (b : Fin 128) :
    (iblk1 V c 6 t : S256x128.Idx → EReal) (ix2 a b) = (V c main_v59 : S256x128.Idx → EReal) (ix2 a b) := by
  obtain ⟨e0, e1⟩ := idx1_6 t
  unfold iblk1
  rw [View.read_apply]
  show (V c main_v59 : S256x128.Idx → EReal) _ = _
  refine congrArg (V c main_v59 : S256x128.Idx → EReal) (funext fun d => Fin.ext ?_)
  match d with
  | ⟨0, _⟩ => show win1_6.index t (0 : Fin 2) * 256 + 1 * a.val = a.val; rw [e0]; omega
  | ⟨1, _⟩ => show win1_6.index t (1 : Fin 2) * 128 + 1 * b.val = b.val; rw [e1]; omega

/-- Input window 7's block at point `t`, read at an index: the entry array read at the same index. -/
theorem iblk1_7_apply (c : Dev nD) (t : Fin cfg1.N) (a : Fin 1) (b : Fin 128) :
    (iblk1 V c 7 t : S1x128.Idx → EReal) (ix2 a b) = (V c main_v60 : S1x128.Idx → EReal) (ix2 a b) := by
  obtain ⟨e0, e1⟩ := idx1_7 t
  unfold iblk1
  rw [View.read_apply]
  show (V c main_v60 : S1x128.Idx → EReal) _ = _
  refine congrArg (V c main_v60 : S1x128.Idx → EReal) (funext fun d => Fin.ext ?_)
  match d with
  | ⟨0, _⟩ => show win1_7.index t (0 : Fin 2) * 1 + 1 * a.val = a.val; rw [e0]; omega
  | ⟨1, _⟩ => show win1_7.index t (1 : Fin 2) * 128 + 1 * b.val = b.val; rw [e1]; omega

/-- Input window 8's block at point `t`, read at an index: the entry array read at the same index. -/
theorem iblk1_8_apply (c : Dev nD) (t : Fin cfg1.N) (a : Fin 1) (b : Fin 128) :
    (iblk1 V c 8 t : S1x128.Idx → EReal) (ix2 a b) = (V c main_v61 : S1x128.Idx → EReal) (ix2 a b) := by
  obtain ⟨e0, e1⟩ := idx1_8 t
  unfold iblk1
  rw [View.read_apply]
  show (V c main_v61 : S1x128.Idx → EReal) _ = _
  refine congrArg (V c main_v61 : S1x128.Idx → EReal) (funext fun d => Fin.ext ?_)
  match d with
  | ⟨0, _⟩ => show win1_8.index t (0 : Fin 2) * 1 + 1 * a.val = a.val; rw [e0]; omega
  | ⟨1, _⟩ => show win1_8.index t (1 : Fin 2) * 128 + 1 * b.val = b.val; rw [e1]; omega

/-- The folded GIN update of node `r`, channel `q`, of the arrays as the region finds them. -/
def rowSpec1 (c : Dev nD) (r : Fin 100000) (q : Fin 128) : EReal :=
  Cert.GinSpec.ginRowFolded (fun j => (V c main_v5 : S100000x128.Idx → EReal) (ix2 r j)) (fun j => (V c main_v15 : S100000x128.Idx → EReal) (ix2 r j)) ((V c main_v19 : S1x1.Idx → EReal) (ix2 0 0)) (fun j k => (V c main_v55 : S128x256.Idx → EReal) (ix2 j k))
      (fun k => (V c main_v56 : S1x256.Idx → EReal) (ix2 0 k)) (fun k => (V c main_v57 : S1x256.Idx → EReal) (ix2 0 k)) (fun k q' => (V c main_v59 : S256x128.Idx → EReal) (ix2 k q')) (fun q' => (V c main_v60 : S1x128.Idx → EReal) (ix2 0 q'))
      (fun q' => (V c main_v61 : S1x128.Idx → EReal) (ix2 0 q')) q

/-- The whole output array: `rowSpec1` at every row and column. -/
def G1 (c : Dev nD) : S100000x128.Idx → EReal := fun i =>
  rowSpec1 V c ⟨(i 0).val, idx2_lt0 i⟩ ⟨(i 1).val, idx2_lt1 i⟩

/-- What point `t` writes back is block `t` of `G1`. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz_r1]
  simp only [View.ld_unit_zero (S := S4000x128) hz_r1, View.ld_unit_zero (S := S1x1) hz_r1, View.ld_unit_zero (S := S128x256) hz_r1, View.ld_unit_zero (S := S1x256) hz_r1, View.ld_unit_zero (S := S256x128) hz_r1, View.ld_unit_zero (S := S1x128) hz_r1]
  funext y
  obtain ⟨p, q, rfl⟩ : ∃ (p : Fin 4000) (q : Fin 128), y = ix2 p q := ⟨y 0, y 1, @eq_ix2 4000 128 y⟩
  obtain ⟨e0, e1⟩ := idx1_9 t
  have hemb : ((cfg1.win 9).blk t).view.emb (ix2 p q) = (ix2 (row1 t p) q : S100000x128.Idx) := funext fun d => Fin.ext (by
    match d with
    | ⟨0, _⟩ => show win1_9.index t (0 : Fin 2) * 4000 + 1 * p.val = t.val * 4000 + p.val; rw [e0]; omega
    | ⟨1, _⟩ => show win1_9.index t (1 : Fin 2) * 128 + 1 * q.val = q.val; rw [e1]; omega)
  refine (pay1_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  show _ = G1 V c (((cfg1.win 9).blk t).view.emb (ix2 p q))
  rw [hemb]
  show _ = rowSpec1 V c (row1 t p) q
  unfold rowSpec1
  simp only [iblk1_0_apply V c t, iblk1_1_apply V c t, iblk1_2_apply V c t, iblk1_3_apply V c t, iblk1_4_apply V c t, iblk1_5_apply V c t, iblk1_6_apply V c t, iblk1_7_apply V c t, iblk1_8_apply V c t]

/-- An index of the output array is in point `t`'s block iff each coordinate is in the block's range on its axis. -/
theorem mem_blk1 (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v62).slice (win1_9.rect t)).set ↔ _
  rw [View.set_slice_whole, Rect.mem_set_unit]
  exact Iff.rfl

/-- Every index of the output array is in some point's block: row `r` is in the block of point `r / 4000`. -/
theorem cover1 (i : S100000x128.Idx) :
    ∃ t : Fin cfg1.N, (cfg1.win 9).flush t = true ∧ i ∈ ((cfg1.win 9).blk t).view.set := by
  have h0 : (i 0).val < 100000 := idx2_lt0 i
  have h1 : (i 1).val < 128 := idx2_lt1 i
  obtain ⟨t, ht⟩ : ∃ t : Fin cfg1.N, t.val = (i 0).val / 4000 :=
    ⟨⟨(i 0).val / 4000, by rw [show cfg1.N = 25 from N_1]; omega⟩, rfl⟩
  obtain ⟨e0, e1⟩ := idx1_9 t
  refine ⟨t, flush1_9 t, ?_⟩
  rw [mem_blk1]
  intro a
  match a with
  | ⟨0, _⟩ =>
    show win1_9.index t (0 : Fin 2) * 4000 ≤ (i 0).val ∧ (i 0).val < win1_9.index t (0 : Fin 2) * 4000 + 4000
    rw [e0, ht]; omega
  | ⟨1, _⟩ =>
    show win1_9.index t (1 : Fin 2) * 128 ≤ (i 1).val ∧ (i 1).val < win1_9.index t (1 : Fin 2) * 128 + 128
    rw [e1]; omega

/-- The output array after the pipeline is `G1` of the entry arrays. -/
theorem final1 (c : Dev nD) : (dat1 V c).arrAt 9 cfg1.N = G1 V c :=
  (dat1 V c).arrAt_eq_of_cover 9 (G1 V c) (fun t _ => flushed1_eq V c t) (cover1)

/-- The layer's output array after the pipeline, read at node `r` and channel `q`: the folded GIN update of that node's row of the entry arrays. -/
theorem region1_value (c : Dev nD) (r : Fin 100000) (q : Fin 128) :
    (Gen.dat1 (F := Ideal) V c).arrAt 9 cfg1.N (ix2 r q)
      = Cert.GinSpec.ginRowFolded (fun j => V c main_v5 (ix2 r j)) (fun j => V c main_v15 (ix2 r j)) (V c main_v19 (ix2 0 0)) (fun j k => V c main_v55 (ix2 j k))
      (fun k => V c main_v56 (ix2 0 k)) (fun k => V c main_v57 (ix2 0 k)) (fun k q' => V c main_v59 (ix2 k q')) (fun q' => V c main_v60 (ix2 0 q'))
      (fun q' => V c main_v61 (ix2 0 q')) q :=
  congrFun (final1 V c) (ix2 r q)

end Array

end Cert.KernelIdeal.RegionValue

end
-- ==== Proof.Region2.lean ====
/-
  The GIN layer kernel (copy 2 of three), from blocks to the whole array, on the extended reals.

  The kernel body at a row of its block is the folded GIN update of that row (`pay2_apply`): the two products into the
  zero accumulator are plain sums over the contracted axis, the roundings to a narrower format are the identity, the
  broadcasts of the per-channel rows and of the single entry `1 + ε` read the one row or entry they have. The node-feature
  and neighbour-sum windows and the output window move one block of 4000 rows per grid point; every parameter window
  stays on its whole array. So the block the pipeline writes back at point `t` is block `t` of one function of the entry
  arrays (`flushed2_eq`), the 25 blocks cover the 100000 rows (`cover2`: row `r` lies in block `r / 4000`), and the output
  array ends holding that function (`final2`, `region2_value`).
-/
import proofs.«156994_j78795470012791_1_alg».proof.Proof.Gen.KernelIdeal.Frame
import proofs.«156994_j78795470012791_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block access. -/
theorem hz_r2 : (![0, 0] : Fin 2 → Nat) = fun _ => 0 := funext fun a => by fin_cases a <;> rfl

/-- A row vector broadcast along the rows, read at an index: the row's entry in that column. -/
theorem bcast_row_apply_r2 {m n : Nat} (v : (⟨2, ![1, n]⟩ : Shape).Idx → EReal) (h : (⟨2, ![1, n]⟩ : Shape).Broadcasts ⟨2, ![m, n]⟩)
    (hn : n ≠ 1) (p : Fin m) (q : Fin n) :
    broadcastTo (⟨2, ![m, n]⟩ : Shape) v h (ix2 p q) = v (ix2 0 q) :=
  broadcastTo_apply v h (ix2 p q) (ix2 0 q) (fun a => by
    match a with
    | ⟨0, _⟩ => rfl
    | ⟨1, _⟩ => show q.val = if n = 1 then 0 else q.val; rw [if_neg hn])

/-- A single entry broadcast to a matrix, read at an index: that entry. -/
theorem bcast_one_apply_r2 {m n : Nat} (v : (⟨2, ![1, 1]⟩ : Shape).Idx → EReal) (h : (⟨2, ![1, 1]⟩ : Shape).Broadcasts ⟨2, ![m, n]⟩)
    (p : Fin m) (q : Fin n) :
    broadcastTo (⟨2, ![m, n]⟩ : Shape) v h (ix2 p q) = v (ix2 0 0) :=
  broadcastTo_apply v h (ix2 p q) (ix2 0 0) (fun a => by
    match a with
    | ⟨0, _⟩ => rfl
    | ⟨1, _⟩ => rfl)

/-- The zero word denotes zero. -/
theorem scalar_zero_r2 : Scalar.ofBits (F := Ideal) .f32 0x00000000#32 = (0 : EReal) := Ideal.ofBits_zero_f32

/-- A `[4000,128] × [128,256]` product into the zero accumulator, read at row `p` and column `q`: the sum over the
    contracted axis of the products of row `p` of the left factor with column `q` of the right one. -/
theorem matmul_128_256_apply_r2 (l : FVec Ideal S4000x128 .bf16) (r : FVec Ideal S128x256 .bf16) (p : Fin 4000) (q : Fin 256) :
    matmul dot_S4000x128_S128x256_S4000x256_1_0_0_1_n_n none l r (constant (F := Ideal) S4000x256 .f32 0x00000000#32) (ix2 p q)
      = ∑ k : Fin 128, l (ix2 p k) * r (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ =>
      show (dot_S4000x128_S128x256_S4000x256_1_0_0_1_n_n.lhsIdx (ix2 p q) _ 0).val = p.val
      unfold DotDims.lhsIdx
      rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
      rfl
    | ⟨1, _⟩ => exact (dot_S4000x128_S128x256_S4000x256_1_0_0_1_n_n.lhsIdx_val_of_single rfl _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (dot_S4000x128_S128x256_S4000x256_1_0_0_1_n_n.rhsIdx_val_of_single rfl _ _).trans hk
    | ⟨1, _⟩ =>
      show (dot_S4000x128_S128x256_S4000x256_1_0_0_1_n_n.rhsIdx (ix2 p q) _ 1).val = q.val
      unfold DotDims.rhsIdx
      rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
      rfl)
  rw [el, er]

/-- A `[4000,256] × [256,128]` product into the zero accumulator, read at row `p` and column `q`: the sum over the
    contracted axis of the products of row `p` of the left factor with column `q` of the right one. -/
theorem matmul_256_128_apply_r2 (l : FVec Ideal S4000x256 .bf16) (r : FVec Ideal S256x128 .bf16) (p : Fin 4000) (q : Fin 128) :
    matmul dot_S4000x256_S256x128_S4000x128_1_0_0_1_n_n none l r (constant (F := Ideal) S4000x128 .f32 0x00000000#32) (ix2 p q)
      = ∑ k : Fin 256, l (ix2 p k) * r (ix2 k q) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ =>
      show (dot_S4000x256_S256x128_S4000x128_1_0_0_1_n_n.lhsIdx (ix2 p q) _ 0).val = p.val
      unfold DotDims.lhsIdx
      rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
      rfl
    | ⟨1, _⟩ => exact (dot_S4000x256_S256x128_S4000x128_1_0_0_1_n_n.lhsIdx_val_of_single rfl _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (dot_S4000x256_S256x128_S4000x128_1_0_0_1_n_n.rhsIdx_val_of_single rfl _ _).trans hk
    | ⟨1, _⟩ =>
      show (dot_S4000x256_S256x128_S4000x128_1_0_0_1_n_n.rhsIdx (ix2 p q) _ 1).val = q.val
      unfold DotDims.rhsIdx
      rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
      rfl)
  rw [el, er]

/-- The body of the layer's kernel at row `p`, column `q` of its block: the folded GIN update of that row. -/
theorem pay2_apply (x0 x1 : Vec Ideal S4000x128 .f32) (x2 : Vec Ideal S1x1 .f32) (x3 : Vec Ideal S128x256 .f32)
    (x4 x5 : Vec Ideal S1x256 .f32) (x6 : Vec Ideal S256x128 .f32) (x7 x8 : Vec Ideal S1x128 .f32) (p : Fin 4000) (q : Fin 128) :
    k2_pay1 (F := Ideal) (k2_pay2 x0) (k2_pay3 x0 x1 x2 x3 x4 x5 x6 x7) x8 (ix2 p q)
      = Cert.GinSpec.ginRowFolded (fun j => x0 (ix2 p j)) (fun j => x1 (ix2 p j)) (x2 (ix2 0 0)) (fun j k => x3 (ix2 j k))
          (fun k => x4 (ix2 0 k)) (fun k => x5 (ix2 0 k)) (fun k q' => x6 (ix2 k q')) (fun q' => x7 (ix2 0 q'))
          (fun q' => x8 (ix2 0 q')) q := by
  unfold k2_pay1 k2_pay3 Cert.GinSpec.ginRowFolded
  simp only [k2_pay2, shapeCast_self, addf_apply, mulf_apply, maximumf_apply, truncf_apply, broadcast_apply,
    bcast_row_apply_r2 _ _ (by decide : (128 : Nat) ≠ 1), bcast_row_apply_r2 _ _ (by decide : (256 : Nat) ≠ 1), bcast_one_apply_r2,
    matmul_128_256_apply_r2, matmul_256_128_apply_r2, scalar_zero_r2]

section Array

variable (V : (c : Dev nD) → (b : Ref sig .tc) → Buf (Elt Ideal) ((c : Thread nD τ).loc b))

/-- The grid has 25 points. -/
theorem point_lt2 (t : Fin cfg2.N) : t.val < 25 :=
  lt_of_lt_of_eq t.isLt N_2

/-- Window 0's block index at a point, decided over the grid: the point's number along the rows, 0 along the columns. -/
theorem idx2_0 : ∀ t : Fin cfg2.N, win2_0.index t (0 : Fin 2) = t.val ∧ win2_0.index t (1 : Fin 2) = 0 :=
  (by decide +kernel : ∀ t : Fin grid2.N, _)

/-- Window 1's block index at a point, decided over the grid: the point's number along the rows, 0 along the columns. -/
theorem idx2_1 : ∀ t : Fin cfg2.N, win2_1.index t (0 : Fin 2) = t.val ∧ win2_1.index t (1 : Fin 2) = 0 :=
  (by decide +kernel : ∀ t : Fin grid2.N, _)

/-- Window 2's block index at a point, decided over the grid: always (0, 0). -/
theorem idx2_2 : ∀ t : Fin cfg2.N, win2_2.index t (0 : Fin 2) = 0 ∧ win2_2.index t (1 : Fin 2) = 0 :=
  (by decide +kernel : ∀ t : Fin grid2.N, _)

/-- Window 3's block index at a point, decided over the grid: always (0, 0). -/
theorem idx2_3 : ∀ t : Fin cfg2.N, win2_3.index t (0 : Fin 2) = 0 ∧ win2_3.index t (1 : Fin 2) = 0 :=
  (by decide +kernel : ∀ t : Fin grid2.N, _)

/-- Window 4's block index at a point, decided over the grid: always (0, 0). -/
theorem idx2_4 : ∀ t : Fin cfg2.N, win2_4.index t (0 : Fin 2) = 0 ∧ win2_4.index t (1 : Fin 2) = 0 :=
  (by decide +kernel : ∀ t : Fin grid2.N, _)

/-- Window 5's block index at a point, decided over the grid: always (0, 0). -/
theorem idx2_5 : ∀ t : Fin cfg2.N, win2_5.index t (0 : Fin 2) = 0 ∧ win2_5.index t (1 : Fin 2) = 0 :=
  (by decide +kernel : ∀ t : Fin grid2.N, _)

/-- Window 6's block index at a point, decided over the grid: always (0, 0). -/
theorem idx2_6 : ∀ t : Fin cfg2.N, win2_6.index t (0 : Fin 2) = 0 ∧ win2_6.index t (1 : Fin 2) = 0 :=
  (by decide +kernel : ∀ t : Fin grid2.N, _)

/-- Window 7's block index at a point, decided over the grid: always (0, 0). -/
theorem idx2_7 : ∀ t : Fin cfg2.N, win2_7.index t (0 : Fin 2) = 0 ∧ win2_7.index t (1 : Fin 2) = 0 :=
  (by decide +kernel : ∀ t : Fin grid2.N, _)

/-- Window 8's block index at a point, decided over the grid: always (0, 0). -/
theorem idx2_8 : ∀ t : Fin cfg2.N, win2_8.index t (0 : Fin 2) = 0 ∧ win2_8.index t (1 : Fin 2) = 0 :=
  (by decide +kernel : ∀ t : Fin grid2.N, _)

/-- Window 9's block index at a point, decided over the grid: the point's number along the rows, 0 along the columns. -/
theorem idx2_9 : ∀ t : Fin cfg2.N, win2_9.index t (0 : Fin 2) = t.val ∧ win2_9.index t (1 : Fin 2) = 0 :=
  (by decide +kernel : ∀ t : Fin grid2.N, _)

/-- The row of the whole array that row `p` of the block at point `t` is. -/
def row2 (t : Fin cfg2.N) (p : Fin 4000) : Fin 100000 :=
  ⟨t.val * 4000 + p.val, by have := point_lt2 t; have := p.isLt; omega⟩

/-- Input window 0's block at point `t`, read at an index: the entry array read at the block's row offset plus the row. -/
theorem iblk2_0_apply (c : Dev nD) (t : Fin cfg2.N) (a : Fin 4000) (b : Fin 128) :
    (iblk2 V c 0 t : S4000x128.Idx → EReal) (ix2 a b) = (V c main_v62 : S100000x128.Idx → EReal) (ix2 (row2 t a) b) := by
  obtain ⟨e0, e1⟩ := idx2_0 t
  unfold iblk2
  rw [View.read_apply]
  show (V c main_v62 : S100000x128.Idx → EReal) _ = _
  refine congrArg (V c main_v62 : S100000x128.Idx → EReal) (funext fun d => Fin.ext ?_)
  match d with
  | ⟨0, _⟩ => show win2_0.index t (0 : Fin 2) * 4000 + 1 * a.val = t.val * 4000 + a.val; rw [e0]; omega
  | ⟨1, _⟩ => show win2_0.index t (1 : Fin 2) * 128 + 1 * b.val = b.val; rw [e1]; omega

/-- Input window 1's block at point `t`, read at an index: the entry array read at the block's row offset plus the row. -/
theorem iblk2_1_apply (c : Dev nD) (t : Fin cfg2.N) (a : Fin 4000) (b : Fin 128) :
    (iblk2 V c 1 t : S4000x128.Idx → EReal) (ix2 a b) = (V c main_v72 : S100000x128.Idx → EReal) (ix2 (row2 t a) b) := by
  obtain ⟨e0, e1⟩ := idx2_1 t
  unfold iblk2
  rw [View.read_apply]
  show (V c main_v72 : S100000x128.Idx → EReal) _ = _
  refine congrArg (V c main_v72 : S100000x128.Idx → EReal) (funext fun d => Fin.ext ?_)
  match d with
  | ⟨0, _⟩ => show win2_1.index t (0 : Fin 2) * 4000 + 1 * a.val = t.val * 4000 + a.val; rw [e0]; omega
  | ⟨1, _⟩ => show win2_1.index t (1 : Fin 2) * 128 + 1 * b.val = b.val; rw [e1]; omega

/-- Input window 2's block at point `t`, read at an index: the entry array read at the same index. -/
theorem iblk2_2_apply (c : Dev nD) (t : Fin cfg2.N) (a : Fin 1) (b : Fin 1) :
    (iblk2 V c 2 t : S1x1.Idx → EReal) (ix2 a b) = (V c main_v76 : S1x1.Idx → EReal) (ix2 a b) := by
  obtain ⟨e0, e1⟩ := idx2_2 t
  unfold iblk2
  rw [View.read_apply]
  show (V c main_v76 : S1x1.Idx → EReal) _ = _
  refine congrArg (V c main_v76 : S1x1.Idx → EReal) (funext fun d => Fin.ext ?_)
  match d with
  | ⟨0, _⟩ => show win2_2.index t (0 : Fin 2) * 1 + 1 * a.val = a.val; rw [e0]; omega
  | ⟨1, _⟩ => show win2_2.index t (1 : Fin 2) * 1 + 1 * b.val = b.val; rw [e1]; omega

/-- Input window 3's block at point `t`, read at an index: the entry array read at the same index. -/
theorem iblk2_3_apply (c : Dev nD) (t : Fin cfg2.N) (a : Fin 128) (b : Fin 256) :
    (iblk2 V c 3 t : S128x256.Idx → EReal) (ix2 a b) = (V c main_v112 : S128x256.Idx → EReal) (ix2 a b) := by
  obtain ⟨e0, e1⟩ := idx2_3 t
  unfold iblk2
  rw [View.read_apply]
  show (V c main_v112 : S128x256.Idx → EReal) _ = _
  refine congrArg (V c main_v112 : S128x256.Idx → EReal) (funext fun d => Fin.ext ?_)
  match d with
  | ⟨0, _⟩ => show win2_3.index t (0 : Fin 2) * 128 + 1 * a.val = a.val; rw [e0]; omega
  | ⟨1, _⟩ => show win2_3.index t (1 : Fin 2) * 256 + 1 * b.val = b.val; rw [e1]; omega

/-- Input window 4's block at point `t`, read at an index: the entry array read at the same index. -/
theorem iblk2_4_apply (c : Dev nD) (t : Fin cfg2.N) (a : Fin 1) (b : Fin 256) :
    (iblk2 V c 4 t : S1x256.Idx → EReal) (ix2 a b) = (V c main_v113 : S1x256.Idx → EReal) (ix2 a b) := by
  obtain ⟨e0, e1⟩ := idx2_4 t
  unfold iblk2
  rw [View.read_apply]
  show (V c main_v113 : S1x256.Idx → EReal) _ = _
  refine congrArg (V c main_v113 : S1x256.Idx → EReal) (funext fun d => Fin.ext ?_)
  match d with
  | ⟨0, _⟩ => show win2_4.index t (0 : Fin 2) * 1 + 1 * a.val = a.val; rw [e0]; omega
  | ⟨1, _⟩ => show win2_4.index t (1 : Fin 2) * 256 + 1 * b.val = b.val; rw [e1]; omega

/-- Input window 5's block at point `t`, read at an index: the entry array read at the same index. -/
theorem iblk2_5_apply (c : Dev nD) (t : Fin cfg2.N) (a : Fin 1) (b : Fin 256) :
    (iblk2 V c 5 t : S1x256.Idx → EReal) (ix2 a b) = (V c main_v114 : S1x256.Idx → EReal) (ix2 a b) := by
  obtain ⟨e0, e1⟩ := idx2_5 t
  unfold iblk2
  rw [View.read_apply]
  show (V c main_v114 : S1x256.Idx → EReal) _ = _
  refine congrArg (V c main_v114 : S1x256.Idx → EReal) (funext fun d => Fin.ext ?_)
  match d with
  | ⟨0, _⟩ => show win2_5.index t (0 : Fin 2) * 1 + 1 * a.val = a.val; rw [e0]; omega
  | ⟨1, _⟩ => show win2_5.index t (1 : Fin 2) * 256 + 1 * b.val = b.val; rw [e1]; omega

/-- Input window 6's block at point `t`, read at an index: the entry array read at the same index. -/
theorem iblk2_6_apply (c : Dev nD) (t : Fin cfg2.N) (a : Fin 256) (b : Fin 128) :
    (iblk2 V c 6 t : S256x128.Idx → EReal) (ix2 a b) = (V c main_v116 : S256x128.Idx → EReal) (ix2 a b) := by
  obtain ⟨e0, e1⟩ := idx2_6 t
  unfold iblk2
  rw [View.read_apply]
  show (V c main_v116 : S256x128.Idx → EReal) _ = _
  refine congrArg (V c main_v116 : S256x128.Idx → EReal) (funext fun d => Fin.ext ?_)
  match d with
  | ⟨0, _⟩ => show win2_6.index t (0 : Fin 2) * 256 + 1 * a.val = a.val; rw [e0]; omega
  | ⟨1, _⟩ => show win2_6.index t (1 : Fin 2) * 128 + 1 * b.val = b.val; rw [e1]; omega

/-- Input window 7's block at point `t`, read at an index: the entry array read at the same index. -/
theorem iblk2_7_apply (c : Dev nD) (t : Fin cfg2.N) (a : Fin 1) (b : Fin 128) :
    (iblk2 V c 7 t : S1x128.Idx → EReal) (ix2 a b) = (V c main_v117 : S1x128.Idx → EReal) (ix2 a b) := by
  obtain ⟨e0, e1⟩ := idx2_7 t
  unfold iblk2
  rw [View.read_apply]
  show (V c main_v117 : S1x128.Idx → EReal) _ = _
  refine congrArg (V c main_v117 : S1x128.Idx → EReal) (funext fun d => Fin.ext ?_)
  match d with
  | ⟨0, _⟩ => show win2_7.index t (0 : Fin 2) * 1 + 1 * a.val = a.val; rw [e0]; omega
  | ⟨1, _⟩ => show win2_7.index t (1 : Fin 2) * 128 + 1 * b.val = b.val; rw [e1]; omega

/-- Input window 8's block at point `t`, read at an index: the entry array read at the same index. -/
theorem iblk2_8_apply (c : Dev nD) (t : Fin cfg2.N) (a : Fin 1) (b : Fin 128) :
    (iblk2 V c 8 t : S1x128.Idx → EReal) (ix2 a b) = (V c main_v118 : S1x128.Idx → EReal) (ix2 a b) := by
  obtain ⟨e0, e1⟩ := idx2_8 t
  unfold iblk2
  rw [View.read_apply]
  show (V c main_v118 : S1x128.Idx → EReal) _ = _
  refine congrArg (V c main_v118 : S1x128.Idx → EReal) (funext fun d => Fin.ext ?_)
  match d with
  | ⟨0, _⟩ => show win2_8.index t (0 : Fin 2) * 1 + 1 * a.val = a.val; rw [e0]; omega
  | ⟨1, _⟩ => show win2_8.index t (1 : Fin 2) * 128 + 1 * b.val = b.val; rw [e1]; omega

/-- The folded GIN update of node `r`, channel `q`, of the arrays as the region finds them. -/
def rowSpec2 (c : Dev nD) (r : Fin 100000) (q : Fin 128) : EReal :=
  Cert.GinSpec.ginRowFolded (fun j => (V c main_v62 : S100000x128.Idx → EReal) (ix2 r j)) (fun j => (V c main_v72 : S100000x128.Idx → EReal) (ix2 r j)) ((V c main_v76 : S1x1.Idx → EReal) (ix2 0 0)) (fun j k => (V c main_v112 : S128x256.Idx → EReal) (ix2 j k))
      (fun k => (V c main_v113 : S1x256.Idx → EReal) (ix2 0 k)) (fun k => (V c main_v114 : S1x256.Idx → EReal) (ix2 0 k)) (fun k q' => (V c main_v116 : S256x128.Idx → EReal) (ix2 k q')) (fun q' => (V c main_v117 : S1x128.Idx → EReal) (ix2 0 q'))
      (fun q' => (V c main_v118 : S1x128.Idx → EReal) (ix2 0 q')) q

/-- The whole output array: `rowSpec2` at every row and column. -/
def G2 (c : Dev nD) : S100000x128.Idx → EReal := fun i =>
  rowSpec2 V c ⟨(i 0).val, idx2_lt0 i⟩ ⟨(i 1).val, idx2_lt1 i⟩

/-- What point `t` writes back is block `t` of `G2`. -/
theorem flushed2_eq (c : Dev nD) (t : Fin cfg2.N) :
    (dat2 V c).flushed 9 t = ((cfg2.win 9).blk t).view.read (Elt Ideal) (G2 V c) := by
  show (cfg2.win 9).cut (grid2.coords t) ((dat2 V c).after 9 t) = _
  rw [after2_9]
  unfold out2_9
  rw [View.canon_unit_zero hz_r2]
  simp only [View.ld_unit_zero (S := S4000x128) hz_r2, View.ld_unit_zero (S := S1x1) hz_r2, View.ld_unit_zero (S := S128x256) hz_r2, View.ld_unit_zero (S := S1x256) hz_r2, View.ld_unit_zero (S := S256x128) hz_r2, View.ld_unit_zero (S := S1x128) hz_r2]
  funext y
  obtain ⟨p, q, rfl⟩ : ∃ (p : Fin 4000) (q : Fin 128), y = ix2 p q := ⟨y 0, y 1, @eq_ix2 4000 128 y⟩
  obtain ⟨e0, e1⟩ := idx2_9 t
  have hemb : ((cfg2.win 9).blk t).view.emb (ix2 p q) = (ix2 (row2 t p) q : S100000x128.Idx) := funext fun d => Fin.ext (by
    match d with
    | ⟨0, _⟩ => show win2_9.index t (0 : Fin 2) * 4000 + 1 * p.val = t.val * 4000 + p.val; rw [e0]; omega
    | ⟨1, _⟩ => show win2_9.index t (1 : Fin 2) * 128 + 1 * q.val = q.val; rw [e1]; omega)
  refine (pay2_apply (iblk2 V c 0 t) (iblk2 V c 1 t) (iblk2 V c 2 t) (iblk2 V c 3 t) (iblk2 V c 4 t) (iblk2 V c 5 t) (iblk2 V c 6 t) (iblk2 V c 7 t) (iblk2 V c 8 t) p q).trans ?_
  show _ = G2 V c (((cfg2.win 9).blk t).view.emb (ix2 p q))
  rw [hemb]
  show _ = rowSpec2 V c (row2 t p) q
  unfold rowSpec2
  simp only [iblk2_0_apply V c t, iblk2_1_apply V c t, iblk2_2_apply V c t, iblk2_3_apply V c t, iblk2_4_apply V c t, iblk2_5_apply V c t, iblk2_6_apply V c t, iblk2_7_apply V c t, iblk2_8_apply V c t]

/-- An index of the output array is in point `t`'s block iff each coordinate is in the block's range on its axis. -/
theorem mem_blk2 (t : Fin cfg2.N) (i : S100000x128.Idx) :
    i ∈ ((cfg2.win 9).blk t).view.set ↔ ∀ a : Fin 2, win2_9.index t a * S4000x128.size a ≤ (i a).val ∧ (i a).val < win2_9.index t a * S4000x128.size a + S4000x128.size a := by
  show i ∈ ((View.whole main_v119).slice (win2_9.rect t)).set ↔ _
  rw [View.set_slice_whole, Rect.mem_set_unit]
  exact Iff.rfl

/-- Every index of the output array is in some point's block: row `r` is in the block of point `r / 4000`. -/
theorem cover2 (i : S100000x128.Idx) :
    ∃ t : Fin cfg2.N, (cfg2.win 9).flush t = true ∧ i ∈ ((cfg2.win 9).blk t).view.set := by
  have h0 : (i 0).val < 100000 := idx2_lt0 i
  have h1 : (i 1).val < 128 := idx2_lt1 i
  obtain ⟨t, ht⟩ : ∃ t : Fin cfg2.N, t.val = (i 0).val / 4000 :=
    ⟨⟨(i 0).val / 4000, by rw [show cfg2.N = 25 from N_2]; omega⟩, rfl⟩
  obtain ⟨e0, e1⟩ := idx2_9 t
  refine ⟨t, flush2_9 t, ?_⟩
  rw [mem_blk2]
  intro a
  match a with
  | ⟨0, _⟩ =>
    show win2_9.index t (0 : Fin 2) * 4000 ≤ (i 0).val ∧ (i 0).val < win2_9.index t (0 : Fin 2) * 4000 + 4000
    rw [e0, ht]; omega
  | ⟨1, _⟩ =>
    show win2_9.index t (1 : Fin 2) * 128 ≤ (i 1).val ∧ (i 1).val < win2_9.index t (1 : Fin 2) * 128 + 128
    rw [e1]; omega

/-- The output array after the pipeline is `G2` of the entry arrays. -/
theorem final2 (c : Dev nD) : (dat2 V c).arrAt 9 cfg2.N = G2 V c :=
  (dat2 V c).arrAt_eq_of_cover 9 (G2 V c) (fun t _ => flushed2_eq V c t) (cover2)

/-- The layer's output array after the pipeline, read at node `r` and channel `q`: the folded GIN update of that node's row of the entry arrays. -/
theorem region2_value (c : Dev nD) (r : Fin 100000) (q : Fin 128) :
    (Gen.dat2 (F := Ideal) V c).arrAt 9 cfg2.N (ix2 r q)
      = Cert.GinSpec.ginRowFolded (fun j => V c main_v62 (ix2 r j)) (fun j => V c main_v72 (ix2 r j)) (V c main_v76 (ix2 0 0)) (fun j k => V c main_v112 (ix2 j k))
      (fun k => V c main_v113 (ix2 0 k)) (fun k => V c main_v114 (ix2 0 k)) (fun k q' => V c main_v116 (ix2 k q')) (fun q' => V c main_v117 (ix2 0 q'))
      (fun q' => V c main_v118 (ix2 0 q')) q :=
  congrFun (final2 V c) (ix2 r q)

end Array

end Cert.KernelIdeal.RegionValue

end
-- ==== Proof.Region3.lean ====
/-
  The GIN layer kernel (copy 3 of three), from blocks to the whole array, on the extended reals.

  The kernel body at a row of its block is the folded GIN update of that row (`pay3_apply`): the two products into the
  zero accumulator are plain sums over the contracted axis, the roundings to a narrower format are the identity, the
  broadcasts of the per-channel rows and of the single entry `1 + ε` read the one row or entry they have. The node-feature
  and neighbour-sum windows and the output window move one block of 4000 rows per grid point; every parameter window
  stays on its whole array. So the block the pipeline writes back at point `t` is block `t` of one function of the entry
  arrays (`flushed3_eq`), the 25 blocks cover the 100000 rows (`cover3`: row `r` lies in block `r / 4000`), and the output
  array ends holding that function (`final3`, `region3_value`).
-/
import proofs.«156994_j78795470012791_1_alg».proof.Proof.Gen.KernelIdeal.Frame
import proofs.«156994_j78795470012791_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block access. -/
theorem hz_r3 : (![0, 0] : Fin 2 → Nat) = fun _ => 0 := funext fun a => by fin_cases a <;> rfl

/-- A row vector broadcast along the rows, read at an index: the row's entry in that column. -/
theorem bcast_row_apply_r3 {m n : Nat} (v : (⟨2, ![1, n]⟩ : Shape).Idx → EReal) (h : (⟨2, ![1, n]⟩ : Shape).Broadcasts ⟨2, ![m, n]⟩)
    (hn : n ≠ 1) (p : Fin m) (q : Fin n) :
    broadcastTo (⟨2, ![m, n]⟩ : Shape) v h (ix2 p q) = v (ix2 0 q) :=
  broadcastTo_apply v h (ix2 p q) (ix2 0 q) (fun a => by
    match a with
    | ⟨0, _⟩ => rfl
    | ⟨1, _⟩ => show q.val = if n = 1 then 0 else q.val; rw [if_neg hn])

/-- A single entry broadcast to a matrix, read at an index: that entry. -/
theorem bcast_one_apply_r3 {m n : Nat} (v : (⟨2, ![1, 1]⟩ : Shape).Idx → EReal) (h : (⟨2, ![1, 1]⟩ : Shape).Broadcasts ⟨2, ![m, n]⟩)
    (p : Fin m) (q : Fin n) :
    broadcastTo (⟨2, ![m, n]⟩ : Shape) v h (ix2 p q) = v (ix2 0 0) :=
  broadcastTo_apply v h (ix2 p q) (ix2 0 0) (fun a => by
    match a with
    | ⟨0, _⟩ => rfl
    | ⟨1, _⟩ => rfl)

/-- The zero word denotes zero. -/
theorem scalar_zero_r3 : Scalar.ofBits (F := Ideal) .f32 0x00000000#32 = (0 : EReal) := Ideal.ofBits_zero_f32

/-- A `[4000,128] × [128,256]` product into the zero accumulator, read at row `p` and column `q`: the sum over the
    contracted axis of the products of row `p` of the left factor with column `q` of the right one. -/
theorem matmul_128_256_apply_r3 (l : FVec Ideal S4000x128 .bf16) (r : FVec Ideal S128x256 .bf16) (p : Fin 4000) (q : Fin 256) :
    matmul dot_S4000x128_S128x256_S4000x256_1_0_0_1_n_n none l r (constant (F := Ideal) S4000x256 .f32 0x00000000#32) (ix2 p q)
      = ∑ k : Fin 128, l (ix2 p k) * r (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ =>
      show (dot_S4000x128_S128x256_S4000x256_1_0_0_1_n_n.lhsIdx (ix2 p q) _ 0).val = p.val
      unfold DotDims.lhsIdx
      rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
      rfl
    | ⟨1, _⟩ => exact (dot_S4000x128_S128x256_S4000x256_1_0_0_1_n_n.lhsIdx_val_of_single rfl _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (dot_S4000x128_S128x256_S4000x256_1_0_0_1_n_n.rhsIdx_val_of_single rfl _ _).trans hk
    | ⟨1, _⟩ =>
      show (dot_S4000x128_S128x256_S4000x256_1_0_0_1_n_n.rhsIdx (ix2 p q) _ 1).val = q.val
      unfold DotDims.rhsIdx
      rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
      rfl)
  rw [el, er]

/-- A `[4000,256] × [256,128]` product into the zero accumulator, read at row `p` and column `q`: the sum over the
    contracted axis of the products of row `p` of the left factor with column `q` of the right one. -/
theorem matmul_256_128_apply_r3 (l : FVec Ideal S4000x256 .bf16) (r : FVec Ideal S256x128 .bf16) (p : Fin 4000) (q : Fin 128) :
    matmul dot_S4000x256_S256x128_S4000x128_1_0_0_1_n_n none l r (constant (F := Ideal) S4000x128 .f32 0x00000000#32) (ix2 p q)
      = ∑ k : Fin 256, l (ix2 p k) * r (ix2 k q) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ =>
      show (dot_S4000x256_S256x128_S4000x128_1_0_0_1_n_n.lhsIdx (ix2 p q) _ 0).val = p.val
      unfold DotDims.lhsIdx
      rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
      rfl
    | ⟨1, _⟩ => exact (dot_S4000x256_S256x128_S4000x128_1_0_0_1_n_n.lhsIdx_val_of_single rfl _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (dot_S4000x256_S256x128_S4000x128_1_0_0_1_n_n.rhsIdx_val_of_single rfl _ _).trans hk
    | ⟨1, _⟩ =>
      show (dot_S4000x256_S256x128_S4000x128_1_0_0_1_n_n.rhsIdx (ix2 p q) _ 1).val = q.val
      unfold DotDims.rhsIdx
      rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
      rfl)
  rw [el, er]

/-- The body of the layer's kernel at row `p`, column `q` of its block: the folded GIN update of that row. -/
theorem pay3_apply (x0 x1 : Vec Ideal S4000x128 .f32) (x2 : Vec Ideal S1x1 .f32) (x3 : Vec Ideal S128x256 .f32)
    (x4 x5 : Vec Ideal S1x256 .f32) (x6 : Vec Ideal S256x128 .f32) (x7 x8 : Vec Ideal S1x128 .f32) (p : Fin 4000) (q : Fin 128) :
    k3_pay1 (F := Ideal) (k3_pay2 x0) (k3_pay3 x0 x1 x2 x3 x4 x5 x6 x7) x8 (ix2 p q)
      = Cert.GinSpec.ginRowFolded (fun j => x0 (ix2 p j)) (fun j => x1 (ix2 p j)) (x2 (ix2 0 0)) (fun j k => x3 (ix2 j k))
          (fun k => x4 (ix2 0 k)) (fun k => x5 (ix2 0 k)) (fun k q' => x6 (ix2 k q')) (fun q' => x7 (ix2 0 q'))
          (fun q' => x8 (ix2 0 q')) q := by
  unfold k3_pay1 k3_pay3 Cert.GinSpec.ginRowFolded
  simp only [k3_pay2, shapeCast_self, addf_apply, mulf_apply, maximumf_apply, truncf_apply, broadcast_apply,
    bcast_row_apply_r3 _ _ (by decide : (128 : Nat) ≠ 1), bcast_row_apply_r3 _ _ (by decide : (256 : Nat) ≠ 1), bcast_one_apply_r3,
    matmul_128_256_apply_r3, matmul_256_128_apply_r3, scalar_zero_r3]

section Array

variable (V : (c : Dev nD) → (b : Ref sig .tc) → Buf (Elt Ideal) ((c : Thread nD τ).loc b))

/-- The grid has 25 points. -/
theorem point_lt3 (t : Fin cfg3.N) : t.val < 25 :=
  lt_of_lt_of_eq t.isLt N_3

/-- Window 0's block index at a point, decided over the grid: the point's number along the rows, 0 along the columns. -/
theorem idx3_0 : ∀ t : Fin cfg3.N, win3_0.index t (0 : Fin 2) = t.val ∧ win3_0.index t (1 : Fin 2) = 0 :=
  (by decide +kernel : ∀ t : Fin grid3.N, _)

/-- Window 1's block index at a point, decided over the grid: the point's number along the rows, 0 along the columns. -/
theorem idx3_1 : ∀ t : Fin cfg3.N, win3_1.index t (0 : Fin 2) = t.val ∧ win3_1.index t (1 : Fin 2) = 0 :=
  (by decide +kernel : ∀ t : Fin grid3.N, _)

/-- Window 2's block index at a point, decided over the grid: always (0, 0). -/
theorem idx3_2 : ∀ t : Fin cfg3.N, win3_2.index t (0 : Fin 2) = 0 ∧ win3_2.index t (1 : Fin 2) = 0 :=
  (by decide +kernel : ∀ t : Fin grid3.N, _)

/-- Window 3's block index at a point, decided over the grid: always (0, 0). -/
theorem idx3_3 : ∀ t : Fin cfg3.N, win3_3.index t (0 : Fin 2) = 0 ∧ win3_3.index t (1 : Fin 2) = 0 :=
  (by decide +kernel : ∀ t : Fin grid3.N, _)

/-- Window 4's block index at a point, decided over the grid: always (0, 0). -/
theorem idx3_4 : ∀ t : Fin cfg3.N, win3_4.index t (0 : Fin 2) = 0 ∧ win3_4.index t (1 : Fin 2) = 0 :=
  (by decide +kernel : ∀ t : Fin grid3.N, _)

/-- Window 5's block index at a point, decided over the grid: always (0, 0). -/
theorem idx3_5 : ∀ t : Fin cfg3.N, win3_5.index t (0 : Fin 2) = 0 ∧ win3_5.index t (1 : Fin 2) = 0 :=
  (by decide +kernel : ∀ t : Fin grid3.N, _)

/-- Window 6's block index at a point, decided over the grid: always (0, 0). -/
theorem idx3_6 : ∀ t : Fin cfg3.N, win3_6.index t (0 : Fin 2) = 0 ∧ win3_6.index t (1 : Fin 2) = 0 :=
  (by decide +kernel : ∀ t : Fin grid3.N, _)

/-- Window 7's block index at a point, decided over the grid: always (0, 0). -/
theorem idx3_7 : ∀ t : Fin cfg3.N, win3_7.index t (0 : Fin 2) = 0 ∧ win3_7.index t (1 : Fin 2) = 0 :=
  (by decide +kernel : ∀ t : Fin grid3.N, _)

/-- Window 8's block index at a point, decided over the grid: always (0, 0). -/
theorem idx3_8 : ∀ t : Fin cfg3.N, win3_8.index t (0 : Fin 2) = 0 ∧ win3_8.index t (1 : Fin 2) = 0 :=
  (by decide +kernel : ∀ t : Fin grid3.N, _)

/-- Window 9's block index at a point, decided over the grid: the point's number along the rows, 0 along the columns. -/
theorem idx3_9 : ∀ t : Fin cfg3.N, win3_9.index t (0 : Fin 2) = t.val ∧ win3_9.index t (1 : Fin 2) = 0 :=
  (by decide +kernel : ∀ t : Fin grid3.N, _)

/-- The row of the whole array that row `p` of the block at point `t` is. -/
def row3 (t : Fin cfg3.N) (p : Fin 4000) : Fin 100000 :=
  ⟨t.val * 4000 + p.val, by have := point_lt3 t; have := p.isLt; omega⟩

/-- Input window 0's block at point `t`, read at an index: the entry array read at the block's row offset plus the row. -/
theorem iblk3_0_apply (c : Dev nD) (t : Fin cfg3.N) (a : Fin 4000) (b : Fin 128) :
    (iblk3 V c 0 t : S4000x128.Idx → EReal) (ix2 a b) = (V c main_v119 : S100000x128.Idx → EReal) (ix2 (row3 t a) b) := by
  obtain ⟨e0, e1⟩ := idx3_0 t
  unfold iblk3
  rw [View.read_apply]
  show (V c main_v119 : S100000x128.Idx → EReal) _ = _
  refine congrArg (V c main_v119 : S100000x128.Idx → EReal) (funext fun d => Fin.ext ?_)
  match d with
  | ⟨0, _⟩ => show win3_0.index t (0 : Fin 2) * 4000 + 1 * a.val = t.val * 4000 + a.val; rw [e0]; omega
  | ⟨1, _⟩ => show win3_0.index t (1 : Fin 2) * 128 + 1 * b.val = b.val; rw [e1]; omega

/-- Input window 1's block at point `t`, read at an index: the entry array read at the block's row offset plus the row. -/
theorem iblk3_1_apply (c : Dev nD) (t : Fin cfg3.N) (a : Fin 4000) (b : Fin 128) :
    (iblk3 V c 1 t : S4000x128.Idx → EReal) (ix2 a b) = (V c main_v129 : S100000x128.Idx → EReal) (ix2 (row3 t a) b) := by
  obtain ⟨e0, e1⟩ := idx3_1 t
  unfold iblk3
  rw [View.read_apply]
  show (V c main_v129 : S100000x128.Idx → EReal) _ = _
  refine congrArg (V c main_v129 : S100000x128.Idx → EReal) (funext fun d => Fin.ext ?_)
  match d with
  | ⟨0, _⟩ => show win3_1.index t (0 : Fin 2) * 4000 + 1 * a.val = t.val * 4000 + a.val; rw [e0]; omega
  | ⟨1, _⟩ => show win3_1.index t (1 : Fin 2) * 128 + 1 * b.val = b.val; rw [e1]; omega

/-- Input window 2's block at point `t`, read at an index: the entry array read at the same index. -/
theorem iblk3_2_apply (c : Dev nD) (t : Fin cfg3.N) (a : Fin 1) (b : Fin 1) :
    (iblk3 V c 2 t : S1x1.Idx → EReal) (ix2 a b) = (V c main_v133 : S1x1.Idx → EReal) (ix2 a b) := by
  obtain ⟨e0, e1⟩ := idx3_2 t
  unfold iblk3
  rw [View.read_apply]
  show (V c main_v133 : S1x1.Idx → EReal) _ = _
  refine congrArg (V c main_v133 : S1x1.Idx → EReal) (funext fun d => Fin.ext ?_)
  match d with
  | ⟨0, _⟩ => show win3_2.index t (0 : Fin 2) * 1 + 1 * a.val = a.val; rw [e0]; omega
  | ⟨1, _⟩ => show win3_2.index t (1 : Fin 2) * 1 + 1 * b.val = b.val; rw [e1]; omega

/-- Input window 3's block at point `t`, read at an index: the entry array read at the same index. -/
theorem iblk3_3_apply (c : Dev nD) (t : Fin cfg3.N) (a : Fin 128) (b : Fin 256) :
    (iblk3 V c 3 t : S128x256.Idx → EReal) (ix2 a b) = (V c main_v169 : S128x256.Idx → EReal) (ix2 a b) := by
  obtain ⟨e0, e1⟩ := idx3_3 t
  unfold iblk3
  rw [View.read_apply]
  show (V c main_v169 : S128x256.Idx → EReal) _ = _
  refine congrArg (V c main_v169 : S128x256.Idx → EReal) (funext fun d => Fin.ext ?_)
  match d with
  | ⟨0, _⟩ => show win3_3.index t (0 : Fin 2) * 128 + 1 * a.val = a.val; rw [e0]; omega
  | ⟨1, _⟩ => show win3_3.index t (1 : Fin 2) * 256 + 1 * b.val = b.val; rw [e1]; omega

/-- Input window 4's block at point `t`, read at an index: the entry array read at the same index. -/
theorem iblk3_4_apply (c : Dev nD) (t : Fin cfg3.N) (a : Fin 1) (b : Fin 256) :
    (iblk3 V c 4 t : S1x256.Idx → EReal) (ix2 a b) = (V c main_v170 : S1x256.Idx → EReal) (ix2 a b) := by
  obtain ⟨e0, e1⟩ := idx3_4 t
  unfold iblk3
  rw [View.read_apply]
  show (V c main_v170 : S1x256.Idx → EReal) _ = _
  refine congrArg (V c main_v170 : S1x256.Idx → EReal) (funext fun d => Fin.ext ?_)
  match d with
  | ⟨0, _⟩ => show win3_4.index t (0 : Fin 2) * 1 + 1 * a.val = a.val; rw [e0]; omega
  | ⟨1, _⟩ => show win3_4.index t (1 : Fin 2) * 256 + 1 * b.val = b.val; rw [e1]; omega

/-- Input window 5's block at point `t`, read at an index: the entry array read at the same index. -/
theorem iblk3_5_apply (c : Dev nD) (t : Fin cfg3.N) (a : Fin 1) (b : Fin 256) :
    (iblk3 V c 5 t : S1x256.Idx → EReal) (ix2 a b) = (V c main_v171 : S1x256.Idx → EReal) (ix2 a b) := by
  obtain ⟨e0, e1⟩ := idx3_5 t
  unfold iblk3
  rw [View.read_apply]
  show (V c main_v171 : S1x256.Idx → EReal) _ = _
  refine congrArg (V c main_v171 : S1x256.Idx → EReal) (funext fun d => Fin.ext ?_)
  match d with
  | ⟨0, _⟩ => show win3_5.index t (0 : Fin 2) * 1 + 1 * a.val = a.val; rw [e0]; omega
  | ⟨1, _⟩ => show win3_5.index t (1 : Fin 2) * 256 + 1 * b.val = b.val; rw [e1]; omega

/-- Input window 6's block at point `t`, read at an index: the entry array read at the same index. -/
theorem iblk3_6_apply (c : Dev nD) (t : Fin cfg3.N) (a : Fin 256) (b : Fin 128) :
    (iblk3 V c 6 t : S256x128.Idx → EReal) (ix2 a b) = (V c main_v173 : S256x128.Idx → EReal) (ix2 a b) := by
  obtain ⟨e0, e1⟩ := idx3_6 t
  unfold iblk3
  rw [View.read_apply]
  show (V c main_v173 : S256x128.Idx → EReal) _ = _
  refine congrArg (V c main_v173 : S256x128.Idx → EReal) (funext fun d => Fin.ext ?_)
  match d with
  | ⟨0, _⟩ => show win3_6.index t (0 : Fin 2) * 256 + 1 * a.val = a.val; rw [e0]; omega
  | ⟨1, _⟩ => show win3_6.index t (1 : Fin 2) * 128 + 1 * b.val = b.val; rw [e1]; omega

/-- Input window 7's block at point `t`, read at an index: the entry array read at the same index. -/
theorem iblk3_7_apply (c : Dev nD) (t : Fin cfg3.N) (a : Fin 1) (b : Fin 128) :
    (iblk3 V c 7 t : S1x128.Idx → EReal) (ix2 a b) = (V c main_v174 : S1x128.Idx → EReal) (ix2 a b) := by
  obtain ⟨e0, e1⟩ := idx3_7 t
  unfold iblk3
  rw [View.read_apply]
  show (V c main_v174 : S1x128.Idx → EReal) _ = _
  refine congrArg (V c main_v174 : S1x128.Idx → EReal) (funext fun d => Fin.ext ?_)
  match d with
  | ⟨0, _⟩ => show win3_7.index t (0 : Fin 2) * 1 + 1 * a.val = a.val; rw [e0]; omega
  | ⟨1, _⟩ => show win3_7.index t (1 : Fin 2) * 128 + 1 * b.val = b.val; rw [e1]; omega

/-- Input window 8's block at point `t`, read at an index: the entry array read at the same index. -/
theorem iblk3_8_apply (c : Dev nD) (t : Fin cfg3.N) (a : Fin 1) (b : Fin 128) :
    (iblk3 V c 8 t : S1x128.Idx → EReal) (ix2 a b) = (V c main_v175 : S1x128.Idx → EReal) (ix2 a b) := by
  obtain ⟨e0, e1⟩ := idx3_8 t
  unfold iblk3
  rw [View.read_apply]
  show (V c main_v175 : S1x128.Idx → EReal) _ = _
  refine congrArg (V c main_v175 : S1x128.Idx → EReal) (funext fun d => Fin.ext ?_)
  match d with
  | ⟨0, _⟩ => show win3_8.index t (0 : Fin 2) * 1 + 1 * a.val = a.val; rw [e0]; omega
  | ⟨1, _⟩ => show win3_8.index t (1 : Fin 2) * 128 + 1 * b.val = b.val; rw [e1]; omega

/-- The folded GIN update of node `r`, channel `q`, of the arrays as the region finds them. -/
def rowSpec3 (c : Dev nD) (r : Fin 100000) (q : Fin 128) : EReal :=
  Cert.GinSpec.ginRowFolded (fun j => (V c main_v119 : S100000x128.Idx → EReal) (ix2 r j)) (fun j => (V c main_v129 : S100000x128.Idx → EReal) (ix2 r j)) ((V c main_v133 : S1x1.Idx → EReal) (ix2 0 0)) (fun j k => (V c main_v169 : S128x256.Idx → EReal) (ix2 j k))
      (fun k => (V c main_v170 : S1x256.Idx → EReal) (ix2 0 k)) (fun k => (V c main_v171 : S1x256.Idx → EReal) (ix2 0 k)) (fun k q' => (V c main_v173 : S256x128.Idx → EReal) (ix2 k q')) (fun q' => (V c main_v174 : S1x128.Idx → EReal) (ix2 0 q'))
      (fun q' => (V c main_v175 : S1x128.Idx → EReal) (ix2 0 q')) q

/-- The whole output array: `rowSpec3` at every row and column. -/
def G3 (c : Dev nD) : S100000x128.Idx → EReal := fun i =>
  rowSpec3 V c ⟨(i 0).val, idx2_lt0 i⟩ ⟨(i 1).val, idx2_lt1 i⟩

/-- What point `t` writes back is block `t` of `G3`. -/
theorem flushed3_eq (c : Dev nD) (t : Fin cfg3.N) :
    (dat3 V c).flushed 9 t = ((cfg3.win 9).blk t).view.read (Elt Ideal) (G3 V c) := by
  show (cfg3.win 9).cut (grid3.coords t) ((dat3 V c).after 9 t) = _
  rw [after3_9]
  unfold out3_9
  rw [View.canon_unit_zero hz_r3]
  simp only [View.ld_unit_zero (S := S4000x128) hz_r3, View.ld_unit_zero (S := S1x1) hz_r3, View.ld_unit_zero (S := S128x256) hz_r3, View.ld_unit_zero (S := S1x256) hz_r3, View.ld_unit_zero (S := S256x128) hz_r3, View.ld_unit_zero (S := S1x128) hz_r3]
  funext y
  obtain ⟨p, q, rfl⟩ : ∃ (p : Fin 4000) (q : Fin 128), y = ix2 p q := ⟨y 0, y 1, @eq_ix2 4000 128 y⟩
  obtain ⟨e0, e1⟩ := idx3_9 t
  have hemb : ((cfg3.win 9).blk t).view.emb (ix2 p q) = (ix2 (row3 t p) q : S100000x128.Idx) := funext fun d => Fin.ext (by
    match d with
    | ⟨0, _⟩ => show win3_9.index t (0 : Fin 2) * 4000 + 1 * p.val = t.val * 4000 + p.val; rw [e0]; omega
    | ⟨1, _⟩ => show win3_9.index t (1 : Fin 2) * 128 + 1 * q.val = q.val; rw [e1]; omega)
  refine (pay3_apply (iblk3 V c 0 t) (iblk3 V c 1 t) (iblk3 V c 2 t) (iblk3 V c 3 t) (iblk3 V c 4 t) (iblk3 V c 5 t) (iblk3 V c 6 t) (iblk3 V c 7 t) (iblk3 V c 8 t) p q).trans ?_
  show _ = G3 V c (((cfg3.win 9).blk t).view.emb (ix2 p q))
  rw [hemb]
  show _ = rowSpec3 V c (row3 t p) q
  unfold rowSpec3
  simp only [iblk3_0_apply V c t, iblk3_1_apply V c t, iblk3_2_apply V c t, iblk3_3_apply V c t, iblk3_4_apply V c t, iblk3_5_apply V c t, iblk3_6_apply V c t, iblk3_7_apply V c t, iblk3_8_apply V c t]

/-- An index of the output array is in point `t`'s block iff each coordinate is in the block's range on its axis. -/
theorem mem_blk3 (t : Fin cfg3.N) (i : S100000x128.Idx) :
    i ∈ ((cfg3.win 9).blk t).view.set ↔ ∀ a : Fin 2, win3_9.index t a * S4000x128.size a ≤ (i a).val ∧ (i a).val < win3_9.index t a * S4000x128.size a + S4000x128.size a := by
  show i ∈ ((View.whole main_v176).slice (win3_9.rect t)).set ↔ _
  rw [View.set_slice_whole, Rect.mem_set_unit]
  exact Iff.rfl

/-- Every index of the output array is in some point's block: row `r` is in the block of point `r / 4000`. -/
theorem cover3 (i : S100000x128.Idx) :
    ∃ t : Fin cfg3.N, (cfg3.win 9).flush t = true ∧ i ∈ ((cfg3.win 9).blk t).view.set := by
  have h0 : (i 0).val < 100000 := idx2_lt0 i
  have h1 : (i 1).val < 128 := idx2_lt1 i
  obtain ⟨t, ht⟩ : ∃ t : Fin cfg3.N, t.val = (i 0).val / 4000 :=
    ⟨⟨(i 0).val / 4000, by rw [show cfg3.N = 25 from N_3]; omega⟩, rfl⟩
  obtain ⟨e0, e1⟩ := idx3_9 t
  refine ⟨t, flush3_9 t, ?_⟩
  rw [mem_blk3]
  intro a
  match a with
  | ⟨0, _⟩ =>
    show win3_9.index t (0 : Fin 2) * 4000 ≤ (i 0).val ∧ (i 0).val < win3_9.index t (0 : Fin 2) * 4000 + 4000
    rw [e0, ht]; omega
  | ⟨1, _⟩ =>
    show win3_9.index t (1 : Fin 2) * 128 ≤ (i 1).val ∧ (i 1).val < win3_9.index t (1 : Fin 2) * 128 + 128
    rw [e1]; omega

/-- The output array after the pipeline is `G3` of the entry arrays. -/
theorem final3 (c : Dev nD) : (dat3 V c).arrAt 9 cfg3.N = G3 V c :=
  (dat3 V c).arrAt_eq_of_cover 9 (G3 V c) (fun t _ => flushed3_eq V c t) (cover3)

/-- The layer's output array after the pipeline, read at node `r` and channel `q`: the folded GIN update of that node's row of the entry arrays. -/
theorem region3_value (c : Dev nD) (r : Fin 100000) (q : Fin 128) :
    (Gen.dat3 (F := Ideal) V c).arrAt 9 cfg3.N (ix2 r q)
      = Cert.GinSpec.ginRowFolded (fun j => V c main_v119 (ix2 r j)) (fun j => V c main_v129 (ix2 r j)) (V c main_v133 (ix2 0 0)) (fun j k => V c main_v169 (ix2 j k))
      (fun k => V c main_v170 (ix2 0 k)) (fun k => V c main_v171 (ix2 0 k)) (fun k q' => V c main_v173 (ix2 k q')) (fun q' => V c main_v174 (ix2 0 q'))
      (fun q' => V c main_v175 (ix2 0 q')) q :=
  congrFun (final3 V c) (ix2 r q)

end Array

end Cert.KernelIdeal.RegionValue

end
-- ==== Proof.Region4.lean ====
/-
  The read-out kernel, from its one block to the whole array, on the extended reals.

  The kernel body at a row is that pooled row through the three dense stages, the first two followed by a maximum with
  zero (`pay4_apply`): each product into the zero accumulator is a plain sum over the contracted axis, the roundings to a
  narrower format are the identity, each broadcast of a bias row reads its one row. The grid has one point and every
  window's block is its whole array, so what the pipeline writes back is one function of the entry arrays
  (`flushed4_eq`), the one block covers the output array (`cover4`), and the output array ends holding that function
  (`final4`, `region4_value`).
-/
import proofs.«156994_j78795470012791_1_alg».proof.Proof.Gen.KernelIdeal.Frame
import proofs.«156994_j78795470012791_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block access. -/
theorem hz_r4 : (![0, 0] : Fin 2 → Nat) = fun _ => 0 := funext fun a => by fin_cases a <;> rfl

/-- A row vector broadcast along the rows, read at an index: the row's entry in that column. -/
theorem bcast_row_apply_r4 {m n : Nat} (v : (⟨2, ![1, n]⟩ : Shape).Idx → EReal) (h : (⟨2, ![1, n]⟩ : Shape).Broadcasts ⟨2, ![m, n]⟩)
    (hn : n ≠ 1) (p : Fin m) (q : Fin n) :
    broadcastTo (⟨2, ![m, n]⟩ : Shape) v h (ix2 p q) = v (ix2 0 q) :=
  broadcastTo_apply v h (ix2 p q) (ix2 0 q) (fun a => by
    match a with
    | ⟨0, _⟩ => rfl
    | ⟨1, _⟩ => show q.val = if n = 1 then 0 else q.val; rw [if_neg hn])

/-- A single entry broadcast to a matrix, read at an index: that entry. -/
theorem bcast_one_apply_r4 {m n : Nat} (v : (⟨2, ![1, 1]⟩ : Shape).Idx → EReal) (h : (⟨2, ![1, 1]⟩ : Shape).Broadcasts ⟨2, ![m, n]⟩)
    (p : Fin m) (q : Fin n) :
    broadcastTo (⟨2, ![m, n]⟩ : Shape) v h (ix2 p q) = v (ix2 0 0) :=
  broadcastTo_apply v h (ix2 p q) (ix2 0 0) (fun a => by
    match a with
    | ⟨0, _⟩ => rfl
    | ⟨1, _⟩ => rfl)

/-- The zero word denotes zero. -/
theorem scalar_zero_r4 : Scalar.ofBits (F := Ideal) .f32 0x00000000#32 = (0 : EReal) := Ideal.ofBits_zero_f32

/-- A `[512,128] × [128,128]` product into the zero accumulator, read at row `p` and column `q`: the sum over the
    contracted axis of the products of row `p` of the left factor with column `q` of the right one. -/
theorem matmul_128_128_apply_r4 (l : FVec Ideal S512x128 .bf16) (r : FVec Ideal S128x128 .bf16) (p : Fin 512) (q : Fin 128) :
    matmul dot_S512x128_S128x128_S512x128_1_0_0_1_n_n none l r (constant (F := Ideal) S512x128 .f32 0x00000000#32) (ix2 p q)
      = ∑ k : Fin 128, l (ix2 p k) * r (ix2 k q) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k := funext fun a => Fin.ext (by
    match a with
    | ⟨0, _⟩ =>
      show (dot_S512x128_S128x128_S512x128_1_0_0_1_n_n.lhsIdx (ix2 p q) _ 0).val = p.val
      unfold DotDims.lhsIdx
      rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
      rfl
    | ⟨1, _⟩ => exact (dot_S512x128_S128x128_S512x128_1_0_0_1_n_n.lhsIdx_val_of_single rfl _ _).trans hk)
  have er : dot_S512x128_S128x128_S512x128_1_0_0_1_n_n.rhsIdx (ix2 p q) ((contrEquiv1 dot_S512x128_S128x128_S512x128_1_0_0_1_n_n 128 rfl rfl).symm k) = ix2 k q := funext fun a => Fin.ext (by
    match a with
    | ⟨0, _⟩ => exact (dot_S512x128_S128x128_S512x128_1_0_0_1_n_n.rhsIdx_val_of_single rfl _ _).trans hk
    | ⟨1, _⟩ =>
      show (dot_S512x128_S128x128_S512x128_1_0_0_1_n_n.rhsIdx (ix2 p q) _ 1).val = q.val
      unfold DotDims.rhsIdx
      rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
      rfl)
  rw [el, er]

/-- A `[512,128] × [128,64]` product into the zero accumulator, read at row `p` and column `q`: the sum over the
    contracted axis of the products of row `p` of the left factor with column `q` of the right one. -/
theorem matmul_128_64_apply_r4 (l : FVec Ideal S512x128 .bf16) (r : FVec Ideal S128x64 .bf16) (p : Fin 512) (q : Fin 64) :
    matmul dot_S512x128_S128x64_S512x64_1_0_0_1_n_n none l r (constant (F := Ideal) S512x64 .f32 0x00000000#32) (ix2 p q)
      = ∑ k : Fin 128, l (ix2 p k) * r (ix2 k q) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 p q) ((contrEquiv1 dot_S512x128_S128x64_S512x64_1_0_0_1_n_n 128 rfl rfl).symm k) = ix2 p k := funext fun a => Fin.ext (by
    match a with
    | ⟨0, _⟩ =>
      show (dot_S512x128_S128x64_S512x64_1_0_0_1_n_n.lhsIdx (ix2 p q) _ 0).val = p.val
      unfold DotDims.lhsIdx
      rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
      rfl
    | ⟨1, _⟩ => exact (dot_S512x128_S128x64_S512x64_1_0_0_1_n_n.lhsIdx_val_of_single rfl _ _).trans hk)
  have er : dot_S512x128_S128x64_S512x64_1_0_0_1_n_n.rhsIdx (ix2 p q) ((contrEquiv1 dot_S512x128_S128x64_S512x64_1_0_0_1_n_n 128 rfl rfl).symm k) = ix2 k q := funext fun a => Fin.ext (by
    match a with
    | ⟨0, _⟩ => exact (dot_S512x128_S128x64_S512x64_1_0_0_1_n_n.rhsIdx_val_of_single rfl _ _).trans hk
    | ⟨1, _⟩ =>
      show (dot_S512x128_S128x64_S512x64_1_0_0_1_n_n.rhsIdx (ix2 p q) _ 1).val = q.val
      unfold DotDims.rhsIdx
      rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
      rfl)
  rw [el, er]

/-- A `[512,64] × [64,3]` product into the zero accumulator, read at row `p` and column `q`: the sum over the
    contracted axis of the products of row `p` of the left factor with column `q` of the right one. -/
theorem matmul_64_3_apply_r4 (l : FVec Ideal S512x64 .bf16) (r : FVec Ideal S64x3 .bf16) (p : Fin 512) (q : Fin 3) :
    matmul dot_S512x64_S64x3_S512x3_1_0_0_1_n_n none l r (constant (F := Ideal) S512x3 .f32 0x00000000#32) (ix2 p q)
      = ∑ k : Fin 64, l (ix2 p k) * r (ix2 k q) := by
  simp only [matmul]
  rw [Ideal.matmul_constant_zero_apply, ← Equiv.sum_comp (contrEquiv1 dot_S512x64_S64x3_S512x3_1_0_0_1_n_n 64 rfl rfl).symm]
  refine Finset.sum_congr rfl fun k _ => ?_
  have hk := contrEquiv1_symm_val dot_S512x64_S64x3_S512x3_1_0_0_1_n_n 64 rfl rfl k
  have el : dot_S512x64_S64x3_S512x3_1_0_0_1_n_n.lhsIdx (ix2 p q) ((contrEquiv1 dot_S512x64_S64x3_S512x3_1_0_0_1_n_n 64 rfl rfl).symm k) = ix2 p k := funext fun a => Fin.ext (by
    match a with
    | ⟨0, _⟩ =>
      show (dot_S512x64_S64x3_S512x3_1_0_0_1_n_n.lhsIdx (ix2 p q) _ 0).val = p.val
      unfold DotDims.lhsIdx
      rw [dif_neg (show ¬(0 : Fin S512x64.rank) ∈ dot_S512x64_S64x3_S512x3_1_0_0_1_n_n.lhsBatch by decide), dif_pos (show (0 : Fin S512x64.rank) ∈ dot_S512x64_S64x3_S512x3_1_0_0_1_n_n.lhsNonContracting by decide)]
      rfl
    | ⟨1, _⟩ => exact (dot_S512x64_S64x3_S512x3_1_0_0_1_n_n.lhsIdx_val_of_single rfl _ _).trans hk)
  have er : dot_S512x64_S64x3_S512x3_1_0_0_1_n_n.rhsIdx (ix2 p q) ((contrEquiv1 dot_S512x64_S64x3_S512x3_1_0_0_1_n_n 64 rfl rfl).symm k) = ix2 k q := funext fun a => Fin.ext (by
    match a with
    | ⟨0, _⟩ => exact (dot_S512x64_S64x3_S512x3_1_0_0_1_n_n.rhsIdx_val_of_single rfl _ _).trans hk
    | ⟨1, _⟩ =>
      show (dot_S512x64_S64x3_S512x3_1_0_0_1_n_n.rhsIdx (ix2 p q) _ 1).val = q.val
      unfold DotDims.rhsIdx
      rw [dif_neg (show ¬(1 : Fin S64x3.rank) ∈ dot_S512x64_S64x3_S512x3_1_0_0_1_n_n.rhsBatch by decide), dif_pos (show (1 : Fin S64x3.rank) ∈ dot_S512x64_S64x3_S512x3_1_0_0_1_n_n.rhsNonContracting by decide)]
      rfl)
  rw [el, er]

/-- The body of the read-out kernel at row `g`, column `q`: that pooled row through the read-out network. -/
theorem pay4_apply (x0 : Vec Ideal S512x128 .f32) (x1 : Vec Ideal S128x128 .f32) (x2 : Vec Ideal S1x128 .f32) (x3 : Vec Ideal S128x64 .f32)
    (x4 : Vec Ideal S1x64 .f32) (x5 : Vec Ideal S64x3 .f32) (x6 : Vec Ideal S1x3 .f32) (g : Fin 512) (q : Fin 3) :
    k4_pay1 (F := Ideal) x0 x1 x2 x3 x4 x5 x6 (ix2 g q)
      = Cert.GinSpec.readoutRow (fun i => x0 (ix2 g i)) (fun i j => x1 (ix2 i j)) (fun j => x2 (ix2 0 j)) (fun j k => x3 (ix2 j k))
          (fun k => x4 (ix2 0 k)) (fun k q' => x5 (ix2 k q')) (fun q' => x6 (ix2 0 q')) q := by
  unfold k4_pay1 Cert.GinSpec.readoutRow
  simp only [shapeCast_self, addf_apply, maximumf_apply, truncf_apply, broadcast_apply,
    bcast_row_apply_r4 _ _ (by decide : (128 : Nat) ≠ 1), bcast_row_apply_r4 _ _ (by decide : (64 : Nat) ≠ 1), bcast_row_apply_r4 _ _ (by decide : (3 : Nat) ≠ 1),
    matmul_128_128_apply_r4, matmul_128_64_apply_r4, matmul_64_3_apply_r4, scalar_zero_r4]

section Array

variable (V : (c : Dev nD) → (b : Ref sig .tc) → Buf (Elt Ideal) ((c : Thread nD τ).loc b))

/-- The grid has 1 point. -/
theorem point_lt4 (t : Fin cfg4.N) : t.val < 1 :=
  lt_of_lt_of_eq t.isLt N_4

/-- Window 0's block index at a point, decided over the grid: always (0, 0). -/
theorem idx4_0 : ∀ t : Fin cfg4.N, win4_0.index t (0 : Fin 2) = 0 ∧ win4_0.index t (1 : Fin 2) = 0 :=
  (by decide +kernel : ∀ t : Fin grid4.N, _)

/-- Window 1's block index at a point, decided over the grid: always (0, 0). -/
theorem idx4_1 : ∀ t : Fin cfg4.N, win4_1.index t (0 : Fin 2) = 0 ∧ win4_1.index t (1 : Fin 2) = 0 :=
  (by decide +kernel : ∀ t : Fin grid4.N, _)

/-- Window 2's block index at a point, decided over the grid: always (0, 0). -/
theorem idx4_2 : ∀ t : Fin cfg4.N, win4_2.index t (0 : Fin 2) = 0 ∧ win4_2.index t (1 : Fin 2) = 0 :=
  (by decide +kernel : ∀ t : Fin grid4.N, _)

/-- Window 3's block index at a point, decided over the grid: always (0, 0). -/
theorem idx4_3 : ∀ t : Fin cfg4.N, win4_3.index t (0 : Fin 2) = 0 ∧ win4_3.index t (1 : Fin 2) = 0 :=
  (by decide +kernel : ∀ t : Fin grid4.N, _)

/-- Window 4's block index at a point, decided over the grid: always (0, 0). -/
theorem idx4_4 : ∀ t : Fin cfg4.N, win4_4.index t (0 : Fin 2) = 0 ∧ win4_4.index t (1 : Fin 2) = 0 :=
  (by decide +kernel : ∀ t : Fin grid4.N, _)

/-- Window 5's block index at a point, decided over the grid: always (0, 0). -/
theorem idx4_5 : ∀ t : Fin cfg4.N, win4_5.index t (0 : Fin 2) = 0 ∧ win4_5.index t (1 : Fin 2) = 0 :=
  (by decide +kernel : ∀ t : Fin grid4.N, _)

/-- Window 6's block index at a point, decided over the grid: always (0, 0). -/
theorem idx4_6 : ∀ t : Fin cfg4.N, win4_6.index t (0 : Fin 2) = 0 ∧ win4_6.index t (1 : Fin 2) = 0 :=
  (by decide +kernel : ∀ t : Fin grid4.N, _)

/-- Window 7's block index at a point, decided over the grid: always (0, 0). -/
theorem idx4_7 : ∀ t : Fin cfg4.N, win4_7.index t (0 : Fin 2) = 0 ∧ win4_7.index t (1 : Fin 2) = 0 :=
  (by decide +kernel : ∀ t : Fin grid4.N, _)

/-- Input window 0's block at point `t`, read at an index: the entry array read at the same index. -/
theorem iblk4_0_apply (c : Dev nD) (t : Fin cfg4.N) (a : Fin 512) (b : Fin 128) :
    (iblk4 V c 0 t : S512x128.Idx → EReal) (ix2 a b) = (V c main_v179 : S512x128.Idx → EReal) (ix2 a b) := by
  obtain ⟨e0, e1⟩ := idx4_0 t
  unfold iblk4
  rw [View.read_apply]
  show (V c main_v179 : S512x128.Idx → EReal) _ = _
  refine congrArg (V c main_v179 : S512x128.Idx → EReal) (funext fun d => Fin.ext ?_)
  match d with
  | ⟨0, _⟩ => show win4_0.index t (0 : Fin 2) * 512 + 1 * a.val = a.val; rw [e0]; omega
  | ⟨1, _⟩ => show win4_0.index t (1 : Fin 2) * 128 + 1 * b.val = b.val; rw [e1]; omega

/-- Input window 1's block at point `t`, read at an index: the entry array read at the same index. -/
theorem iblk4_1_apply (c : Dev nD) (t : Fin cfg4.N) (a : Fin 128) (b : Fin 128) :
    (iblk4 V c 1 t : S128x128.Idx → EReal) (ix2 a b) = (V c main_arg18 : S128x128.Idx → EReal) (ix2 a b) := by
  obtain ⟨e0, e1⟩ := idx4_1 t
  unfold iblk4
  rw [View.read_apply]
  show (V c main_arg18 : S128x128.Idx → EReal) _ = _
  refine congrArg (V c main_arg18 : S128x128.Idx → EReal) (funext fun d => Fin.ext ?_)
  match d with
  | ⟨0, _⟩ => show win4_1.index t (0 : Fin 2) * 128 + 1 * a.val = a.val; rw [e0]; omega
  | ⟨1, _⟩ => show win4_1.index t (1 : Fin 2) * 128 + 1 * b.val = b.val; rw [e1]; omega

/-- Input window 2's block at point `t`, read at an index: the entry array read at the same index. -/
theorem iblk4_2_apply (c : Dev nD) (t : Fin cfg4.N) (a : Fin 1) (b : Fin 128) :
    (iblk4 V c 2 t : S1x128.Idx → EReal) (ix2 a b) = (V c main_v180 : S1x128.Idx → EReal) (ix2 a b) := by
  obtain ⟨e0, e1⟩ := idx4_2 t
  unfold iblk4
  rw [View.read_apply]
  show (V c main_v180 : S1x128.Idx → EReal) _ = _
  refine congrArg (V c main_v180 : S1x128.Idx → EReal) (funext fun d => Fin.ext ?_)
  match d with
  | ⟨0, _⟩ => show win4_2.index t (0 : Fin 2) * 1 + 1 * a.val = a.val; rw [e0]; omega
  | ⟨1, _⟩ => show win4_2.index t (1 : Fin 2) * 128 + 1 * b.val = b.val; rw [e1]; omega

/-- Input window 3's block at point `t`, read at an index: the entry array read at the same index. -/
theorem iblk4_3_apply (c : Dev nD) (t : Fin cfg4.N) (a : Fin 128) (b : Fin 64) :
    (iblk4 V c 3 t : S128x64.Idx → EReal) (ix2 a b) = (V c main_arg20 : S128x64.Idx → EReal) (ix2 a b) := by
  obtain ⟨e0, e1⟩ := idx4_3 t
  unfold iblk4
  rw [View.read_apply]
  show (V c main_arg20 : S128x64.Idx → EReal) _ = _
  refine congrArg (V c main_arg20 : S128x64.Idx → EReal) (funext fun d => Fin.ext ?_)
  match d with
  | ⟨0, _⟩ => show win4_3.index t (0 : Fin 2) * 128 + 1 * a.val = a.val; rw [e0]; omega
  | ⟨1, _⟩ => show win4_3.index t (1 : Fin 2) * 64 + 1 * b.val = b.val; rw [e1]; omega

/-- Input window 4's block at point `t`, read at an index: the entry array read at the same index. -/
theorem iblk4_4_apply (c : Dev nD) (t : Fin cfg4.N) (a : Fin 1) (b : Fin 64) :
    (iblk4 V c 4 t : S1x64.Idx → EReal) (ix2 a b) = (V c main_v181 : S1x64.Idx → EReal) (ix2 a b) := by
  obtain ⟨e0, e1⟩ := idx4_4 t
  unfold iblk4
  rw [View.read_apply]
  show (V c main_v181 : S1x64.Idx → EReal) _ = _
  refine congrArg (V c main_v181 : S1x64.Idx → EReal) (funext fun d => Fin.ext ?_)
  match d with
  | ⟨0, _⟩ => show win4_4.index t (0 : Fin 2) * 1 + 1 * a.val = a.val; rw [e0]; omega
  | ⟨1, _⟩ => show win4_4.index t (1 : Fin 2) * 64 + 1 * b.val = b.val; rw [e1]; omega

/-- Input window 5's block at point `t`, read at an index: the entry array read at the same index. -/
theorem iblk4_5_apply (c : Dev nD) (t : Fin cfg4.N) (a : Fin 64) (b : Fin 3) :
    (iblk4 V c 5 t : S64x3.Idx → EReal) (ix2 a b) = (V c main_arg22 : S64x3.Idx → EReal) (ix2 a b) := by
  obtain ⟨e0, e1⟩ := idx4_5 t
  unfold iblk4
  rw [View.read_apply]
  show (V c main_arg22 : S64x3.Idx → EReal) _ = _
  refine congrArg (V c main_arg22 : S64x3.Idx → EReal) (funext fun d => Fin.ext ?_)
  match d with
  | ⟨0, _⟩ => show win4_5.index t (0 : Fin 2) * 64 + 1 * a.val = a.val; rw [e0]; omega
  | ⟨1, _⟩ => show win4_5.index t (1 : Fin 2) * 3 + 1 * b.val = b.val; rw [e1]; omega

/-- Input window 6's block at point `t`, read at an index: the entry array read at the same index. -/
theorem iblk4_6_apply (c : Dev nD) (t : Fin cfg4.N) (a : Fin 1) (b : Fin 3) :
    (iblk4 V c 6 t : S1x3.Idx → EReal) (ix2 a b) = (V c main_v182 : S1x3.Idx → EReal) (ix2 a b) := by
  obtain ⟨e0, e1⟩ := idx4_6 t
  unfold iblk4
  rw [View.read_apply]
  show (V c main_v182 : S1x3.Idx → EReal) _ = _
  refine congrArg (V c main_v182 : S1x3.Idx → EReal) (funext fun d => Fin.ext ?_)
  match d with
  | ⟨0, _⟩ => show win4_6.index t (0 : Fin 2) * 1 + 1 * a.val = a.val; rw [e0]; omega
  | ⟨1, _⟩ => show win4_6.index t (1 : Fin 2) * 3 + 1 * b.val = b.val; rw [e1]; omega

/-- The read-out of pooled graph row `r`, class `q`, of the arrays as the region finds them. -/
def rowSpec4 (c : Dev nD) (r : Fin 512) (q : Fin 3) : EReal :=
  Cert.GinSpec.readoutRow (fun i => (V c main_v179 : S512x128.Idx → EReal) (ix2 r i)) (fun i j => (V c main_arg18 : S128x128.Idx → EReal) (ix2 i j)) (fun j => (V c main_v180 : S1x128.Idx → EReal) (ix2 0 j)) (fun j k => (V c main_arg20 : S128x64.Idx → EReal) (ix2 j k))
      (fun k => (V c main_v181 : S1x64.Idx → EReal) (ix2 0 k)) (fun k q' => (V c main_arg22 : S64x3.Idx → EReal) (ix2 k q')) (fun q' => (V c main_v182 : S1x3.Idx → EReal) (ix2 0 q')) q

/-- The whole output array: `rowSpec4` at every row and column. -/
def G4 (c : Dev nD) : S512x3.Idx → EReal := fun i =>
  rowSpec4 V c ⟨(i 0).val, idx2_lt0 i⟩ ⟨(i 1).val, idx2_lt1 i⟩

/-- What point `t` writes back is block `t` of `G4`. -/
theorem flushed4_eq (c : Dev nD) (t : Fin cfg4.N) :
    (dat4 V c).flushed 7 t = ((cfg4.win 7).blk t).view.read (Elt Ideal) (G4 V c) := by
  show (cfg4.win 7).cut (grid4.coords t) ((dat4 V c).after 7 t) = _
  rw [after4_7]
  unfold out4_7
  rw [View.canon_unit_zero hz_r4]
  simp only [View.ld_unit_zero (S := S512x128) hz_r4, View.ld_unit_zero (S := S128x128) hz_r4, View.ld_unit_zero (S := S1x128) hz_r4, View.ld_unit_zero (S := S128x64) hz_r4, View.ld_unit_zero (S := S1x64) hz_r4, View.ld_unit_zero (S := S64x3) hz_r4, View.ld_unit_zero (S := S1x3) hz_r4, View.ld_unit_zero (S := S512x3) hz_r4]
  funext y
  obtain ⟨p, q, rfl⟩ : ∃ (p : Fin 512) (q : Fin 3), y = ix2 p q := ⟨y 0, y 1, @eq_ix2 512 3 y⟩
  obtain ⟨e0, e1⟩ := idx4_7 t
  have hemb : ((cfg4.win 7).blk t).view.emb (ix2 p q) = (ix2 p q : S512x3.Idx) := funext fun d => Fin.ext (by
    match d with
    | ⟨0, _⟩ => show win4_7.index t (0 : Fin 2) * 512 + 1 * p.val = p.val; rw [e0]; omega
    | ⟨1, _⟩ => show win4_7.index t (1 : Fin 2) * 3 + 1 * q.val = q.val; rw [e1]; omega)
  refine (pay4_apply (iblk4 V c 0 t) (iblk4 V c 1 t) (iblk4 V c 2 t) (iblk4 V c 3 t) (iblk4 V c 4 t) (iblk4 V c 5 t) (iblk4 V c 6 t) p q).trans ?_
  show _ = G4 V c (((cfg4.win 7).blk t).view.emb (ix2 p q))
  rw [hemb]
  show _ = rowSpec4 V c p q
  unfold rowSpec4
  simp only [iblk4_0_apply V c t, iblk4_1_apply V c t, iblk4_2_apply V c t, iblk4_3_apply V c t, iblk4_4_apply V c t, iblk4_5_apply V c t, iblk4_6_apply V c t]

/-- An index of the output array is in point `t`'s block iff each coordinate is in the block's range on its axis. -/
theorem mem_blk4 (t : Fin cfg4.N) (i : S512x3.Idx) :
    i ∈ ((cfg4.win 7).blk t).view.set ↔ ∀ a : Fin 2, win4_7.index t a * S512x3.size a ≤ (i a).val ∧ (i a).val < win4_7.index t a * S512x3.size a + S512x3.size a := by
  show i ∈ ((View.whole main_v183).slice (win4_7.rect t)).set ↔ _
  rw [View.set_slice_whole, Rect.mem_set_unit]
  exact Iff.rfl

/-- Every index of the output array is in some point's block: row `r` is in the block of point `r / 512`. -/
theorem cover4 (i : S512x3.Idx) :
    ∃ t : Fin cfg4.N, (cfg4.win 7).flush t = true ∧ i ∈ ((cfg4.win 7).blk t).view.set := by
  have h0 : (i 0).val < 512 := idx2_lt0 i
  have h1 : (i 1).val < 3 := idx2_lt1 i
  obtain ⟨t, ht⟩ : ∃ t : Fin cfg4.N, t.val = (i 0).val / 512 :=
    ⟨⟨(i 0).val / 512, by rw [show cfg4.N = 1 from N_4]; omega⟩, rfl⟩
  obtain ⟨e0, e1⟩ := idx4_7 t
  refine ⟨t, flush4_7 t, ?_⟩
  rw [mem_blk4]
  intro a
  match a with
  | ⟨0, _⟩ =>
    show win4_7.index t (0 : Fin 2) * 512 ≤ (i 0).val ∧ (i 0).val < win4_7.index t (0 : Fin 2) * 512 + 512
    rw [e0]; omega
  | ⟨1, _⟩ =>
    show win4_7.index t (1 : Fin 2) * 3 ≤ (i 1).val ∧ (i 1).val < win4_7.index t (1 : Fin 2) * 3 + 3
    rw [e1]; omega

/-- The output array after the pipeline is `G4` of the entry arrays. -/
theorem final4 (c : Dev nD) : (dat4 V c).arrAt 7 cfg4.N = G4 V c :=
  (dat4 V c).arrAt_eq_of_cover 7 (G4 V c) (fun t _ => flushed4_eq V c t) (cover4)

/-- The read-out's output array after the pipeline, read at graph `r` and class `q`: that pooled row through the read-out network. -/
theorem region4_value (c : Dev nD) (r : Fin 512) (q : Fin 3) :
    (Gen.dat4 (F := Ideal) V c).arrAt 7 cfg4.N (ix2 r q)
      = Cert.GinSpec.readoutRow (fun i => V c main_v179 (ix2 r i)) (fun i j => V c main_arg18 (ix2 i j)) (fun j => V c main_v180 (ix2 0 j)) (fun j k => V c main_arg20 (ix2 j k))
      (fun k => V c main_v181 (ix2 0 k)) (fun k q' => V c main_arg22 (ix2 k q')) (fun q' => V c main_v182 (ix2 0 q')) q :=
  congrFun (final4 V c) (ix2 r q)

end Array

end Cert.KernelIdeal.RegionValue

end
-- ==== Proof.RefEmbed.lean ====
/-
  The embedding of the reference network, one node at a time.

  The reference multiplies the feature array by the embedding matrix and adds the bias vector, broadcast along the
  rows. Read at row `r` and channel `q` this is the sum over the input channels of the row's entries times the
  matrix column, plus the bias at `q`: the row function `embedRow` of row `r`.
-/
import proofs.«156994_j78795470012791_1_alg».proof.Proof.RefReadP
import proofs.«156994_j78795470012791_1_alg».proof.Proof.GinSpec

noncomputable section

namespace Cert.ReferenceIdeal.RefValue

open Cert.ReferenceIdeal Cert.ReferenceIdeal.ReadP Idealize.ShloMosaic Idealize.ShloMosaic.ValueIdx

/-- Row `r`, channel `q` of the embedded features is the embedding of row `r`. -/
theorem embed_apply (x0 : (⟨S100000x64, .f32⟩ : BufTy).Contents (Elt Ideal)) (x3 : (⟨S64x128, .f32⟩ : BufTy).Contents (Elt Ideal)) (x4 : (⟨S128, .f32⟩ : BufTy).Contents (Elt Ideal)) (r : Fin 100000) (q : Fin 128) :
    val_main_v7 (F := Ideal) x0 x3 x4 (ix2 r q)
      = Cert.GinSpec.embedRow (fun k => x0 (ix2 r k)) (fun k q' => x3 (ix2 k q')) (fun q' => x4 (ix1 q')) q := by
  -- the contraction reads the left operand along row `r` and the right one down column `q`
  have hl : ∀ k : Fin 64, lidx_main_v4 (ix2 r q) k = ix2 r k := fun k =>
    funext fun a => match a with | ⟨0, _⟩ => rfl | ⟨1, _⟩ => rfl
  have hr : ∀ k : Fin 64, ridx_main_v4 (ix2 r q) k = ix2 k q := fun k =>
    funext fun a => match a with | ⟨0, _⟩ => rfl | ⟨1, _⟩ => rfl
  -- the bias, broadcast along the rows, is read at the column
  have hb : idx_main_v5 (idx_main_v6 (ix2 r q)) = ix1 q :=
    funext fun a => match a with | ⟨0, _⟩ => rfl
  simp only [val_main_v7_apply, val_main_v6_apply, val_main_v5_apply, val_main_v4_apply]
  simp only [hl, hr, hb, Ideal.addf_def]
  rfl

end Cert.ReferenceIdeal.RefValue

end
-- ==== Proof.RefLayer0.lean ====
/-
  Layer 0 of the reference network, one node at a time.

  The reference computes the layer on whole arrays: the scaled features plus the neighbour sum, a linear map with a
  bias, a normalisation `(u - m) * (g * rsqrt (v + ε)) + β` applied channel by channel through broadcasts of the
  parameter vectors, a rectification, and the same again, then the residual sum with the layer's input. Reading the
  result at row `r` and channel `q`, every broadcast reads its vector at the channel alone and every product of
  matrices is the sum over the contracted channel, so the element is the row function `ginRowNorm` of the row `r` of the
  input features and of the neighbour sum, the scalar `1 + ε_l`, and the layer's weight matrices and parameter vectors.
-/
import proofs.«156994_j78795470012791_1_alg».proof.Proof.RefReadP
import proofs.«156994_j78795470012791_1_alg».proof.Proof.GinSpec

noncomputable section

namespace Cert.ReferenceIdeal.RefValue

open Cert.ReferenceIdeal Cert.ReferenceIdeal.ReadP Idealize.ShloMosaic Idealize.ShloMosaic.ValueIdx

/-- Row `r`, channel `q` of layer 0's output is the normalised GIN update of row `r`. -/
theorem layer0_apply (x0 : (⟨S100000x64, .f32⟩ : BufTy).Contents (Elt Ideal)) (x1 : (⟨S2x1600000, .i32⟩ : BufTy).Contents (Elt Ideal)) (x3 : (⟨S64x128, .f32⟩ : BufTy).Contents (Elt Ideal)) (x4 : (⟨S128, .f32⟩ : BufTy).Contents (Elt Ideal)) (x5 : (⟨S3, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (r : Fin 100000) (q : Fin 128) :
    val_main_v84 (F := Ideal) x0 x1 x3 x4 x5 x6 x7 x8 x9 x10 x11 x12 x13 x14 x15 x16 x17 (ix2 r q)
      = Cert.GinSpec.ginRowNorm (fun j => val_main_v7 (F := Ideal) x0 x3 x4 (ix2 r j)) (fun j => val_main_v17 (F := Ideal) x0 x1 x3 x4 (ix2 r j)) (val_main_v20 (F := Ideal) x5 ix0)
          (fun j k => val_main_v25 (F := Ideal) x6 (ix2 j k)) (fun k => val_main_v28 (F := Ideal) x7 (ix1 k)) (fun k => val_main_v33 (F := Ideal) x8 (ix1 k)) (fun k => val_main_v35 (F := Ideal) x9 (ix1 k))
          (fun k => val_main_v37 (F := Ideal) x10 (ix1 k)) (fun k => val_main_v39 (F := Ideal) x11 (ix1 k))
          (fun k q' => val_main_v55 (F := Ideal) x12 (ix2 k q')) (fun q' => val_main_v58 (F := Ideal) x13 (ix1 q')) (fun q' => val_main_v63 (F := Ideal) x14 (ix1 q')) (fun q' => val_main_v65 (F := Ideal) x15 (ix1 q'))
          (fun q' => val_main_v67 (F := Ideal) x16 (ix1 q')) (fun q' => val_main_v69 (F := Ideal) x17 (ix1 q'))
          (Ideal.ofBits .f32 0x3727C5AC#32) q := by
  -- the two contractions: the left operand is read along row `r`, the right one down the output channel's column
  have hl2 : ∀ k : Fin 256, lidx_main_v56 (ix2 r q) k = ix2 r k := fun k =>
    funext fun a => match a with | ⟨0, _⟩ => rfl | ⟨1, _⟩ => rfl
  have hr2 : ∀ k : Fin 256, ridx_main_v56 (ix2 r q) k = ix2 k q := fun k =>
    funext fun a => match a with | ⟨0, _⟩ => rfl | ⟨1, _⟩ => rfl
  have hl1 : ∀ (k : Fin 256) (j : Fin 128), lidx_main_v26 (ix2 r k) j = ix2 r j := fun k j =>
    funext fun a => match a with | ⟨0, _⟩ => rfl | ⟨1, _⟩ => rfl
  have hr1 : ∀ (k : Fin 256) (j : Fin 128), ridx_main_v26 (ix2 r k) j = ix2 j k := fun k j =>
    funext fun a => match a with | ⟨0, _⟩ => rfl | ⟨1, _⟩ => rfl
  -- a vector broadcast along the rows reads the vector at the column
  have hb30 : ∀ k : Fin 256, idx_main_v29 (idx_main_v30 (ix2 r k)) = ix1 k := fun k =>
    funext fun a => match a with | ⟨0, _⟩ => rfl
  have hb41 : ∀ k : Fin 256, idx_main_v40 (idx_main_v41 (ix2 r k)) = ix1 k := fun k =>
    funext fun a => match a with | ⟨0, _⟩ => rfl
  have hb48 : ∀ k : Fin 256, idx_main_v47 (idx_main_v48 (ix2 r k)) = ix1 k := fun k =>
    funext fun a => match a with | ⟨0, _⟩ => rfl
  have hb51 : ∀ k : Fin 256, idx_main_v50 (idx_main_v51 (ix2 r k)) = ix1 k := fun k =>
    funext fun a => match a with | ⟨0, _⟩ => rfl
  have hb60 : idx_main_v59 (idx_main_v60 (ix2 r q)) = ix1 q :=
    funext fun a => match a with | ⟨0, _⟩ => rfl
  have hb71 : idx_main_v70 (idx_main_v71 (ix2 r q)) = ix1 q :=
    funext fun a => match a with | ⟨0, _⟩ => rfl
  have hb78 : idx_main_v77 (idx_main_v78 (ix2 r q)) = ix1 q :=
    funext fun a => match a with | ⟨0, _⟩ => rfl
  have hb81 : idx_main_v80 (idx_main_v81 (ix2 r q)) = ix1 q :=
    funext fun a => match a with | ⟨0, _⟩ => rfl
  -- the broadcast scalar is read at the one index of the rank-0 shape
  have hs : ∀ j : Fin 128, idx_main_v21 (ix2 r j) = ix0 := fun _ => rfl
  -- read the output element down to the layer's inputs
  simp only [val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v61_apply, val_main_v60_apply, val_main_v59_apply, val_main_v56_apply,
    val_main_call1_v0_apply, val_main_call1_cst_apply, val_main_cst_3_apply,
    val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v31_apply, val_main_v30_apply, val_main_v29_apply, val_main_v26_apply, val_main_v23_apply, val_main_v22_apply, val_main_v21_apply,
    val_main_call0_v0_apply, val_main_call0_cst_apply, val_main_cst_2_apply]
  simp only [hl2, hr2, hl1, hr1, hb30, hb41, hb48, hb51, hb60, hb71, hb78, hb81, hs,
    Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefLayer1.lean ====
/-
  Layer 1 of the reference network, one node at a time.

  The reference computes the layer on whole arrays: the scaled features plus the neighbour sum, a linear map with a
  bias, a normalisation `(u - m) * (g * rsqrt (v + ε)) + β` applied channel by channel through broadcasts of the
  parameter vectors, a rectification, and the same again, then the residual sum with the layer's input. Reading the
  result at row `r` and channel `q`, every broadcast reads its vector at the channel alone and every product of
  matrices is the sum over the contracted channel, so the element is the row function `ginRowNorm` of the row `r` of the
  input features and of the neighbour sum, the scalar `1 + ε_l`, and the layer's weight matrices and parameter vectors.
-/
import proofs.«156994_j78795470012791_1_alg».proof.Proof.RefReadP
import proofs.«156994_j78795470012791_1_alg».proof.Proof.GinSpec

noncomputable section

namespace Cert.ReferenceIdeal.RefValue

open Cert.ReferenceIdeal Cert.ReferenceIdeal.ReadP Idealize.ShloMosaic Idealize.ShloMosaic.ValueIdx

/-- Row `r`, channel `q` of layer 1's output is the normalised GIN update of row `r`. -/
theorem layer1_apply (x0 : (⟨S100000x64, .f32⟩ : BufTy).Contents (Elt Ideal)) (x1 : (⟨S2x1600000, .i32⟩ : BufTy).Contents (Elt Ideal)) (x3 : (⟨S64x128, .f32⟩ : BufTy).Contents (Elt Ideal)) (x4 : (⟨S128, .f32⟩ : BufTy).Contents (Elt Ideal)) (x5 : (⟨S3, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (r : Fin 100000) (q : Fin 128) :
    val_main_v161 (F := Ideal) x0 x1 x3 x4 x5 x6 x7 x8 x9 x10 x11 x12 x13 x14 x15 x16 x17 (ix2 r q)
      = Cert.GinSpec.ginRowNorm (fun j => val_main_v84 (F := Ideal) x0 x1 x3 x4 x5 x6 x7 x8 x9 x10 x11 x12 x13 x14 x15 x16 x17 (ix2 r j)) (fun j => val_main_v94 (F := Ideal) x0 x1 x3 x4 x5 x6 x7 x8 x9 x10 x11 x12 x13 x14 x15 x16 x17 (ix2 r j)) (val_main_v97 (F := Ideal) x5 ix0)
          (fun j k => val_main_v102 (F := Ideal) x6 (ix2 j k)) (fun k => val_main_v105 (F := Ideal) x7 (ix1 k)) (fun k => val_main_v110 (F := Ideal) x8 (ix1 k)) (fun k => val_main_v112 (F := Ideal) x9 (ix1 k))
          (fun k => val_main_v114 (F := Ideal) x10 (ix1 k)) (fun k => val_main_v116 (F := Ideal) x11 (ix1 k))
          (fun k q' => val_main_v132 (F := Ideal) x12 (ix2 k q')) (fun q' => val_main_v135 (F := Ideal) x13 (ix1 q')) (fun q' => val_main_v140 (F := Ideal) x14 (ix1 q')) (fun q' => val_main_v142 (F := Ideal) x15 (ix1 q'))
          (fun q' => val_main_v144 (F := Ideal) x16 (ix1 q')) (fun q' => val_main_v146 (F := Ideal) x17 (ix1 q'))
          (Ideal.ofBits .f32 0x3727C5AC#32) q := by
  -- the two contractions: the left operand is read along row `r`, the right one down the output channel's column
  have hl2 : ∀ k : Fin 256, lidx_main_v133 (ix2 r q) k = ix2 r k := fun k =>
    funext fun a => match a with | ⟨0, _⟩ => rfl | ⟨1, _⟩ => rfl
  have hr2 : ∀ k : Fin 256, ridx_main_v133 (ix2 r q) k = ix2 k q := fun k =>
    funext fun a => match a with | ⟨0, _⟩ => rfl | ⟨1, _⟩ => rfl
  have hl1 : ∀ (k : Fin 256) (j : Fin 128), lidx_main_v103 (ix2 r k) j = ix2 r j := fun k j =>
    funext fun a => match a with | ⟨0, _⟩ => rfl | ⟨1, _⟩ => rfl
  have hr1 : ∀ (k : Fin 256) (j : Fin 128), ridx_main_v103 (ix2 r k) j = ix2 j k := fun k j =>
    funext fun a => match a with | ⟨0, _⟩ => rfl | ⟨1, _⟩ => rfl
  -- a vector broadcast along the rows reads the vector at the column
  have hb30 : ∀ k : Fin 256, idx_main_v106 (idx_main_v107 (ix2 r k)) = ix1 k := fun k =>
    funext fun a => match a with | ⟨0, _⟩ => rfl
  have hb41 : ∀ k : Fin 256, idx_main_v117 (idx_main_v118 (ix2 r k)) = ix1 k := fun k =>
    funext fun a => match a with | ⟨0, _⟩ => rfl
  have hb48 : ∀ k : Fin 256, idx_main_v124 (idx_main_v125 (ix2 r k)) = ix1 k := fun k =>
    funext fun a => match a with | ⟨0, _⟩ => rfl
  have hb51 : ∀ k : Fin 256, idx_main_v127 (idx_main_v128 (ix2 r k)) = ix1 k := fun k =>
    funext fun a => match a with | ⟨0, _⟩ => rfl
  have hb60 : idx_main_v136 (idx_main_v137 (ix2 r q)) = ix1 q :=
    funext fun a => match a with | ⟨0, _⟩ => rfl
  have hb71 : idx_main_v147 (idx_main_v148 (ix2 r q)) = ix1 q :=
    funext fun a => match a with | ⟨0, _⟩ => rfl
  have hb78 : idx_main_v154 (idx_main_v155 (ix2 r q)) = ix1 q :=
    funext fun a => match a with | ⟨0, _⟩ => rfl
  have hb81 : idx_main_v157 (idx_main_v158 (ix2 r q)) = ix1 q :=
    funext fun a => match a with | ⟨0, _⟩ => rfl
  -- the broadcast scalar is read at the one index of the rank-0 shape
  have hs : ∀ j : Fin 128, idx_main_v98 (ix2 r j) = ix0 := fun _ => rfl
  -- read the output element down to the layer's inputs
  simp only [val_main_v161_apply, val_main_v160_apply, val_main_v159_apply, val_main_v158_apply, val_main_v157_apply, val_main_v156_apply, val_main_v155_apply, val_main_v154_apply, val_main_v153_apply, val_main_v152_apply, val_main_v151_apply, val_main_v150_apply, val_main_v149_apply, val_main_v148_apply, val_main_v147_apply, val_main_v138_apply, val_main_v137_apply, val_main_v136_apply, val_main_v133_apply,
    val_main_call3_v0_apply, val_main_call3_cst_apply, val_main_cst_9_apply,
    val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v108_apply, val_main_v107_apply, val_main_v106_apply, val_main_v103_apply, val_main_v100_apply, val_main_v99_apply, val_main_v98_apply,
    val_main_call2_v0_apply, val_main_call2_cst_apply, val_main_cst_8_apply]
  simp only [hl2, hr2, hl1, hr1, hb30, hb41, hb48, hb51, hb60, hb71, hb78, hb81, hs,
    Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefLayer2.lean ====
/-
  Layer 2 of the reference network, one node at a time.

  The reference computes the layer on whole arrays: the scaled features plus the neighbour sum, a linear map with a
  bias, a normalisation `(u - m) * (g * rsqrt (v + ε)) + β` applied channel by channel through broadcasts of the
  parameter vectors, a rectification, and the same again, then the residual sum with the layer's input. Reading the
  result at row `r` and channel `q`, every broadcast reads its vector at the channel alone and every product of
  matrices is the sum over the contracted channel, so the element is the row function `ginRowNorm` of the row `r` of the
  input features and of the neighbour sum, the scalar `1 + ε_l`, and the layer's weight matrices and parameter vectors.
-/
import proofs.«156994_j78795470012791_1_alg».proof.Proof.RefReadP
import proofs.«156994_j78795470012791_1_alg».proof.Proof.GinSpec

noncomputable section

namespace Cert.ReferenceIdeal.RefValue

open Cert.ReferenceIdeal Cert.ReferenceIdeal.ReadP Idealize.ShloMosaic Idealize.ShloMosaic.ValueIdx

/-- Row `r`, channel `q` of layer 2's output is the normalised GIN update of row `r`. -/
theorem layer2_apply (x0 : (⟨S100000x64, .f32⟩ : BufTy).Contents (Elt Ideal)) (x1 : (⟨S2x1600000, .i32⟩ : BufTy).Contents (Elt Ideal)) (x3 : (⟨S64x128, .f32⟩ : BufTy).Contents (Elt Ideal)) (x4 : (⟨S128, .f32⟩ : BufTy).Contents (Elt Ideal)) (x5 : (⟨S3, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (r : Fin 100000) (q : Fin 128) :
    val_main_v238 (F := Ideal) x0 x1 x3 x4 x5 x6 x7 x8 x9 x10 x11 x12 x13 x14 x15 x16 x17 (ix2 r q)
      = Cert.GinSpec.ginRowNorm (fun j => val_main_v161 (F := Ideal) x0 x1 x3 x4 x5 x6 x7 x8 x9 x10 x11 x12 x13 x14 x15 x16 x17 (ix2 r j)) (fun j => val_main_v171 (F := Ideal) x0 x1 x3 x4 x5 x6 x7 x8 x9 x10 x11 x12 x13 x14 x15 x16 x17 (ix2 r j)) (val_main_v174 (F := Ideal) x5 ix0)
          (fun j k => val_main_v179 (F := Ideal) x6 (ix2 j k)) (fun k => val_main_v182 (F := Ideal) x7 (ix1 k)) (fun k => val_main_v187 (F := Ideal) x8 (ix1 k)) (fun k => val_main_v189 (F := Ideal) x9 (ix1 k))
          (fun k => val_main_v191 (F := Ideal) x10 (ix1 k)) (fun k => val_main_v193 (F := Ideal) x11 (ix1 k))
          (fun k q' => val_main_v209 (F := Ideal) x12 (ix2 k q')) (fun q' => val_main_v212 (F := Ideal) x13 (ix1 q')) (fun q' => val_main_v217 (F := Ideal) x14 (ix1 q')) (fun q' => val_main_v219 (F := Ideal) x15 (ix1 q'))
          (fun q' => val_main_v221 (F := Ideal) x16 (ix1 q')) (fun q' => val_main_v223 (F := Ideal) x17 (ix1 q'))
          (Ideal.ofBits .f32 0x3727C5AC#32) q := by
  -- the two contractions: the left operand is read along row `r`, the right one down the output channel's column
  have hl2 : ∀ k : Fin 256, lidx_main_v210 (ix2 r q) k = ix2 r k := fun k =>
    funext fun a => match a with | ⟨0, _⟩ => rfl | ⟨1, _⟩ => rfl
  have hr2 : ∀ k : Fin 256, ridx_main_v210 (ix2 r q) k = ix2 k q := fun k =>
    funext fun a => match a with | ⟨0, _⟩ => rfl | ⟨1, _⟩ => rfl
  have hl1 : ∀ (k : Fin 256) (j : Fin 128), lidx_main_v180 (ix2 r k) j = ix2 r j := fun k j =>
    funext fun a => match a with | ⟨0, _⟩ => rfl | ⟨1, _⟩ => rfl
  have hr1 : ∀ (k : Fin 256) (j : Fin 128), ridx_main_v180 (ix2 r k) j = ix2 j k := fun k j =>
    funext fun a => match a with | ⟨0, _⟩ => rfl | ⟨1, _⟩ => rfl
  -- a vector broadcast along the rows reads the vector at the column
  have hb30 : ∀ k : Fin 256, idx_main_v183 (idx_main_v184 (ix2 r k)) = ix1 k := fun k =>
    funext fun a => match a with | ⟨0, _⟩ => rfl
  have hb41 : ∀ k : Fin 256, idx_main_v194 (idx_main_v195 (ix2 r k)) = ix1 k := fun k =>
    funext fun a => match a with | ⟨0, _⟩ => rfl
  have hb48 : ∀ k : Fin 256, idx_main_v201 (idx_main_v202 (ix2 r k)) = ix1 k := fun k =>
    funext fun a => match a with | ⟨0, _⟩ => rfl
  have hb51 : ∀ k : Fin 256, idx_main_v204 (idx_main_v205 (ix2 r k)) = ix1 k := fun k =>
    funext fun a => match a with | ⟨0, _⟩ => rfl
  have hb60 : idx_main_v213 (idx_main_v214 (ix2 r q)) = ix1 q :=
    funext fun a => match a with | ⟨0, _⟩ => rfl
  have hb71 : idx_main_v224 (idx_main_v225 (ix2 r q)) = ix1 q :=
    funext fun a => match a with | ⟨0, _⟩ => rfl
  have hb78 : idx_main_v231 (idx_main_v232 (ix2 r q)) = ix1 q :=
    funext fun a => match a with | ⟨0, _⟩ => rfl
  have hb81 : idx_main_v234 (idx_main_v235 (ix2 r q)) = ix1 q :=
    funext fun a => match a with | ⟨0, _⟩ => rfl
  -- the broadcast scalar is read at the one index of the rank-0 shape
  have hs : ∀ j : Fin 128, idx_main_v175 (ix2 r j) = ix0 := fun _ => rfl
  -- read the output element down to the layer's inputs
  simp only [val_main_v238_apply, val_main_v237_apply, val_main_v236_apply, val_main_v235_apply, val_main_v234_apply, val_main_v233_apply, val_main_v232_apply, val_main_v231_apply, val_main_v230_apply, val_main_v229_apply, val_main_v228_apply, val_main_v227_apply, val_main_v226_apply, val_main_v225_apply, val_main_v224_apply, val_main_v215_apply, val_main_v214_apply, val_main_v213_apply, val_main_v210_apply,
    val_main_call5_v0_apply, val_main_call5_cst_apply, val_main_cst_15_apply,
    val_main_v207_apply, val_main_v206_apply, val_main_v205_apply, val_main_v204_apply, val_main_v203_apply, val_main_v202_apply, val_main_v201_apply, val_main_v200_apply, val_main_v199_apply, val_main_v198_apply, val_main_v197_apply, val_main_v196_apply, val_main_v195_apply, val_main_v194_apply, val_main_v185_apply, val_main_v184_apply, val_main_v183_apply, val_main_v180_apply, val_main_v177_apply, val_main_v176_apply, val_main_v175_apply,
    val_main_call4_v0_apply, val_main_call4_cst_apply, val_main_cst_14_apply]
  simp only [hl2, hr2, hl1, hr1, hb30, hb41, hb48, hb51, hb60, hb71, hb78, hb81, hs,
    Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefReadout.lean ====
/-
  The read-out of the reference network, one pooled graph row at a time.

  The reference sends the pooled array through three linear maps with biases, rectifying after the first two. Each
  bias is a vector broadcast along the rows and each linear map a product of matrices, so the element at graph `g` and
  class `q` is the row function `readoutRow` of row `g` of the pooled array.
-/
import proofs.«156994_j78795470012791_1_alg».proof.Proof.RefReadP
import proofs.«156994_j78795470012791_1_alg».proof.Proof.GinSpec

noncomputable section

namespace Cert.ReferenceIdeal.RefValue

open Cert.ReferenceIdeal Cert.ReferenceIdeal.ReadP Idealize.ShloMosaic Idealize.ShloMosaic.ValueIdx

/-- Graph `g`, class `q` of the network's output is the read-out of row `g` of the pooled array. -/
theorem readout_apply (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S64x128, .f32⟩ : BufTy).Contents (Elt Ideal)) (x4 : (⟨S128, .f32⟩ : BufTy).Contents (Elt Ideal)) (x5 : (⟨S3, .f32⟩ : BufTy).Contents (Elt Ideal)) (x6 : (⟨S3x128x256, .f32⟩ : BufTy).Contents (Elt Ideal)) (x7 x8 x9 x10 x11 : (⟨S3x256, .f32⟩ : BufTy).Contents (Elt Ideal)) (x12 : (⟨S3x256x128, .f32⟩ : BufTy).Contents (Elt Ideal)) (x13 x14 x15 x16 x17 : (⟨S3x128, .f32⟩ : BufTy).Contents (Elt Ideal)) (x18 : (⟨S128x128, .f32⟩ : BufTy).Contents (Elt Ideal)) (x19 : (⟨S128, .f32⟩ : BufTy).Contents (Elt Ideal)) (x20 : (⟨S128x64, .f32⟩ : BufTy).Contents (Elt Ideal)) (x21 : (⟨S64, .f32⟩ : BufTy).Contents (Elt Ideal)) (x22 : (⟨S64x3, .f32⟩ : BufTy).Contents (Elt Ideal)) (x23 : (⟨S3, .f32⟩ : BufTy).Contents (Elt Ideal)) (g : Fin 512) (q : Fin 3) :
    val_main_v255 (F := Ideal) x0 x1 x2 x3 x4 x5 x6 x7 x8 x9 x10 x11 x12 x13 x14 x15 x16 x17 x18 x19 x20 x21 x22 x23 (ix2 g q)
      = Cert.GinSpec.readoutRow (fun i => val_main_v241 (F := Ideal) x0 x1 x2 x3 x4 x5 x6 x7 x8 x9 x10 x11 x12 x13 x14 x15 x16 x17 (ix2 g i))
          (fun i j => x18 (ix2 i j)) (fun j => x19 (ix1 j)) (fun j k => x20 (ix2 j k)) (fun k => x21 (ix1 k))
          (fun k q' => x22 (ix2 k q')) (fun q' => x23 (ix1 q')) q := by
  -- the three contractions: the left operand is read along row `g`, the right one down the output column
  have hl3 : ∀ k : Fin 64, lidx_main_v252 (ix2 g q) k = ix2 g k := fun k =>
    funext fun a => match a with | ⟨0, _⟩ => rfl | ⟨1, _⟩ => rfl
  have hr3 : ∀ k : Fin 64, ridx_main_v252 (ix2 g q) k = ix2 k q := fun k =>
    funext fun a => match a with | ⟨0, _⟩ => rfl | ⟨1, _⟩ => rfl
  have hl2 : ∀ (k : Fin 64) (j : Fin 128), lidx_main_v247 (ix2 g k) j = ix2 g j := fun k j =>
    funext fun a => match a with | ⟨0, _⟩ => rfl | ⟨1, _⟩ => rfl
  have hr2 : ∀ (k : Fin 64) (j : Fin 128), ridx_main_v247 (ix2 g k) j = ix2 j k := fun k j =>
    funext fun a => match a with | ⟨0, _⟩ => rfl | ⟨1, _⟩ => rfl
  have hl1 : ∀ (j i : Fin 128), lidx_main_v242 (ix2 g j) i = ix2 g i := fun j i =>
    funext fun a => match a with | ⟨0, _⟩ => rfl | ⟨1, _⟩ => rfl
  have hr1 : ∀ (j i : Fin 128), ridx_main_v242 (ix2 g j) i = ix2 i j := fun j i =>
    funext fun a => match a with | ⟨0, _⟩ => rfl | ⟨1, _⟩ => rfl
  -- each bias, broadcast along the rows, is read at the column
  have hb3 : idx_main_v253 (idx_main_v254 (ix2 g q)) = ix1 q :=
    funext fun a => match a with | ⟨0, _⟩ => rfl
  have hb2 : ∀ k : Fin 64, idx_main_v248 (idx_main_v249 (ix2 g k)) = ix1 k := fun k =>
    funext fun a => match a with | ⟨0, _⟩ => rfl
  have hb1 : ∀ j : Fin 128, idx_main_v243 (idx_main_v244 (ix2 g j)) = ix1 j := fun j =>
    funext fun a => match a with | ⟨0, _⟩ => rfl
  simp only [val_main_v255_apply, val_main_v254_apply, val_main_v253_apply, val_main_v252_apply,
    val_main_v251_apply, val_main_v250_apply, val_main_v249_apply, val_main_v248_apply, val_main_v247_apply,
    val_main_call7_v0_apply, val_main_call7_cst_apply,
    val_main_v246_apply, val_main_v245_apply, val_main_v244_apply, val_main_v243_apply, val_main_v242_apply,
    val_main_call6_v0_apply, val_main_call6_cst_apply]
  simp only [hl3, hr3, hl2, hr2, hl1, hr1, hb3, hb2, hb1,
    Ideal.addf_def, Ideal.maximumf_def, Ideal.ofBits_def, Ideal.ofBits_zero_f32]
  rfl

end Cert.ReferenceIdeal.RefValue

end
-- ==== Proof.RefParams.lean ====
import proofs.«156994_j78795470012791_1_alg».proof.Proof.RefReadP
import Idealize.ShloMosaic.Lib.ValueIdx
import Idealize.ShloMosaic.PureOps.Ideal

noncomputable section

namespace Cert.ReferenceIdeal.RefValue

open Cert.ReferenceIdeal Idealize.ShloMosaic Idealize.ShloMosaic.ValueIdx

/-! ## A layer's parameter vector is a row of the stacked parameter array

Each layer l takes its normalisation parameters as the slice [l : l+1] of a [3, n] array, reshaped to an [n] vector.
Read at k, the slice adds l to the (only possible) row coordinate 0 and the reshape keeps the column k (k mod n = k),
so the vector's entry k is the array's entry (l, k). -/

/-- Layer 0: the first normalisation's bias at k is entry (0, k) of the stacked array. -/
theorem b1_row0 (x : (⟨S3x256, .f32⟩ : BufTy).Contents (Elt Ideal)) (k : Fin 256) :
    ReadP.val_main_v28 (F := Ideal) x (ix1 k) = x (ix2 (0 : Fin 3) k) :=
  (ReadP.val_main_v28_apply (F := Ideal) x (ix1 k)).trans ((ReadP.val_main_v27_apply (F := Ideal) x _).trans (congrArg x (funext fun a => by
    match a with
    | ⟨0, _⟩ => exact Fin.ext rfl
    | ⟨1, _⟩ => exact Fin.ext (Nat.mod_eq_of_lt k.isLt))))

/-- Layer 1: the first normalisation's bias at k is entry (1, k) of the stacked array. -/
theorem b1_row1 (x : (⟨S3x256, .f32⟩ : BufTy).Contents (Elt Ideal)) (k : Fin 256) :
    ReadP.val_main_v105 (F := Ideal) x (ix1 k) = x (ix2 (1 : Fin 3) k) :=
  (ReadP.val_main_v105_apply (F := Ideal) x (ix1 k)).trans ((ReadP.val_main_v104_apply (F := Ideal) x _).trans (congrArg x (funext fun a => by
    match a with
    | ⟨0, _⟩ => exact Fin.ext rfl
    | ⟨1, _⟩ => exact Fin.ext (Nat.mod_eq_of_lt k.isLt))))

/-- Layer 2: the first normalisation's bias at k is entry (2, k) of the stacked array. -/
theorem b1_row2 (x : (⟨S3x256, .f32⟩ : BufTy).Contents (Elt Ideal)) (k : Fin 256) :
    ReadP.val_main_v182 (F := Ideal) x (ix1 k) = x (ix2 (2 : Fin 3) k) :=
  (ReadP.val_main_v182_apply (F := Ideal) x (ix1 k)).trans ((ReadP.val_main_v181_apply (F := Ideal) x _).trans (congrArg x (funext fun a => by
    match a with
    | ⟨0, _⟩ => exact Fin.ext rfl
    | ⟨1, _⟩ => exact Fin.ext (Nat.mod_eq_of_lt k.isLt))))

/-- Layer 0: the first normalisation's scale at k is entry (0, k) of the stacked array. -/
theorem g1_row0 (x : (⟨S3x256, .f32⟩ : BufTy).Contents (Elt Ideal)) (k : Fin 256) :
    ReadP.val_main_v33 (F := Ideal) x (ix1 k) = x (ix2 (0 : Fin 3) k) :=
  (ReadP.val_main_v33_apply (F := Ideal) x (ix1 k)).trans ((ReadP.val_main_v32_apply (F := Ideal) x _).trans (congrArg x (funext fun a => by
    match a with
    | ⟨0, _⟩ => exact Fin.ext rfl
    | ⟨1, _⟩ => exact Fin.ext (Nat.mod_eq_of_lt k.isLt))))

/-- Layer 1: the first normalisation's scale at k is entry (1, k) of the stacked array. -/
theorem g1_row1 (x : (⟨S3x256, .f32⟩ : BufTy).Contents (Elt Ideal)) (k : Fin 256) :
    ReadP.val_main_v110 (F := Ideal) x (ix1 k) = x (ix2 (1 : Fin 3) k) :=
  (ReadP.val_main_v110_apply (F := Ideal) x (ix1 k)).trans ((ReadP.val_main_v109_apply (F := Ideal) x _).trans (congrArg x (funext fun a => by
    match a with
    | ⟨0, _⟩ => exact Fin.ext rfl
    | ⟨1, _⟩ => exact Fin.ext (Nat.mod_eq_of_lt k.isLt))))

/-- Layer 2: the first normalisation's scale at k is entry (2, k) of the stacked array. -/
theorem g1_row2 (x : (⟨S3x256, .f32⟩ : BufTy).Contents (Elt Ideal)) (k : Fin 256) :
    ReadP.val_main_v187 (F := Ideal) x (ix1 k) = x (ix2 (2 : Fin 3) k) :=
  (ReadP.val_main_v187_apply (F := Ideal) x (ix1 k)).trans ((ReadP.val_main_v186_apply (F := Ideal) x _).trans (congrArg x (funext fun a => by
    match a with
    | ⟨0, _⟩ => exact Fin.ext rfl
    | ⟨1, _⟩ => exact Fin.ext (Nat.mod_eq_of_lt k.isLt))))

/-- Layer 0: the first normalisation's running mean at k is entry (0, k) of the stacked array. -/
theorem m1_row0 (x : (⟨S3x256, .f32⟩ : BufTy).Contents (Elt Ideal)) (k : Fin 256) :
    ReadP.val_main_v37 (F := Ideal) x (ix1 k) = x (ix2 (0 : Fin 3) k) :=
  (ReadP.val_main_v37_apply (F := Ideal) x (ix1 k)).trans ((ReadP.val_main_v36_apply (F := Ideal) x _).trans (congrArg x (funext fun a => by
    match a with
    | ⟨0, _⟩ => exact Fin.ext rfl
    | ⟨1, _⟩ => exact Fin.ext (Nat.mod_eq_of_lt k.isLt))))

/-- Layer 1: the first normalisation's running mean at k is entry (1, k) of the stacked array. -/
theorem m1_row1 (x : (⟨S3x256, .f32⟩ : BufTy).Contents (Elt Ideal)) (k : Fin 256) :
    ReadP.val_main_v114 (F := Ideal) x (ix1 k) = x (ix2 (1 : Fin 3) k) :=
  (ReadP.val_main_v114_apply (F := Ideal) x (ix1 k)).trans ((ReadP.val_main_v113_apply (F := Ideal) x _).trans (congrArg x (funext fun a => by
    match a with
    | ⟨0, _⟩ => exact Fin.ext rfl
    | ⟨1, _⟩ => exact Fin.ext (Nat.mod_eq_of_lt k.isLt))))

/-- Layer 2: the first normalisation's running mean at k is entry (2, k) of the stacked array. -/
theorem m1_row2 (x : (⟨S3x256, .f32⟩ : BufTy).Contents (Elt Ideal)) (k : Fin 256) :
    ReadP.val_main_v191 (F := Ideal) x (ix1 k) = x (ix2 (2 : Fin 3) k) :=
  (ReadP.val_main_v191_apply (F := Ideal) x (ix1 k)).trans ((ReadP.val_main_v190_apply (F := Ideal) x _).trans (congrArg x (funext fun a => by
    match a with
    | ⟨0, _⟩ => exact Fin.ext rfl
    | ⟨1, _⟩ => exact Fin.ext (Nat.mod_eq_of_lt k.isLt))))

/-- Layer 0: the first normalisation's running variance at k is entry (0, k) of the stacked array. -/
theorem v1_row0 (x : (⟨S3x256, .f32⟩ : BufTy).Contents (Elt Ideal)) (k : Fin 256) :
    ReadP.val_main_v39 (F := Ideal) x (ix1 k) = x (ix2 (0 : Fin 3) k) :=
  (ReadP.val_main_v39_apply (F := Ideal) x (ix1 k)).trans ((ReadP.val_main_v38_apply (F := Ideal) x _).trans (congrArg x (funext fun a => by
    match a with
    | ⟨0, _⟩ => exact Fin.ext rfl
    | ⟨1, _⟩ => exact Fin.ext (Nat.mod_eq_of_lt k.isLt))))

/-- Layer 1: the first normalisation's running variance at k is entry (1, k) of the stacked array. -/
theorem v1_row1 (x : (⟨S3x256, .f32⟩ : BufTy).Contents (Elt Ideal)) (k : Fin 256) :
    ReadP.val_main_v116 (F := Ideal) x (ix1 k) = x (ix2 (1 : Fin 3) k) :=
  (ReadP.val_main_v116_apply (F := Ideal) x (ix1 k)).trans ((ReadP.val_main_v115_apply (F := Ideal) x _).trans (congrArg x (funext fun a => by
    match a with
    | ⟨0, _⟩ => exact Fin.ext rfl
    | ⟨1, _⟩ => exact Fin.ext (Nat.mod_eq_of_lt k.isLt))))

/-- Layer 2: the first normalisation's running variance at k is entry (2, k) of the stacked array. -/
theorem v1_row2 (x : (⟨S3x256, .f32⟩ : BufTy).Contents (Elt Ideal)) (k : Fin 256) :
    ReadP.val_main_v193 (F := Ideal) x (ix1 k) = x (ix2 (2 : Fin 3) k) :=
  (ReadP.val_main_v193_apply (F := Ideal) x (ix1 k)).trans ((ReadP.val_main_v192_apply (F := Ideal) x _).trans (congrArg x (funext fun a => by
    match a with
    | ⟨0, _⟩ => exact Fin.ext rfl
    | ⟨1, _⟩ => exact Fin.ext (Nat.mod_eq_of_lt k.isLt))))

/-- Layer 0: the second normalisation's bias at k is entry (0, k) of the stacked array. -/
theorem b2_row0 (x : (⟨S3x128, .f32⟩ : BufTy).Contents (Elt Ideal)) (k : Fin 128) :
    ReadP.val_main_v58 (F := Ideal) x (ix1 k) = x (ix2 (0 : Fin 3) k) :=
  (ReadP.val_main_v58_apply (F := Ideal) x (ix1 k)).trans ((ReadP.val_main_v57_apply (F := Ideal) x _).trans (congrArg x (funext fun a => by
    match a with
    | ⟨0, _⟩ => exact Fin.ext rfl
    | ⟨1, _⟩ => exact Fin.ext (Nat.mod_eq_of_lt k.isLt))))

/-- Layer 1: the second normalisation's bias at k is entry (1, k) of the stacked array. -/
theorem b2_row1 (x : (⟨S3x128, .f32⟩ : BufTy).Contents (Elt Ideal)) (k : Fin 128) :
    ReadP.val_main_v135 (F := Ideal) x (ix1 k) = x (ix2 (1 : Fin 3) k) :=
  (ReadP.val_main_v135_apply (F := Ideal) x (ix1 k)).trans ((ReadP.val_main_v134_apply (F := Ideal) x _).trans (congrArg x (funext fun a => by
    match a with
    | ⟨0, _⟩ => exact Fin.ext rfl
    | ⟨1, _⟩ => exact Fin.ext (Nat.mod_eq_of_lt k.isLt))))

/-- Layer 2: the second normalisation's bias at k is entry (2, k) of the stacked array. -/
theorem b2_row2 (x : (⟨S3x128, .f32⟩ : BufTy).Contents (Elt Ideal)) (k : Fin 128) :
    ReadP.val_main_v212 (F := Ideal) x (ix1 k) = x (ix2 (2 : Fin 3) k) :=
  (ReadP.val_main_v212_apply (F := Ideal) x (ix1 k)).trans ((ReadP.val_main_v211_apply (F := Ideal) x _).trans (congrArg x (funext fun a => by
    match a with
    | ⟨0, _⟩ => exact Fin.ext rfl
    | ⟨1, _⟩ => exact Fin.ext (Nat.mod_eq_of_lt k.isLt))))

/-- Layer 0: the second normalisation's scale at k is entry (0, k) of the stacked array. -/
theorem g2_row0 (x : (⟨S3x128, .f32⟩ : BufTy).Contents (Elt Ideal)) (k : Fin 128) :
    ReadP.val_main_v63 (F := Ideal) x (ix1 k) = x (ix2 (0 : Fin 3) k) :=
  (ReadP.val_main_v63_apply (F := Ideal) x (ix1 k)).trans ((ReadP.val_main_v62_apply (F := Ideal) x _).trans (congrArg x (funext fun a => by
    match a with
    | ⟨0, _⟩ => exact Fin.ext rfl
    | ⟨1, _⟩ => exact Fin.ext (Nat.mod_eq_of_lt k.isLt))))

/-- Layer 1: the second normalisation's scale at k is entry (1, k) of the stacked array. -/
theorem g2_row1 (x : (⟨S3x128, .f32⟩ : BufTy).Contents (Elt Ideal)) (k : Fin 128) :
    ReadP.val_main_v140 (F := Ideal) x (ix1 k) = x (ix2 (1 : Fin 3) k) :=
  (ReadP.val_main_v140_apply (F := Ideal) x (ix1 k)).trans ((ReadP.val_main_v139_apply (F := Ideal) x _).trans (congrArg x (funext fun a => by
    match a with
    | ⟨0, _⟩ => exact Fin.ext rfl
    | ⟨1, _⟩ => exact Fin.ext (Nat.mod_eq_of_lt k.isLt))))

/-- Layer 2: the second normalisation's scale at k is entry (2, k) of the stacked array. -/
theorem g2_row2 (x : (⟨S3x128, .f32⟩ : BufTy).Contents (Elt Ideal)) (k : Fin 128) :
    ReadP.val_main_v217 (F := Ideal) x (ix1 k) = x (ix2 (2 : Fin 3) k) :=
  (ReadP.val_main_v217_apply (F := Ideal) x (ix1 k)).trans ((ReadP.val_main_v216_apply (F := Ideal) x _).trans (congrArg x (funext fun a => by
    match a with
    | ⟨0, _⟩ => exact Fin.ext rfl
    | ⟨1, _⟩ => exact Fin.ext (Nat.mod_eq_of_lt k.isLt))))

/-- Layer 0: the second normalisation's running mean at k is entry (0, k) of the stacked array. -/
theorem m2_row0 (x : (⟨S3x128, .f32⟩ : BufTy).Contents (Elt Ideal)) (k : Fin 128) :
    ReadP.val_main_v67 (F := Ideal) x (ix1 k) = x (ix2 (0 : Fin 3) k) :=
  (ReadP.val_main_v67_apply (F := Ideal) x (ix1 k)).trans ((ReadP.val_main_v66_apply (F := Ideal) x _).trans (congrArg x (funext fun a => by
    match a with
    | ⟨0, _⟩ => exact Fin.ext rfl
    | ⟨1, _⟩ => exact Fin.ext (Nat.mod_eq_of_lt k.isLt))))

/-- Layer 1: the second normalisation's running mean at k is entry (1, k) of the stacked array. -/
theorem m2_row1 (x : (⟨S3x128, .f32⟩ : BufTy).Contents (Elt Ideal)) (k : Fin 128) :
    ReadP.val_main_v144 (F := Ideal) x (ix1 k) = x (ix2 (1 : Fin 3) k) :=
  (ReadP.val_main_v144_apply (F := Ideal) x (ix1 k)).trans ((ReadP.val_main_v143_apply (F := Ideal) x _).trans (congrArg x (funext fun a => by
    match a with
    | ⟨0, _⟩ => exact Fin.ext rfl
    | ⟨1, _⟩ => exact Fin.ext (Nat.mod_eq_of_lt k.isLt))))

/-- Layer 2: the second normalisation's running mean at k is entry (2, k) of the stacked array. -/
theorem m2_row2 (x : (⟨S3x128, .f32⟩ : BufTy).Contents (Elt Ideal)) (k : Fin 128) :
    ReadP.val_main_v221 (F := Ideal) x (ix1 k) = x (ix2 (2 : Fin 3) k) :=
  (ReadP.val_main_v221_apply (F := Ideal) x (ix1 k)).trans ((ReadP.val_main_v220_apply (F := Ideal) x _).trans (congrArg x (funext fun a => by
    match a with
    | ⟨0, _⟩ => exact Fin.ext rfl
    | ⟨1, _⟩ => exact Fin.ext (Nat.mod_eq_of_lt k.isLt))))

/-- Layer 0: the second normalisation's running variance at k is entry (0, k) of the stacked array. -/
theorem v2_row0 (x : (⟨S3x128, .f32⟩ : BufTy).Contents (Elt Ideal)) (k : Fin 128) :
    ReadP.val_main_v69 (F := Ideal) x (ix1 k) = x (ix2 (0 : Fin 3) k) :=
  (ReadP.val_main_v69_apply (F := Ideal) x (ix1 k)).trans ((ReadP.val_main_v68_apply (F := Ideal) x _).trans (congrArg x (funext fun a => by
    match a with
    | ⟨0, _⟩ => exact Fin.ext rfl
    | ⟨1, _⟩ => exact Fin.ext (Nat.mod_eq_of_lt k.isLt))))

/-- Layer 1: the second normalisation's running variance at k is entry (1, k) of the stacked array. -/
theorem v2_row1 (x : (⟨S3x128, .f32⟩ : BufTy).Contents (Elt Ideal)) (k : Fin 128) :
    ReadP.val_main_v146 (F := Ideal) x (ix1 k) = x (ix2 (1 : Fin 3) k) :=
  (ReadP.val_main_v146_apply (F := Ideal) x (ix1 k)).trans ((ReadP.val_main_v145_apply (F := Ideal) x _).trans (congrArg x (funext fun a => by
    match a with
    | ⟨0, _⟩ => exact Fin.ext rfl
    | ⟨1, _⟩ => exact Fin.ext (Nat.mod_eq_of_lt k.isLt))))

/-- Layer 2: the second normalisation's running variance at k is entry (2, k) of the stacked array. -/
theorem v2_row2 (x : (⟨S3x128, .f32⟩ : BufTy).Contents (Elt Ideal)) (k : Fin 128) :
    ReadP.val_main_v223 (F := Ideal) x (ix1 k) = x (ix2 (2 : Fin 3) k) :=
  (ReadP.val_main_v223_apply (F := Ideal) x (ix1 k)).trans ((ReadP.val_main_v222_apply (F := Ideal) x _).trans (congrArg x (funext fun a => by
    match a with
    | ⟨0, _⟩ => exact Fin.ext rfl
    | ⟨1, _⟩ => exact Fin.ext (Nat.mod_eq_of_lt k.isLt))))

/-! ## What holds of every entry of the stacked array holds of every entry of a layer's vector -/

/-- Layer 0: if every entry of the stacked array is a real number, so is every entry of the layer's vector. -/
theorem b1_real0 (x : (⟨S3x256, .f32⟩ : BufTy).Contents (Elt Ideal)) (h : ∀ i, ∃ r : ℝ, x i = (r : EReal)) (k : Fin 256) :
    ∃ r : ℝ, ReadP.val_main_v28 (F := Ideal) x (ix1 k) = (r : EReal) :=
  let ⟨r, hr⟩ := h (ix2 (0 : Fin 3) k)
  ⟨r, (b1_row0 x k).trans hr⟩

/-- Layer 1: if every entry of the stacked array is a real number, so is every entry of the layer's vector. -/
theorem b1_real1 (x : (⟨S3x256, .f32⟩ : BufTy).Contents (Elt Ideal)) (h : ∀ i, ∃ r : ℝ, x i = (r : EReal)) (k : Fin 256) :
    ∃ r : ℝ, ReadP.val_main_v105 (F := Ideal) x (ix1 k) = (r : EReal) :=
  let ⟨r, hr⟩ := h (ix2 (1 : Fin 3) k)
  ⟨r, (b1_row1 x k).trans hr⟩

/-- Layer 2: if every entry of the stacked array is a real number, so is every entry of the layer's vector. -/
theorem b1_real2 (x : (⟨S3x256, .f32⟩ : BufTy).Contents (Elt Ideal)) (h : ∀ i, ∃ r : ℝ, x i = (r : EReal)) (k : Fin 256) :
    ∃ r : ℝ, ReadP.val_main_v182 (F := Ideal) x (ix1 k) = (r : EReal) :=
  let ⟨r, hr⟩ := h (ix2 (2 : Fin 3) k)
  ⟨r, (b1_row2 x k).trans hr⟩

/-- Layer 0: if every entry of the stacked array is a real number, so is every entry of the layer's vector. -/
theorem g1_real0 (x : (⟨S3x256, .f32⟩ : BufTy).Contents (Elt Ideal)) (h : ∀ i, ∃ r : ℝ, x i = (r : EReal)) (k : Fin 256) :
    ∃ r : ℝ, ReadP.val_main_v33 (F := Ideal) x (ix1 k) = (r : EReal) :=
  let ⟨r, hr⟩ := h (ix2 (0 : Fin 3) k)
  ⟨r, (g1_row0 x k).trans hr⟩

/-- Layer 1: if every entry of the stacked array is a real number, so is every entry of the layer's vector. -/
theorem g1_real1 (x : (⟨S3x256, .f32⟩ : BufTy).Contents (Elt Ideal)) (h : ∀ i, ∃ r : ℝ, x i = (r : EReal)) (k : Fin 256) :
    ∃ r : ℝ, ReadP.val_main_v110 (F := Ideal) x (ix1 k) = (r : EReal) :=
  let ⟨r, hr⟩ := h (ix2 (1 : Fin 3) k)
  ⟨r, (g1_row1 x k).trans hr⟩

/-- Layer 2: if every entry of the stacked array is a real number, so is every entry of the layer's vector. -/
theorem g1_real2 (x : (⟨S3x256, .f32⟩ : BufTy).Contents (Elt Ideal)) (h : ∀ i, ∃ r : ℝ, x i = (r : EReal)) (k : Fin 256) :
    ∃ r : ℝ, ReadP.val_main_v187 (F := Ideal) x (ix1 k) = (r : EReal) :=
  let ⟨r, hr⟩ := h (ix2 (2 : Fin 3) k)
  ⟨r, (g1_row2 x k).trans hr⟩

/-- Layer 0: if every entry of the stacked array is a real number, so is every entry of the layer's vector. -/
theorem m1_real0 (x : (⟨S3x256, .f32⟩ : BufTy).Contents (Elt Ideal)) (h : ∀ i, ∃ r : ℝ, x i = (r : EReal)) (k : Fin 256) :
    ∃ r : ℝ, ReadP.val_main_v37 (F := Ideal) x (ix1 k) = (r : EReal) :=
  let ⟨r, hr⟩ := h (ix2 (0 : Fin 3) k)
  ⟨r, (m1_row0 x k).trans hr⟩

/-- Layer 1: if every entry of the stacked array is a real number, so is every entry of the layer's vector. -/
theorem m1_real1 (x : (⟨S3x256, .f32⟩ : BufTy).Contents (Elt Ideal)) (h : ∀ i, ∃ r : ℝ, x i = (r : EReal)) (k : Fin 256) :
    ∃ r : ℝ, ReadP.val_main_v114 (F := Ideal) x (ix1 k) = (r : EReal) :=
  let ⟨r, hr⟩ := h (ix2 (1 : Fin 3) k)
  ⟨r, (m1_row1 x k).trans hr⟩

/-- Layer 2: if every entry of the stacked array is a real number, so is every entry of the layer's vector. -/
theorem m1_real2 (x : (⟨S3x256, .f32⟩ : BufTy).Contents (Elt Ideal)) (h : ∀ i, ∃ r : ℝ, x i = (r : EReal)) (k : Fin 256) :
    ∃ r : ℝ, ReadP.val_main_v191 (F := Ideal) x (ix1 k) = (r : EReal) :=
  let ⟨r, hr⟩ := h (ix2 (2 : Fin 3) k)
  ⟨r, (m1_row2 x k).trans hr⟩

/-- Layer 0: if every entry of the stacked variance array is a nonnegative real, so is every entry of the layer's vector. -/
theorem v1_real0 (x : (⟨S3x256, .f32⟩ : BufTy).Contents (Elt Ideal)) (h : ∀ i, ∃ r : ℝ, 0 ≤ r ∧ x i = (r : EReal)) (k : Fin 256) :
    ∃ r : ℝ, 0 ≤ r ∧ ReadP.val_main_v39 (F := Ideal) x (ix1 k) = (r : EReal) :=
  let ⟨r, h0, hr⟩ := h (ix2 (0 : Fin 3) k)
  ⟨r, h0, (v1_row0 x k).trans hr⟩

/-- Layer 1: if every entry of the stacked variance array is a nonnegative real, so is every entry of the layer's vector. -/
theorem v1_real1 (x : (⟨S3x256, .f32⟩ : BufTy).Contents (Elt Ideal)) (h : ∀ i, ∃ r : ℝ, 0 ≤ r ∧ x i = (r : EReal)) (k : Fin 256) :
    ∃ r : ℝ, 0 ≤ r ∧ ReadP.val_main_v116 (F := Ideal) x (ix1 k) = (r : EReal) :=
  let ⟨r, h0, hr⟩ := h (ix2 (1 : Fin 3) k)
  ⟨r, h0, (v1_row1 x k).trans hr⟩

/-- Layer 2: if every entry of the stacked variance array is a nonnegative real, so is every entry of the layer's vector. -/
theorem v1_real2 (x : (⟨S3x256, .f32⟩ : BufTy).Contents (Elt Ideal)) (h : ∀ i, ∃ r : ℝ, 0 ≤ r ∧ x i = (r : EReal)) (k : Fin 256) :
    ∃ r : ℝ, 0 ≤ r ∧ ReadP.val_main_v193 (F := Ideal) x (ix1 k) = (r : EReal) :=
  let ⟨r, h0, hr⟩ := h (ix2 (2 : Fin 3) k)
  ⟨r, h0, (v1_row2 x k).trans hr⟩

/-- Layer 0: if every entry of the stacked array is a real number, so is every entry of the layer's vector. -/
theorem b2_real0 (x : (⟨S3x128, .f32⟩ : BufTy).Contents (Elt Ideal)) (h : ∀ i, ∃ r : ℝ, x i = (r : EReal)) (k : Fin 128) :
    ∃ r : ℝ, ReadP.val_main_v58 (F := Ideal) x (ix1 k) = (r : EReal) :=
  let ⟨r, hr⟩ := h (ix2 (0 : Fin 3) k)
  ⟨r, (b2_row0 x k).trans hr⟩

/-- Layer 1: if every entry of the stacked array is a real number, so is every entry of the layer's vector. -/
theorem b2_real1 (x : (⟨S3x128, .f32⟩ : BufTy).Contents (Elt Ideal)) (h : ∀ i, ∃ r : ℝ, x i = (r : EReal)) (k : Fin 128) :
    ∃ r : ℝ, ReadP.val_main_v135 (F := Ideal) x (ix1 k) = (r : EReal) :=
  let ⟨r, hr⟩ := h (ix2 (1 : Fin 3) k)
  ⟨r, (b2_row1 x k).trans hr⟩

/-- Layer 2: if every entry of the stacked array is a real number, so is every entry of the layer's vector. -/
theorem b2_real2 (x : (⟨S3x128, .f32⟩ : BufTy).Contents (Elt Ideal)) (h : ∀ i, ∃ r : ℝ, x i = (r : EReal)) (k : Fin 128) :
    ∃ r : ℝ, ReadP.val_main_v212 (F := Ideal) x (ix1 k) = (r : EReal) :=
  let ⟨r, hr⟩ := h (ix2 (2 : Fin 3) k)
  ⟨r, (b2_row2 x k).trans hr⟩

/-- Layer 0: if every entry of the stacked array is a real number, so is every entry of the layer's vector. -/
theorem g2_real0 (x : (⟨S3x128, .f32⟩ : BufTy).Contents (Elt Ideal)) (h : ∀ i, ∃ r : ℝ, x i = (r : EReal)) (k : Fin 128) :
    ∃ r : ℝ, ReadP.val_main_v63 (F := Ideal) x (ix1 k) = (r : EReal) :=
  let ⟨r, hr⟩ := h (ix2 (0 : Fin 3) k)
  ⟨r, (g2_row0 x k).trans hr⟩

/-- Layer 1: if every entry of the stacked array is a real number, so is every entry of the layer's vector. -/
theorem g2_real1 (x : (⟨S3x128, .f32⟩ : BufTy).Contents (Elt Ideal)) (h : ∀ i, ∃ r : ℝ, x i = (r : EReal)) (k : Fin 128) :
    ∃ r : ℝ, ReadP.val_main_v140 (F := Ideal) x (ix1 k) = (r : EReal) :=
  let ⟨r, hr⟩ := h (ix2 (1 : Fin 3) k)
  ⟨r, (g2_row1 x k).trans hr⟩

/-- Layer 2: if every entry of the stacked array is a real number, so is every entry of the layer's vector. -/
theorem g2_real2 (x : (⟨S3x128, .f32⟩ : BufTy).Contents (Elt Ideal)) (h : ∀ i, ∃ r : ℝ, x i = (r : EReal)) (k : Fin 128) :
    ∃ r : ℝ, ReadP.val_main_v217 (F := Ideal) x (ix1 k) = (r : EReal) :=
  let ⟨r, hr⟩ := h (ix2 (2 : Fin 3) k)
  ⟨r, (g2_row2 x k).trans hr⟩

/-- Layer 0: if every entry of the stacked array is a real number, so is every entry of the layer's vector. -/
theorem m2_real0 (x : (⟨S3x128, .f32⟩ : BufTy).Contents (Elt Ideal)) (h : ∀ i, ∃ r : ℝ, x i = (r : EReal)) (k : Fin 128) :
    ∃ r : ℝ, ReadP.val_main_v67 (F := Ideal) x (ix1 k) = (r : EReal) :=
  let ⟨r, hr⟩ := h (ix2 (0 : Fin 3) k)
  ⟨r, (m2_row0 x k).trans hr⟩

/-- Layer 1: if every entry of the stacked array is a real number, so is every entry of the layer's vector. -/
theorem m2_real1 (x : (⟨S3x128, .f32⟩ : BufTy).Contents (Elt Ideal)) (h : ∀ i, ∃ r : ℝ, x i = (r : EReal)) (k : Fin 128) :
    ∃ r : ℝ, ReadP.val_main_v144 (F := Ideal) x (ix1 k) = (r : EReal) :=
  let ⟨r, hr⟩ := h (ix2 (1 : Fin 3) k)
  ⟨r, (m2_row1 x k).trans hr⟩

/-- Layer 2: if every entry of the stacked array is a real number, so is every entry of the layer's vector. -/
theorem m2_real2 (x : (⟨S3x128, .f32⟩ : BufTy).Contents (Elt Ideal)) (h : ∀ i, ∃ r : ℝ, x i = (r : EReal)) (k : Fin 128) :
    ∃ r : ℝ, ReadP.val_main_v221 (F := Ideal) x (ix1 k) = (r : EReal) :=
  let ⟨r, hr⟩ := h (ix2 (2 : Fin 3) k)
  ⟨r, (m2_row2 x k).trans hr⟩

/-- Layer 0: if every entry of the stacked variance array is a nonnegative real, so is every entry of the layer's vector. -/
theorem v2_real0 (x : (⟨S3x128, .f32⟩ : BufTy).Contents (Elt Ideal)) (h : ∀ i, ∃ r : ℝ, 0 ≤ r ∧ x i = (r : EReal)) (k : Fin 128) :
    ∃ r : ℝ, 0 ≤ r ∧ ReadP.val_main_v69 (F := Ideal) x (ix1 k) = (r : EReal) :=
  let ⟨r, h0, hr⟩ := h (ix2 (0 : Fin 3) k)
  ⟨r, h0, (v2_row0 x k).trans hr⟩

/-- Layer 1: if every entry of the stacked variance array is a nonnegative real, so is every entry of the layer's vector. -/
theorem v2_real1 (x : (⟨S3x128, .f32⟩ : BufTy).Contents (Elt Ideal)) (h : ∀ i, ∃ r : ℝ, 0 ≤ r ∧ x i = (r : EReal)) (k : Fin 128) :
    ∃ r : ℝ, 0 ≤ r ∧ ReadP.val_main_v146 (F := Ideal) x (ix1 k) = (r : EReal) :=
  let ⟨r, h0, hr⟩ := h (ix2 (1 : Fin 3) k)
  ⟨r, h0, (v2_row1 x k).trans hr⟩

/-- Layer 2: if every entry of the stacked variance array is a nonnegative real, so is every entry of the layer's vector. -/
theorem v2_real2 (x : (⟨S3x128, .f32⟩ : BufTy).Contents (Elt Ideal)) (h : ∀ i, ∃ r : ℝ, 0 ≤ r ∧ x i = (r : EReal)) (k : Fin 128) :
    ∃ r : ℝ, 0 ≤ r ∧ ReadP.val_main_v223 (F := Ideal) x (ix1 k) = (r : EReal) :=
  let ⟨r, h0, hr⟩ := h (ix2 (2 : Fin 3) k)
  ⟨r, h0, (v2_row2 x k).trans hr⟩

end Cert.ReferenceIdeal.RefValue

end
-- ==== Proof.ParamRows.lean ====
import proofs.«156994_j78795470012791_1_alg».proof.KernelIdeal
import proofs.«156994_j78795470012791_1_alg».proof.Proof.RefReadP
import Idealize.ShloMosaic.Lib.ValueLayout
import Idealize.ShloMosaic.Lib.ValueIdx
import Idealize.ShloMosaic.Lib.Pipeline.Value
import Idealize.ShloMosaic.PureOps.Ideal

noncomputable section

namespace Cert.Bridge.Rows

open Cert.ReferenceIdeal Idealize.ShloMosaic Idealize.ShloMosaic.ValueIdx

variable [Cert.KernelIdeal.Facts₀]

/-! ## The folded normalisation parameters, handed over as rows, read at an index

Each normalisation ((u + b) - m) * (g * rsqrt (v + ε)) + β reaches the kernel folded into a scale row
s = g * rsqrt (v + ε) and a bias row t = (b - m) * s + β, each an [n] vector reshaped to [1, n]. A vector reshaped to
one row reads at (0, k) the vector at k, and the elementwise operations read through at an index, so entry (0, k) of
a row is the scalar expression in the k-th entries of the layer's parameter vectors. The weight 1 + eps is a scalar
reshaped to [1, 1]: its one entry is the scalar. -/

/-! ### Layer 0 -/

/-- Layer 0, first normalisation: the scale row at (0, k) is g k * rsqrt (v k + ε). -/
theorem scale1_row0 (x8 x11 : (⟨S3x256, .f32⟩ : BufTy).Contents (Elt Ideal)) (k : Fin 256) :
    shapeCast Cert.KernelIdeal.S1x256 (ReadP.val_main_v46 (F := Ideal) x8 x11) Cert.KernelIdeal.Facts₀.shapeCasts_S256_S1x256 (ix2 (0 : Fin 1) k)
      = ReadP.val_main_v33 (F := Ideal) x8 (ix1 k) * Ideal.rsqrt (ReadP.val_main_v39 (F := Ideal) x11 (ix1 k) + Ideal.ofBits .f32 0x3727C5AC#32) :=
  (shapeCast_a_1a_apply _ _ (0 : Fin 1) k).trans rfl

/-- Layer 0, first normalisation: the bias row at (0, k) is (b k - m k) * (g k * rsqrt (v k + ε)) + β k. -/
theorem bias1_row0 (x7 x8 x9 x10 x11 : (⟨S3x256, .f32⟩ : BufTy).Contents (Elt Ideal)) (k : Fin 256) :
    shapeCast Cert.KernelIdeal.S1x256
        (addf (F := Ideal) (φ := .f32) (mulf (F := Ideal) (φ := .f32) (subf (F := Ideal) (φ := .f32) (ReadP.val_main_v28 (F := Ideal) x7) (ReadP.val_main_v37 (F := Ideal) x10)) (ReadP.val_main_v46 (F := Ideal) x8 x11)) (ReadP.val_main_v35 (F := Ideal) x9))
        Cert.KernelIdeal.Facts₀.shapeCasts_S256_S1x256 (ix2 (0 : Fin 1) k)
      = (ReadP.val_main_v28 (F := Ideal) x7 (ix1 k) - ReadP.val_main_v37 (F := Ideal) x10 (ix1 k))
          * (ReadP.val_main_v33 (F := Ideal) x8 (ix1 k) * Ideal.rsqrt (ReadP.val_main_v39 (F := Ideal) x11 (ix1 k) + Ideal.ofBits .f32 0x3727C5AC#32))
          + ReadP.val_main_v35 (F := Ideal) x9 (ix1 k) :=
  (shapeCast_a_1a_apply _ _ (0 : Fin 1) k).trans rfl

/-- Layer 0, second normalisation: the scale row at (0, q) is g q * rsqrt (v q + ε). -/
theorem scale2_row0 (x14 x17 : (⟨S3x128, .f32⟩ : BufTy).Contents (Elt Ideal)) (q : Fin 128) :
    shapeCast Cert.KernelIdeal.S1x128 (ReadP.val_main_v76 (F := Ideal) x14 x17) Cert.KernelIdeal.Facts₀.shapeCasts_S128_S1x128 (ix2 (0 : Fin 1) q)
      = ReadP.val_main_v63 (F := Ideal) x14 (ix1 q) * Ideal.rsqrt (ReadP.val_main_v69 (F := Ideal) x17 (ix1 q) + Ideal.ofBits .f32 0x3727C5AC#32) :=
  (shapeCast_a_1a_apply _ _ (0 : Fin 1) q).trans rfl

/-- Layer 0, second normalisation: the bias row at (0, q) is (b q - m q) * (g q * rsqrt (v q + ε)) + β q. -/
theorem bias2_row0 (x13 x14 x15 x16 x17 : (⟨S3x128, .f32⟩ : BufTy).Contents (Elt Ideal)) (q : Fin 128) :
    shapeCast Cert.KernelIdeal.S1x128
        (addf (F := Ideal) (φ := .f32) (mulf (F := Ideal) (φ := .f32) (subf (F := Ideal) (φ := .f32) (ReadP.val_main_v58 (F := Ideal) x13) (ReadP.val_main_v67 (F := Ideal) x16)) (ReadP.val_main_v76 (F := Ideal) x14 x17)) (ReadP.val_main_v65 (F := Ideal) x15))
        Cert.KernelIdeal.Facts₀.shapeCasts_S128_S1x128 (ix2 (0 : Fin 1) q)
      = (ReadP.val_main_v58 (F := Ideal) x13 (ix1 q) - ReadP.val_main_v67 (F := Ideal) x16 (ix1 q))
          * (ReadP.val_main_v63 (F := Ideal) x14 (ix1 q) * Ideal.rsqrt (ReadP.val_main_v69 (F := Ideal) x17 (ix1 q) + Ideal.ofBits .f32 0x3727C5AC#32))
          + ReadP.val_main_v65 (F := Ideal) x15 (ix1 q) :=
  (shapeCast_a_1a_apply _ _ (0 : Fin 1) q).trans rfl

/-- Layer 0: the [1, 1] array holding 1 + eps has the scalar as its one entry (both row-major positions are 0). -/
theorem coef_row0 (x5 : (⟨S3, .f32⟩ : BufTy).Contents (Elt Ideal)) :
    shapeCast Cert.KernelIdeal.S1x1 (ReadP.val_main_v20 (F := Ideal) x5) Cert.KernelIdeal.Facts₀.shapeCasts_S_S1x1 (ix2 (0 : Fin 1) (0 : Fin 1))
      = ReadP.val_main_v20 (F := Ideal) x5 ix0 :=
  shapeCast_apply _ _ _ _ (by
    rw [Shape.rowMajor_val_two]
    have h := ((⟨0, ![]⟩ : Shape).rowMajor ix0).isLt
    have e : (⟨0, ![]⟩ : Shape).numel = 1 := by decide
    show ((⟨0, ![]⟩ : Shape).rowMajor ix0).val = 0 * 1 + 0
    omega)

/-! ### Layer 1 -/

/-- Layer 1, first normalisation: the scale row at (0, k) is g k * rsqrt (v k + ε). -/
theorem scale1_row1 (x8 x11 : (⟨S3x256, .f32⟩ : BufTy).Contents (Elt Ideal)) (k : Fin 256) :
    shapeCast Cert.KernelIdeal.S1x256 (ReadP.val_main_v123 (F := Ideal) x8 x11) Cert.KernelIdeal.Facts₀.shapeCasts_S256_S1x256 (ix2 (0 : Fin 1) k)
      = ReadP.val_main_v110 (F := Ideal) x8 (ix1 k) * Ideal.rsqrt (ReadP.val_main_v116 (F := Ideal) x11 (ix1 k) + Ideal.ofBits .f32 0x3727C5AC#32) :=
  (shapeCast_a_1a_apply _ _ (0 : Fin 1) k).trans rfl

/-- Layer 1, first normalisation: the bias row at (0, k) is (b k - m k) * (g k * rsqrt (v k + ε)) + β k. -/
theorem bias1_row1 (x7 x8 x9 x10 x11 : (⟨S3x256, .f32⟩ : BufTy).Contents (Elt Ideal)) (k : Fin 256) :
    shapeCast Cert.KernelIdeal.S1x256
        (addf (F := Ideal) (φ := .f32) (mulf (F := Ideal) (φ := .f32) (subf (F := Ideal) (φ := .f32) (ReadP.val_main_v105 (F := Ideal) x7) (ReadP.val_main_v114 (F := Ideal) x10)) (ReadP.val_main_v123 (F := Ideal) x8 x11)) (ReadP.val_main_v112 (F := Ideal) x9))
        Cert.KernelIdeal.Facts₀.shapeCasts_S256_S1x256 (ix2 (0 : Fin 1) k)
      = (ReadP.val_main_v105 (F := Ideal) x7 (ix1 k) - ReadP.val_main_v114 (F := Ideal) x10 (ix1 k))
          * (ReadP.val_main_v110 (F := Ideal) x8 (ix1 k) * Ideal.rsqrt (ReadP.val_main_v116 (F := Ideal) x11 (ix1 k) + Ideal.ofBits .f32 0x3727C5AC#32))
          + ReadP.val_main_v112 (F := Ideal) x9 (ix1 k) :=
  (shapeCast_a_1a_apply _ _ (0 : Fin 1) k).trans rfl

/-- Layer 1, second normalisation: the scale row at (0, q) is g q * rsqrt (v q + ε). -/
theorem scale2_row1 (x14 x17 : (⟨S3x128, .f32⟩ : BufTy).Contents (Elt Ideal)) (q : Fin 128) :
    shapeCast Cert.KernelIdeal.S1x128 (ReadP.val_main_v153 (F := Ideal) x14 x17) Cert.KernelIdeal.Facts₀.shapeCasts_S128_S1x128 (ix2 (0 : Fin 1) q)
      = ReadP.val_main_v140 (F := Ideal) x14 (ix1 q) * Ideal.rsqrt (ReadP.val_main_v146 (F := Ideal) x17 (ix1 q) + Ideal.ofBits .f32 0x3727C5AC#32) :=
  (shapeCast_a_1a_apply _ _ (0 : Fin 1) q).trans rfl

/-- Layer 1, second normalisation: the bias row at (0, q) is (b q - m q) * (g q * rsqrt (v q + ε)) + β q. -/
theorem bias2_row1 (x13 x14 x15 x16 x17 : (⟨S3x128, .f32⟩ : BufTy).Contents (Elt Ideal)) (q : Fin 128) :
    shapeCast Cert.KernelIdeal.S1x128
        (addf (F := Ideal) (φ := .f32) (mulf (F := Ideal) (φ := .f32) (subf (F := Ideal) (φ := .f32) (ReadP.val_main_v135 (F := Ideal) x13) (ReadP.val_main_v144 (F := Ideal) x16)) (ReadP.val_main_v153 (F := Ideal) x14 x17)) (ReadP.val_main_v142 (F := Ideal) x15))
        Cert.KernelIdeal.Facts₀.shapeCasts_S128_S1x128 (ix2 (0 : Fin 1) q)
      = (ReadP.val_main_v135 (F := Ideal) x13 (ix1 q) - ReadP.val_main_v144 (F := Ideal) x16 (ix1 q))
          * (ReadP.val_main_v140 (F := Ideal) x14 (ix1 q) * Ideal.rsqrt (ReadP.val_main_v146 (F := Ideal) x17 (ix1 q) + Ideal.ofBits .f32 0x3727C5AC#32))
          + ReadP.val_main_v142 (F := Ideal) x15 (ix1 q) :=
  (shapeCast_a_1a_apply _ _ (0 : Fin 1) q).trans rfl

/-- Layer 1: the [1, 1] array holding 1 + eps has the scalar as its one entry (both row-major positions are 0). -/
theorem coef_row1 (x5 : (⟨S3, .f32⟩ : BufTy).Contents (Elt Ideal)) :
    shapeCast Cert.KernelIdeal.S1x1 (ReadP.val_main_v97 (F := Ideal) x5) Cert.KernelIdeal.Facts₀.shapeCasts_S_S1x1 (ix2 (0 : Fin 1) (0 : Fin 1))
      = ReadP.val_main_v97 (F := Ideal) x5 ix0 :=
  shapeCast_apply _ _ _ _ (by
    rw [Shape.rowMajor_val_two]
    have h := ((⟨0, ![]⟩ : Shape).rowMajor ix0).isLt
    have e : (⟨0, ![]⟩ : Shape).numel = 1 := by decide
    show ((⟨0, ![]⟩ : Shape).rowMajor ix0).val = 0 * 1 + 0
    omega)

/-! ### Layer 2 -/

/-- Layer 2, first normalisation: the scale row at (0, k) is g k * rsqrt (v k + ε). -/
theorem scale1_row2 (x8 x11 : (⟨S3x256, .f32⟩ : BufTy).Contents (Elt Ideal)) (k : Fin 256) :
    shapeCast Cert.KernelIdeal.S1x256 (ReadP.val_main_v200 (F := Ideal) x8 x11) Cert.KernelIdeal.Facts₀.shapeCasts_S256_S1x256 (ix2 (0 : Fin 1) k)
      = ReadP.val_main_v187 (F := Ideal) x8 (ix1 k) * Ideal.rsqrt (ReadP.val_main_v193 (F := Ideal) x11 (ix1 k) + Ideal.ofBits .f32 0x3727C5AC#32) :=
  (shapeCast_a_1a_apply _ _ (0 : Fin 1) k).trans rfl

/-- Layer 2, first normalisation: the bias row at (0, k) is (b k - m k) * (g k * rsqrt (v k + ε)) + β k. -/
theorem bias1_row2 (x7 x8 x9 x10 x11 : (⟨S3x256, .f32⟩ : BufTy).Contents (Elt Ideal)) (k : Fin 256) :
    shapeCast Cert.KernelIdeal.S1x256
        (addf (F := Ideal) (φ := .f32) (mulf (F := Ideal) (φ := .f32) (subf (F := Ideal) (φ := .f32) (ReadP.val_main_v182 (F := Ideal) x7) (ReadP.val_main_v191 (F := Ideal) x10)) (ReadP.val_main_v200 (F := Ideal) x8 x11)) (ReadP.val_main_v189 (F := Ideal) x9))
        Cert.KernelIdeal.Facts₀.shapeCasts_S256_S1x256 (ix2 (0 : Fin 1) k)
      = (ReadP.val_main_v182 (F := Ideal) x7 (ix1 k) - ReadP.val_main_v191 (F := Ideal) x10 (ix1 k))
          * (ReadP.val_main_v187 (F := Ideal) x8 (ix1 k) * Ideal.rsqrt (ReadP.val_main_v193 (F := Ideal) x11 (ix1 k) + Ideal.ofBits .f32 0x3727C5AC#32))
          + ReadP.val_main_v189 (F := Ideal) x9 (ix1 k) :=
  (shapeCast_a_1a_apply _ _ (0 : Fin 1) k).trans rfl

/-- Layer 2, second normalisation: the scale row at (0, q) is g q * rsqrt (v q + ε). -/
theorem scale2_row2 (x14 x17 : (⟨S3x128, .f32⟩ : BufTy).Contents (Elt Ideal)) (q : Fin 128) :
    shapeCast Cert.KernelIdeal.S1x128 (ReadP.val_main_v230 (F := Ideal) x14 x17) Cert.KernelIdeal.Facts₀.shapeCasts_S128_S1x128 (ix2 (0 : Fin 1) q)
      = ReadP.val_main_v217 (F := Ideal) x14 (ix1 q) * Ideal.rsqrt (ReadP.val_main_v223 (F := Ideal) x17 (ix1 q) + Ideal.ofBits .f32 0x3727C5AC#32) :=
  (shapeCast_a_1a_apply _ _ (0 : Fin 1) q).trans rfl

/-- Layer 2, second normalisation: the bias row at (0, q) is (b q - m q) * (g q * rsqrt (v q + ε)) + β q. -/
theorem bias2_row2 (x13 x14 x15 x16 x17 : (⟨S3x128, .f32⟩ : BufTy).Contents (Elt Ideal)) (q : Fin 128) :
    shapeCast Cert.KernelIdeal.S1x128
        (addf (F := Ideal) (φ := .f32) (mulf (F := Ideal) (φ := .f32) (subf (F := Ideal) (φ := .f32) (ReadP.val_main_v212 (F := Ideal) x13) (ReadP.val_main_v221 (F := Ideal) x16)) (ReadP.val_main_v230 (F := Ideal) x14 x17)) (ReadP.val_main_v219 (F := Ideal) x15))
        Cert.KernelIdeal.Facts₀.shapeCasts_S128_S1x128 (ix2 (0 : Fin 1) q)
      = (ReadP.val_main_v212 (F := Ideal) x13 (ix1 q) - ReadP.val_main_v221 (F := Ideal) x16 (ix1 q))
          * (ReadP.val_main_v217 (F := Ideal) x14 (ix1 q) * Ideal.rsqrt (ReadP.val_main_v223 (F := Ideal) x17 (ix1 q) + Ideal.ofBits .f32 0x3727C5AC#32))
          + ReadP.val_main_v219 (F := Ideal) x15 (ix1 q) :=
  (shapeCast_a_1a_apply _ _ (0 : Fin 1) q).trans rfl

/-- Layer 2: the [1, 1] array holding 1 + eps has the scalar as its one entry (both row-major positions are 0). -/
theorem coef_row2 (x5 : (⟨S3, .f32⟩ : BufTy).Contents (Elt Ideal)) :
    shapeCast Cert.KernelIdeal.S1x1 (ReadP.val_main_v174 (F := Ideal) x5) Cert.KernelIdeal.Facts₀.shapeCasts_S_S1x1 (ix2 (0 : Fin 1) (0 : Fin 1))
      = ReadP.val_main_v174 (F := Ideal) x5 ix0 :=
  shapeCast_apply _ _ _ _ (by
    rw [Shape.rowMajor_val_two]
    have h := ((⟨0, ![]⟩ : Shape).rowMajor ix0).isLt
    have e : (⟨0, ![]⟩ : Shape).numel = 1 := by decide
    show ((⟨0, ![]⟩ : Shape).rowMajor ix0).val = 0 * 1 + 0
    omega)

end Cert.Bridge.Rows

end
-- ==== Proof.Bridge.lean ====
/-
  The idealized kernel's result array is the reference's last stage of the arguments.

  For one device, launch by launch, with the reference's stages read at the program's arguments:
  * the embedding launch's output array IS the reference's embedded features `x W₀ + b₀`: both are, row by row, `embedRow`;
  * each GIN launch's output array IS the reference's layer output. The launch takes the previous features, their neighbour
    sum and FOLDED normalisation rows; the reference normalises the biased pre-activations. The neighbour sums agree because
    they are the same gather and scatter-add of the same features; the two spellings of the update agree by
    `GinSpec.ginRow_fold`, whose hypotheses — real bias, mean and gain, a non-negative real variance, a positive real ε — are the
    precondition's conjuncts read at the layer's parameter rows;
  * the read-out launch's output array IS the reference's result: the pooled features are the same scatter-add of the same
    last features, and both sides are, row by row, `readoutRow`.
  The precondition's conjuncts enter as hypotheses on the argument arrays (`h7` … `h17`).
-/
import proofs.«156994_j78795470012791_1_alg».proof.Proof.HostChain
import proofs.«156994_j78795470012791_1_alg».proof.Proof.Region0
import proofs.«156994_j78795470012791_1_alg».proof.Proof.Region1
import proofs.«156994_j78795470012791_1_alg».proof.Proof.Region2
import proofs.«156994_j78795470012791_1_alg».proof.Proof.Region3
import proofs.«156994_j78795470012791_1_alg».proof.Proof.Region4
import proofs.«156994_j78795470012791_1_alg».proof.Proof.RefEmbed
import proofs.«156994_j78795470012791_1_alg».proof.Proof.RefLayer0
import proofs.«156994_j78795470012791_1_alg».proof.Proof.RefLayer1
import proofs.«156994_j78795470012791_1_alg».proof.Proof.RefLayer2
import proofs.«156994_j78795470012791_1_alg».proof.Proof.RefReadout
import proofs.«156994_j78795470012791_1_alg».proof.Proof.RefParams
import proofs.«156994_j78795470012791_1_alg».proof.Proof.ParamRows
import Idealize.ShloMosaic.Lib.ValueLayout

set_option maxRecDepth 16384

noncomputable section

namespace Cert.Bridge

open Cert.KernelIdeal Cert.KernelIdeal.Gen Cert.KernelIdeal.HostChain Cert.KernelIdeal.RegionValue
open Cert.ReferenceIdeal.ReadP Cert.ReferenceIdeal.RefValue Cert.Bridge.Rows
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The embedding launch's output is the reference's embedded features. -/
theorem embed_eq : W2 m ρ c (Proc.devRef .tc main_v5) = val_main_v7 (F := Ideal) (m ((c : Thread nD τ).loc main_arg0)) (m ((c : Thread nD τ).loc main_arg3)) (m ((c : Thread nD τ).loc main_arg4)) := by
  funext i
  obtain ⟨r, q, rfl⟩ : ∃ (r : Fin 100000) (q : Fin 128), i = ix2 r q := ⟨i 0, i 1, eq_ix2 i⟩
  have hW : W2 m ρ c (Proc.devRef .tc main_v5) = (dat0 (V1 m ρ) c).arrAt 3 cfg0.N := W2_arr m ρ c 3
  rw [hW, region0_value (V := V1 m ρ) c r q, embed_apply, V1_x, V1_w0, V1_biasRow]
  congr 1
  funext q'
  exact shapeCast_a_1a_apply _ _ (0 : Fin 1) q'

section Layers

variable (h7 : ∀ i, ∃ r : ℝ, ((m ((c : Thread nD τ).loc main_arg7)) : FVec Ideal S3x256 .f32) i = (r : EReal))
  (h8 : ∀ i, ∃ r : ℝ, ((m ((c : Thread nD τ).loc main_arg8)) : FVec Ideal S3x256 .f32) i = (r : EReal))
  (h10 : ∀ i, ∃ r : ℝ, ((m ((c : Thread nD τ).loc main_arg10)) : FVec Ideal S3x256 .f32) i = (r : EReal))
  (h11 : ∀ i, ∃ r : ℝ, 0 ≤ r ∧ ((m ((c : Thread nD τ).loc main_arg11)) : FVec Ideal S3x256 .f32) i = (r : EReal))
  (h13 : ∀ i, ∃ r : ℝ, ((m ((c : Thread nD τ).loc main_arg13)) : FVec Ideal S3x128 .f32) i = (r : EReal))
  (h14 : ∀ i, ∃ r : ℝ, ((m ((c : Thread nD τ).loc main_arg14)) : FVec Ideal S3x128 .f32) i = (r : EReal))
  (h16 : ∀ i, ∃ r : ℝ, ((m ((c : Thread nD τ).loc main_arg16)) : FVec Ideal S3x128 .f32) i = (r : EReal))
  (h17 : ∀ i, ∃ r : ℝ, 0 ≤ r ∧ ((m ((c : Thread nD τ).loc main_arg17)) : FVec Ideal S3x128 .f32) i = (r : EReal))
include h7 h8 h10 h11 h13 h14 h16 h17

/-- GIN launch 1's output is the reference's layer-0 output, given that its input features are the reference's. -/
theorem layer0_eq (hprev : W2 m ρ c (Proc.devRef .tc main_v5) = val_main_v7 (F := Ideal) (m ((c : Thread nD τ).loc main_arg0)) (m ((c : Thread nD τ).loc main_arg3)) (m ((c : Thread nD τ).loc main_arg4))) :
    W4 m ρ c (Proc.devRef .tc main_v62) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨r, q, rfl⟩ : ∃ (r : Fin 100000) (q : Fin 128), i = ix2 r q := ⟨i 0, i 1, eq_ix2 i⟩
  have hW : W4 m ρ c (Proc.devRef .tc main_v62) = (dat1 (V3 m ρ) c).arrAt 9 cfg1.N := W4_arr m ρ c 9
  have haggr : V3 m ρ c main_v15 = val_main_v17 (F := Ideal) (m ((c : Thread nD τ).loc main_arg0)) (m ((c : Thread nD τ).loc main_arg1)) (m ((c : Thread nD τ).loc main_arg3)) (m ((c : Thread nD τ).loc main_arg4)) := by
    rw [V3_aggr, hprev]; rfl
  rw [hW, region1_value (V := V3 m ρ) c r q, layer0_apply,
    Cert.GinSpec.ginRow_fold _ _ _ _ _ _ _ _ _ _ _ _ _ _ _ _ Cert.BnFold.eps_pos
      (b1_real0 (m ((c : Thread nD τ).loc main_arg7)) h7) (m1_real0 (m ((c : Thread nD τ).loc main_arg10)) h10) (g1_real0 (m ((c : Thread nD τ).loc main_arg8)) h8) (v1_real0 (m ((c : Thread nD τ).loc main_arg11)) h11)
      (b2_real0 (m ((c : Thread nD τ).loc main_arg13)) h13) (m2_real0 (m ((c : Thread nD τ).loc main_arg16)) h16) (g2_real0 (m ((c : Thread nD τ).loc main_arg14)) h14) (v2_real0 (m ((c : Thread nD τ).loc main_arg17)) h17) q,
    V3_feat, hprev, haggr, V3_coef, V3_w1, V3_scale1, V3_bias1, V3_w2, V3_scale2, V3_bias2]
  simp only [bias1_row0, bias2_row0]
  congr 1 <;> first
    | exact coef_row0 _
    | (funext k; exact scale1_row0 _ _ k)
    | (funext k; exact scale2_row0 _ _ k)

/-- GIN launch 2's output is the reference's layer-1 output, given that its input features are the reference's. -/
theorem layer1_eq (hprev : W4 m ρ c (Proc.devRef .tc main_v62) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :
    W6 m ρ c (Proc.devRef .tc main_v119) = val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨r, q, rfl⟩ : ∃ (r : Fin 100000) (q : Fin 128), i = ix2 r q := ⟨i 0, i 1, eq_ix2 i⟩
  have hW : W6 m ρ c (Proc.devRef .tc main_v119) = (dat2 (V5 m ρ) c).arrAt 9 cfg2.N := W6_arr m ρ c 9
  have haggr : V5 m ρ c main_v72 = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
    rw [V5_aggr, hprev]; rfl
  rw [hW, region2_value (V := V5 m ρ) c r q, layer1_apply,
    Cert.GinSpec.ginRow_fold _ _ _ _ _ _ _ _ _ _ _ _ _ _ _ _ Cert.BnFold.eps_pos
      (b1_real1 (m ((c : Thread nD τ).loc main_arg7)) h7) (m1_real1 (m ((c : Thread nD τ).loc main_arg10)) h10) (g1_real1 (m ((c : Thread nD τ).loc main_arg8)) h8) (v1_real1 (m ((c : Thread nD τ).loc main_arg11)) h11)
      (b2_real1 (m ((c : Thread nD τ).loc main_arg13)) h13) (m2_real1 (m ((c : Thread nD τ).loc main_arg16)) h16) (g2_real1 (m ((c : Thread nD τ).loc main_arg14)) h14) (v2_real1 (m ((c : Thread nD τ).loc main_arg17)) h17) q,
    V5_feat, hprev, haggr, V5_coef, V5_w1, V5_scale1, V5_bias1, V5_w2, V5_scale2, V5_bias2]
  simp only [bias1_row1, bias2_row1]
  congr 1 <;> first
    | exact coef_row1 _
    | (funext k; exact scale1_row1 _ _ k)
    | (funext k; exact scale2_row1 _ _ k)

/-- GIN launch 3's output is the reference's layer-2 output, given that its input features are the reference's. -/
theorem layer2_eq (hprev : W6 m ρ c (Proc.devRef .tc main_v119) = val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :
    W8 m ρ c (Proc.devRef .tc main_v176) = val_main_v238 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨r, q, rfl⟩ : ∃ (r : Fin 100000) (q : Fin 128), i = ix2 r q := ⟨i 0, i 1, eq_ix2 i⟩
  have hW : W8 m ρ c (Proc.devRef .tc main_v176) = (dat3 (V7 m ρ) c).arrAt 9 cfg3.N := W8_arr m ρ c 9
  have haggr : V7 m ρ c main_v129 = val_main_v171 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
    rw [V7_aggr, hprev]; rfl
  rw [hW, region3_value (V := V7 m ρ) c r q, layer2_apply,
    Cert.GinSpec.ginRow_fold _ _ _ _ _ _ _ _ _ _ _ _ _ _ _ _ Cert.BnFold.eps_pos
      (b1_real2 (m ((c : Thread nD τ).loc main_arg7)) h7) (m1_real2 (m ((c : Thread nD τ).loc main_arg10)) h10) (g1_real2 (m ((c : Thread nD τ).loc main_arg8)) h8) (v1_real2 (m ((c : Thread nD τ).loc main_arg11)) h11)
      (b2_real2 (m ((c : Thread nD τ).loc main_arg13)) h13) (m2_real2 (m ((c : Thread nD τ).loc main_arg16)) h16) (g2_real2 (m ((c : Thread nD τ).loc main_arg14)) h14) (v2_real2 (m ((c : Thread nD τ).loc main_arg17)) h17) q,
    V7_feat, hprev, haggr, V7_coef, V7_w1, V7_scale1, V7_bias1, V7_w2, V7_scale2, V7_bias2]
  simp only [bias1_row2, bias2_row2]
  congr 1 <;> first
    | exact coef_row2 _
    | (funext k; exact scale1_row2 _ _ k)
    | (funext k; exact scale2_row2 _ _ k)

/-- The three GIN launches in sequence: the last one's output is the reference's last layer output. -/
theorem layers_eq : W8 m ρ c (Proc.devRef .tc main_v176) = val_main_v238 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  layer2_eq m ρ c h7 h8 h10 h11 h13 h14 h16 h17 (layer1_eq m ρ c h7 h8 h10 h11 h13 h14 h16 h17
    (layer0_eq m ρ c h7 h8 h10 h11 h13 h14 h16 h17 (embed_eq m ρ c)))

end Layers

/-- The read-out launch's output is the reference's result, given that the last features are the reference's. -/
theorem readout_eq (hprev : W8 m ρ c (Proc.devRef .tc main_v176) = val_main_v238 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :
    W10 m ρ c (Proc.devRef .tc main_v183) = val_main_v255 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  funext i
  obtain ⟨g, q, rfl⟩ : ∃ (g : Fin 512) (q : Fin 3), i = ix2 g q := ⟨i 0, i 1, eq_ix2 i⟩
  have hW : W10 m ρ c (Proc.devRef .tc main_v183) = (dat4 (V9 m ρ) c).arrAt 7 cfg4.N := W10_arr m ρ c 7
  have hpool : V9 m ρ c main_v179 = val_main_v241 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
    rw [V9_pool, hprev]; rfl
  rw [hW, region4_value (V := V9 m ρ) c g q, readout_apply, hpool, V9_wa, V9_ba, V9_wb, V9_bb, V9_wc, V9_bc]
  congr 1 <;> (funext j; exact shapeCast_a_1a_apply _ _ (0 : Fin 1) j)

end Cert.Bridge

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefFoldTable.lean ====
/- The reference program is a straight line of 291 host operations in single-assignment form: the k-th operation writes the k-th
   reference of `ws` and nothing else, and reads only arguments and earlier results. So the contents the whole line leaves (the fold
   `Wf`) satisfy every operation's own equation — at its result, the operation's function of the fold at its operands
   (Proof/LibAfterAssign.lean) — and, taken in program order, each result buffer ends at its STAGE `ReadP.val_…` of the arguments:
   the operands are rewritten by the cases already obtained and the stage's definition is that very application. No composed
   term of the arguments is ever formed. One case per operation; an argument buffer, which no operation writes, ends as launched. -/
import proofs.«156994_j78795470012791_1_alg».proof.Proof.RefRunP
import proofs.«156994_j78795470012791_1_alg».proof.Proof.RefReadP
import proofs.«156994_j78795470012791_1_alg».proof.Proof.LibAfterAssign

set_option maxRecDepth 32768

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.Lib.AfterAssign

/-- The references the 291 operations write, in program order. -/
def ws : List (Ref sig .tc) :=
  [main_v0, main_v1, main_v2, main_v3, main_v4, main_v5, main_v6, main_v7, main_c, main_v8, main_v9, main_c_0, main_v10, main_v11, main_v12, main_v13, main_v14, main_cst, main_v15, main_v16, main_v17, main_v18, main_v19, main_cst_1, main_v20, main_v21, main_v22, main_v23, main_v24, main_v25, main_v26, main_v27, main_v28, main_v29, main_v30, main_v31, main_v32, main_v33, main_v34, main_v35, main_v36, main_v37, main_v38, main_v39, main_v40, main_v41, main_v42, main_cst_2, main_v43, main_v44, main_v45, main_v46, main_v47, main_v48, main_v49, main_v50, main_v51, main_v52, main_call0_cst, main_call0_v0, main_v53, main_v54, main_v55, main_v56, main_v57, main_v58, main_v59, main_v60, main_v61, main_v62, main_v63, main_v64, main_v65, main_v66, main_v67, main_v68, main_v69, main_v70, main_v71, main_v72, main_cst_3, main_v73, main_v74, main_v75, main_v76, main_v77, main_v78, main_v79, main_v80, main_v81, main_v82, main_call1_cst, main_call1_v0, main_v83, main_v84, main_c_4, main_v85, main_v86, main_c_5, main_v87, main_v88, main_v89, main_v90, main_v91, main_cst_6, main_v92, main_v93, main_v94, main_v95, main_v96, main_cst_7, main_v97, main_v98, main_v99, main_v100, main_v101, main_v102, main_v103, main_v104, main_v105, main_v106, main_v107, main_v108, main_v109, main_v110, main_v111, main_v112, main_v113, main_v114, main_v115, main_v116, main_v117, main_v118, main_v119, main_cst_8, main_v120, main_v121, main_v122, main_v123, main_v124, main_v125, main_v126, main_v127, main_v128, main_v129, main_call2_cst, main_call2_v0, main_v130, main_v131, main_v132, main_v133, main_v134, main_v135, main_v136, main_v137, main_v138, main_v139, main_v140, main_v141, main_v142, main_v143, main_v144, main_v145, main_v146, main_v147, main_v148, main_v149, main_cst_9, main_v150, main_v151, main_v152, main_v153, main_v154, main_v155, main_v156, main_v157, main_v158, main_v159, main_call3_cst, main_call3_v0, main_v160, main_v161, main_c_10, main_v162, main_v163, main_c_11, main_v164, main_v165, main_v166, main_v167, main_v168, main_cst_12, main_v169, main_v170, main_v171, main_v172, main_v173, main_cst_13, main_v174, main_v175, main_v176, main_v177, main_v178, main_v179, main_v180, main_v181, main_v182, main_v183, main_v184, main_v185, main_v186, main_v187, main_v188, main_v189, main_v190, main_v191, main_v192, main_v193, main_v194, main_v195, main_v196, main_cst_14, main_v197, main_v198, main_v199, main_v200, main_v201, main_v202, main_v203, main_v204, main_v205, main_v206, main_call4_cst, main_call4_v0, main_v207, main_v208, main_v209, main_v210, main_v211, main_v212, main_v213, main_v214, main_v215, main_v216, main_v217, main_v218, main_v219, main_v220, main_v221, main_v222, main_v223, main_v224, main_v225, main_v226, main_cst_15, main_v227, main_v228, main_v229, main_v230, main_v231, main_v232, main_v233, main_v234, main_v235, main_v236, main_call5_cst, main_call5_v0, main_v237, main_v238, main_cst_16, main_v239, main_v240, main_v241, main_v242, main_v243, main_v244, main_v245, main_call6_cst, main_call6_v0, main_v246, main_v247, main_v248, main_v249, main_v250, main_call7_cst, main_call7_v0, main_v251, main_v252, main_v253, main_v254, main_v255]

/-- The line is in single-assignment form over `ws`. -/
theorem hW : WritesAre (ops (F := Ideal)) ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (m : (ℓ : Loc nD τ sig) → Buf (Elt Ideal) ℓ) (c : Dev nD)

-- what the whole line leaves in every buffer of device `c`, from the launch contents
local notation "Wf" => after (ops (F := Ideal)) (launchContents m c)

/-! ## The arguments: no operation writes them -/

theorem fold_arg0 : Wf (Proc.devRef .tc main_arg0) = m ((c.tc : Thread nD τ).loc main_arg0) :=
  after_of_not_written hW _ (by decide)
theorem fold_arg1 : Wf (Proc.devRef .tc main_arg1) = m ((c.tc : Thread nD τ).loc main_arg1) :=
  after_of_not_written hW _ (by decide)
theorem fold_arg2 : Wf (Proc.devRef .tc main_arg2) = m ((c.tc : Thread nD τ).loc main_arg2) :=
  after_of_not_written hW _ (by decide)
theorem fold_arg3 : Wf (Proc.devRef .tc main_arg3) = m ((c.tc : Thread nD τ).loc main_arg3) :=
  after_of_not_written hW _ (by decide)
theorem fold_arg4 : Wf (Proc.devRef .tc main_arg4) = m ((c.tc : Thread nD τ).loc main_arg4) :=
  after_of_not_written hW _ (by decide)
theorem fold_arg5 : Wf (Proc.devRef .tc main_arg5) = m ((c.tc : Thread nD τ).loc main_arg5) :=
  after_of_not_written hW _ (by decide)
theorem fold_arg6 : Wf (Proc.devRef .tc main_arg6) = m ((c.tc : Thread nD τ).loc main_arg6) :=
  after_of_not_written hW _ (by decide)
theorem fold_arg7 : Wf (Proc.devRef .tc main_arg7) = m ((c.tc : Thread nD τ).loc main_arg7) :=
  after_of_not_written hW _ (by decide)
theorem fold_arg8 : Wf (Proc.devRef .tc main_arg8) = m ((c.tc : Thread nD τ).loc main_arg8) :=
  after_of_not_written hW _ (by decide)
theorem fold_arg9 : Wf (Proc.devRef .tc main_arg9) = m ((c.tc : Thread nD τ).loc main_arg9) :=
  after_of_not_written hW _ (by decide)
theorem fold_arg10 : Wf (Proc.devRef .tc main_arg10) = m ((c.tc : Thread nD τ).loc main_arg10) :=
  after_of_not_written hW _ (by decide)
theorem fold_arg11 : Wf (Proc.devRef .tc main_arg11) = m ((c.tc : Thread nD τ).loc main_arg11) :=
  after_of_not_written hW _ (by decide)
theorem fold_arg12 : Wf (Proc.devRef .tc main_arg12) = m ((c.tc : Thread nD τ).loc main_arg12) :=
  after_of_not_written hW _ (by decide)
theorem fold_arg13 : Wf (Proc.devRef .tc main_arg13) = m ((c.tc : Thread nD τ).loc main_arg13) :=
  after_of_not_written hW _ (by decide)
theorem fold_arg14 : Wf (Proc.devRef .tc main_arg14) = m ((c.tc : Thread nD τ).loc main_arg14) :=
  after_of_not_written hW _ (by decide)
theorem fold_arg15 : Wf (Proc.devRef .tc main_arg15) = m ((c.tc : Thread nD τ).loc main_arg15) :=
  after_of_not_written hW _ (by decide)
theorem fold_arg16 : Wf (Proc.devRef .tc main_arg16) = m ((c.tc : Thread nD τ).loc main_arg16) :=
  after_of_not_written hW _ (by decide)
theorem fold_arg17 : Wf (Proc.devRef .tc main_arg17) = m ((c.tc : Thread nD τ).loc main_arg17) :=
  after_of_not_written hW _ (by decide)
theorem fold_arg18 : Wf (Proc.devRef .tc main_arg18) = m ((c.tc : Thread nD τ).loc main_arg18) :=
  after_of_not_written hW _ (by decide)
theorem fold_arg19 : Wf (Proc.devRef .tc main_arg19) = m ((c.tc : Thread nD τ).loc main_arg19) :=
  after_of_not_written hW _ (by decide)
theorem fold_arg20 : Wf (Proc.devRef .tc main_arg20) = m ((c.tc : Thread nD τ).loc main_arg20) :=
  after_of_not_written hW _ (by decide)
theorem fold_arg21 : Wf (Proc.devRef .tc main_arg21) = m ((c.tc : Thread nD τ).loc main_arg21) :=
  after_of_not_written hW _ (by decide)
theorem fold_arg22 : Wf (Proc.devRef .tc main_arg22) = m ((c.tc : Thread nD τ).loc main_arg22) :=
  after_of_not_written hW _ (by decide)
theorem fold_arg23 : Wf (Proc.devRef .tc main_arg23) = m ((c.tc : Thread nD τ).loc main_arg23) :=
  after_of_not_written hW _ (by decide)

/-! ## The operations, in program order -/

theorem fold_main_v0 : Wf (Proc.devRef .tc main_v0) = val_main_v0 (F := Ideal) (m ((c.tc : Thread nD τ).loc main_arg1)) := by
  rw [after_unary hW 0 rfl _ (by decide) (by decide), fold_arg1 m c]; rfl
theorem fold_main_v1 : Wf (Proc.devRef .tc main_v1) = val_main_v1 (F := Ideal) (m ((c.tc : Thread nD τ).loc main_arg1)) := by
  rw [after_reshape hW 1 rfl _ (by decide) (by decide), fold_main_v0 m c]; rfl
theorem fold_main_v2 : Wf (Proc.devRef .tc main_v2) = val_main_v2 (F := Ideal) (m ((c.tc : Thread nD τ).loc main_arg1)) := by
  rw [after_unary hW 2 rfl _ (by decide) (by decide), fold_arg1 m c]; rfl
theorem fold_main_v3 : Wf (Proc.devRef .tc main_v3) = val_main_v3 (F := Ideal) (m ((c.tc : Thread nD τ).loc main_arg1)) := by
  rw [after_reshape hW 3 rfl _ (by decide) (by decide), fold_main_v2 m c]; rfl
theorem fold_main_v4 : Wf (Proc.devRef .tc main_v4) = val_main_v4 (F := Ideal) (m ((c.tc : Thread nD τ).loc main_arg0)) (m ((c.tc : Thread nD τ).loc main_arg3)) := by
  rw [after_binary hW 4 rfl _ (by decide) (by decide) (by decide), fold_arg0 m c, fold_arg3 m c]; rfl
theorem fold_main_v5 : Wf (Proc.devRef .tc main_v5) = val_main_v5 (F := Ideal) (m ((c.tc : Thread nD τ).loc main_arg4)) := by
  rw [after_unary hW 5 rfl _ (by decide) (by decide), fold_arg4 m c]; rfl
theorem fold_main_v6 : Wf (Proc.devRef .tc main_v6) = val_main_v6 (F := Ideal) (m ((c.tc : Thread nD τ).loc main_arg4)) := by
  rw [after_unary hW 6 rfl _ (by decide) (by decide), fold_main_v5 m c]; rfl
theorem fold_main_v7 : Wf (Proc.devRef .tc main_v7) = val_main_v7 (F := Ideal) (m ((c.tc : Thread nD τ).loc main_arg0)) (m ((c.tc : Thread nD τ).loc main_arg3)) (m ((c.tc : Thread nD τ).loc main_arg4)) := by
  rw [after_binary hW 7 rfl _ (by decide) (by decide) (by decide), fold_main_v4 m c, fold_main_v6 m c]; rfl
theorem fold_main_c : Wf (Proc.devRef .tc main_c) = val_main_c (F := Ideal) := by
  rw [after_nullary hW 8 rfl _ (by decide)]; rfl
theorem fold_main_v8 : Wf (Proc.devRef .tc main_v8) = val_main_v8 (F := Ideal) := by
  rw [after_unary hW 9 rfl _ (by decide) (by decide), fold_main_c m c]; rfl
theorem fold_main_v9 : Wf (Proc.devRef .tc main_v9) = val_main_v9 (F := Ideal) (m ((c.tc : Thread nD τ).loc main_arg1)) := by
  rw [after_binary hW 10 rfl _ (by decide) (by decide) (by decide), fold_main_v1 m c, fold_main_v8 m c]; rfl
theorem fold_main_c_0 : Wf (Proc.devRef .tc main_c_0) = val_main_c_0 (F := Ideal) := by
  rw [after_nullary hW 11 rfl _ (by decide)]; rfl
theorem fold_main_v10 : Wf (Proc.devRef .tc main_v10) = val_main_v10 (F := Ideal) := by
  rw [after_unary hW 12 rfl _ (by decide) (by decide), fold_main_c_0 m c]; rfl
theorem fold_main_v11 : Wf (Proc.devRef .tc main_v11) = val_main_v11 (F := Ideal) (m ((c.tc : Thread nD τ).loc main_arg1)) := by
  rw [after_binary hW 13 rfl _ (by decide) (by decide) (by decide), fold_main_v1 m c, fold_main_v10 m c]; rfl
theorem fold_main_v12 : Wf (Proc.devRef .tc main_v12) = val_main_v12 (F := Ideal) (m ((c.tc : Thread nD τ).loc main_arg1)) := by
  rw [after_ternary hW 14 rfl _ (by decide) (by decide) (by decide) (by decide), fold_main_v9 m c, fold_main_v11 m c, fold_main_v1 m c]; rfl
theorem fold_main_v13 : Wf (Proc.devRef .tc main_v13) = val_main_v13 (F := Ideal) (m ((c.tc : Thread nD τ).loc main_arg1)) := by
  rw [after_unary hW 15 rfl _ (by decide) (by decide), fold_main_v12 m c]; rfl
theorem fold_main_v14 : Wf (Proc.devRef .tc main_v14) = val_main_v14 (F := Ideal) (m ((c.tc : Thread nD τ).loc main_arg0)) (m ((c.tc : Thread nD τ).loc main_arg1)) (m ((c.tc : Thread nD τ).loc main_arg3)) (m ((c.tc : Thread nD τ).loc main_arg4)) := by
  rw [after_binary hW 16 rfl _ (by decide) (by decide) (by decide), fold_main_v7 m c, fold_main_v13 m c]; rfl
theorem fold_main_cst : Wf (Proc.devRef .tc main_cst) = val_main_cst (F := Ideal) := by
  rw [after_nullary hW 17 rfl _ (by decide)]; rfl
theorem fold_main_v15 : Wf (Proc.devRef .tc main_v15) = val_main_v15 (F := Ideal) := by
  rw [after_unary hW 18 rfl _ (by decide) (by decide), fold_main_cst m c]; rfl
theorem fold_main_v16 : Wf (Proc.devRef .tc main_v16) = val_main_v16 (F := Ideal) (m ((c.tc : Thread nD τ).loc main_arg1)) := by
  rw [after_unary hW 19 rfl _ (by decide) (by decide), fold_main_v3 m c]; rfl
theorem fold_main_v17 : Wf (Proc.devRef .tc main_v17) = val_main_v17 (F := Ideal) (m ((c.tc : Thread nD τ).loc main_arg0)) (m ((c.tc : Thread nD τ).loc main_arg1)) (m ((c.tc : Thread nD τ).loc main_arg3)) (m ((c.tc : Thread nD τ).loc main_arg4)) := by
  rw [after_ternary hW 20 rfl _ (by decide) (by decide) (by decide) (by decide), fold_main_v15 m c, fold_main_v16 m c, fold_main_v14 m c]; rfl
theorem fold_main_v18 : Wf (Proc.devRef .tc main_v18) = val_main_v18 (F := Ideal) (m ((c.tc : Thread nD τ).loc main_arg5)) := by
  rw [after_unary hW 21 rfl _ (by decide) (by decide), fold_arg5 m c]; rfl
theorem fold_main_v19 : Wf (Proc.devRef .tc main_v19) = val_main_v19 (F := Ideal) (m ((c.tc : Thread nD τ).loc main_arg5)) := by
  rw [after_reshape hW 22 rfl _ (by decide) (by decide), fold_main_v18 m c]; rfl
theorem fold_main_cst_1 : Wf (Proc.devRef .tc main_cst_1) = val_main_cst_1 (F := Ideal) := by
  rw [after_nullary hW 23 rfl _ (by decide)]; rfl
theorem fold_main_v20 : Wf (Proc.devRef .tc main_v20) = val_main_v20 (F := Ideal) (m ((c.tc : Thread nD τ).loc main_arg5)) := by
  rw [after_binary hW 24 rfl _ (by decide) (by decide) (by decide), fold_main_cst_1 m c, fold_main_v19 m c]; rfl
theorem fold_main_v21 : Wf (Proc.devRef .tc main_v21) = val_main_v21 (F := Ideal) (m ((c.tc : Thread nD τ).loc main_arg5)) := by
  rw [after_unary hW 25 rfl _ (by decide) (by decide), fold_main_v20 m c]; rfl
theorem fold_main_v22 : Wf (Proc.devRef .tc main_v22) = val_main_v22 (F := Ideal) (m ((c.tc : Thread nD τ).loc main_arg0)) (m ((c.tc : Thread nD τ).loc main_arg3)) (m ((c.tc : Thread nD τ).loc main_arg4)) (m ((c.tc : Thread nD τ).loc main_arg5)) := by
  rw [after_binary hW 26 rfl _ (by decide) (by decide) (by decide), fold_main_v21 m c, fold_main_v7 m c]; rfl
theorem fold_main_v23 : Wf (Proc.devRef .tc main_v23) = val_main_v23 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  rw [after_binary hW 27 rfl _ (by decide) (by decide) (by decide), fold_main_v22 m c, fold_main_v17 m c]; rfl
theorem fold_main_v24 : Wf (Proc.devRef .tc main_v24) = val_main_v24 (F := Ideal) (m ((c.tc : Thread nD τ).loc main_arg6)) := by
  rw [after_unary hW 28 rfl _ (by decide) (by decide), fold_arg6 m c]; rfl
theorem fold_main_v25 : Wf (Proc.devRef .tc main_v25) = val_main_v25 (F := Ideal) (m ((c.tc : Thread nD τ).loc main_arg6)) := by
  rw [after_reshape hW 29 rfl _ (by decide) (by decide), fold_main_v24 m c]; rfl
theorem fold_main_v26 : Wf (Proc.devRef .tc main_v26) = val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [after_binary hW 30 rfl _ (by decide) (by decide) (by decide), fold_main_v23 m c, fold_main_v25 m c]; rfl
theorem fold_main_v27 : Wf (Proc.devRef .tc main_v27) = val_main_v27 (F := Ideal) (m ((c.tc : Thread nD τ).loc main_arg7)) := by
  rw [after_unary hW 31 rfl _ (by decide) (by decide), fold_arg7 m c]; rfl
theorem fold_main_v28 : Wf (Proc.devRef .tc main_v28) = val_main_v28 (F := Ideal) (m ((c.tc : Thread nD τ).loc main_arg7)) := by
  rw [after_reshape hW 32 rfl _ (by decide) (by decide), fold_main_v27 m c]; rfl
theorem fold_main_v29 : Wf (Proc.devRef .tc main_v29) = val_main_v29 (F := Ideal) (m ((c.tc : Thread nD τ).loc main_arg7)) := by
  rw [after_unary hW 33 rfl _ (by decide) (by decide), fold_main_v28 m c]; rfl
theorem fold_main_v30 : Wf (Proc.devRef .tc main_v30) = val_main_v30 (F := Ideal) (m ((c.tc : Thread nD τ).loc main_arg7)) := by
  rw [after_unary hW 34 rfl _ (by decide) (by decide), fold_main_v29 m c]; rfl
theorem fold_main_v31 : Wf (Proc.devRef .tc main_v31) = val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_binary hW 35 rfl _ (by decide) (by decide) (by decide), fold_main_v26 m c, fold_main_v30 m c]; rfl
theorem fold_main_v32 : Wf (Proc.devRef .tc main_v32) = val_main_v32 (F := Ideal) (m ((c.tc : Thread nD τ).loc main_arg8)) := by
  rw [after_unary hW 36 rfl _ (by decide) (by decide), fold_arg8 m c]; rfl
theorem fold_main_v33 : Wf (Proc.devRef .tc main_v33) = val_main_v33 (F := Ideal) (m ((c.tc : Thread nD τ).loc main_arg8)) := by
  rw [after_reshape hW 37 rfl _ (by decide) (by decide), fold_main_v32 m c]; rfl
theorem fold_main_v34 : Wf (Proc.devRef .tc main_v34) = val_main_v34 (F := Ideal) (m ((c.tc : Thread nD τ).loc main_arg9)) := by
  rw [after_unary hW 38 rfl _ (by decide) (by decide), fold_arg9 m c]; rfl
theorem fold_main_v35 : Wf (Proc.devRef .tc main_v35) = val_main_v35 (F := Ideal) (m ((c.tc : Thread nD τ).loc main_arg9)) := by
  rw [after_reshape hW 39 rfl _ (by decide) (by decide), fold_main_v34 m c]; rfl
theorem fold_main_v36 : Wf (Proc.devRef .tc main_v36) = val_main_v36 (F := Ideal) (m ((c.tc : Thread nD τ).loc main_arg10)) := by
  rw [after_unary hW 40 rfl _ (by decide) (by decide), fold_arg10 m c]; rfl
theorem fold_main_v37 : Wf (Proc.devRef .tc main_v37) = val_main_v37 (F := Ideal) (m ((c.tc : Thread nD τ).loc main_arg10)) := by
  rw [after_reshape hW 41 rfl _ (by decide) (by decide), fold_main_v36 m c]; rfl
theorem fold_main_v38 : Wf (Proc.devRef .tc main_v38) = val_main_v38 (F := Ideal) (m ((c.tc : Thread nD τ).loc main_arg11)) := by
  rw [after_unary hW 42 rfl _ (by decide) (by decide), fold_arg11 m c]; rfl
theorem fold_main_v39 : Wf (Proc.devRef .tc main_v39) = val_main_v39 (F := Ideal) (m ((c.tc : Thread nD τ).loc main_arg11)) := by
  rw [after_reshape hW 43 rfl _ (by decide) (by decide), fold_main_v38 m c]; rfl
theorem fold_main_v40 : Wf (Proc.devRef .tc main_v40) = val_main_v40 (F := Ideal) (m ((c.tc : Thread nD τ).loc main_arg10)) := by
  rw [after_unary hW 44 rfl _ (by decide) (by decide), fold_main_v37 m c]; rfl
theorem fold_main_v41 : Wf (Proc.devRef .tc main_v41) = val_main_v41 (F := Ideal) (m ((c.tc : Thread nD τ).loc main_arg10)) := by
  rw [after_unary hW 45 rfl _ (by decide) (by decide), fold_main_v40 m c]; rfl
theorem fold_main_v42 : Wf (Proc.devRef .tc main_v42) = val_main_v42 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  rw [after_binary hW 46 rfl _ (by decide) (by decide) (by decide), fold_main_v31 m c, fold_main_v41 m c]; rfl
theorem fold_main_cst_2 : Wf (Proc.devRef .tc main_cst_2) = val_main_cst_2 (F := Ideal) := by
  rw [after_nullary hW 47 rfl _ (by decide)]; rfl
theorem fold_main_v43 : Wf (Proc.devRef .tc main_v43) = val_main_v43 (F := Ideal) := by
  rw [after_unary hW 48 rfl _ (by decide) (by decide), fold_main_cst_2 m c]; rfl
theorem fold_main_v44 : Wf (Proc.devRef .tc main_v44) = val_main_v44 (F := Ideal) (m ((c.tc : Thread nD τ).loc main_arg11)) := by
  rw [after_binary hW 49 rfl _ (by decide) (by decide) (by decide), fold_main_v39 m c, fold_main_v43 m c]; rfl
theorem fold_main_v45 : Wf (Proc.devRef .tc main_v45) = val_main_v45 (F := Ideal) (m ((c.tc : Thread nD τ).loc main_arg11)) := by
  rw [after_unary hW 50 rfl _ (by decide) (by decide), fold_main_v44 m c]; rfl
theorem fold_main_v46 : Wf (Proc.devRef .tc main_v46) = val_main_v46 (F := Ideal) (m ((c.tc : Thread nD τ).loc main_arg8)) (m ((c.tc : Thread nD τ).loc main_arg11)) := by
  rw [after_binary hW 51 rfl _ (by decide) (by decide) (by decide), fold_main_v33 m c, fold_main_v45 m c]; rfl
theorem fold_main_v47 : Wf (Proc.devRef .tc main_v47) = val_main_v47 (F := Ideal) (m ((c.tc : Thread nD τ).loc main_arg8)) (m ((c.tc : Thread nD τ).loc main_arg11)) := by
  rw [after_unary hW 52 rfl _ (by decide) (by decide), fold_main_v46 m c]; rfl
theorem fold_main_v48 : Wf (Proc.devRef .tc main_v48) = val_main_v48 (F := Ideal) (m ((c.tc : Thread nD τ).loc main_arg8)) (m ((c.tc : Thread nD τ).loc main_arg11)) := by
  rw [after_unary hW 53 rfl _ (by decide) (by decide), fold_main_v47 m c]; rfl
theorem fold_main_v49 : Wf (Proc.devRef .tc main_v49) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) := by
  rw [after_binary hW 54 rfl _ (by decide) (by decide) (by decide), fold_main_v42 m c, fold_main_v48 m c]; rfl
theorem fold_main_v50 : Wf (Proc.devRef .tc main_v50) = val_main_v50 (F := Ideal) (m ((c.tc : Thread nD τ).loc main_arg9)) := by
  rw [after_unary hW 55 rfl _ (by decide) (by decide), fold_main_v35 m c]; rfl
theorem fold_main_v51 : Wf (Proc.devRef .tc main_v51) = val_main_v51 (F := Ideal) (m ((c.tc : Thread nD τ).loc main_arg9)) := by
  rw [after_unary hW 56 rfl _ (by decide) (by decide), fold_main_v50 m c]; rfl
theorem fold_main_v52 : Wf (Proc.devRef .tc main_v52) = val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_binary hW 57 rfl _ (by decide) (by decide) (by decide), fold_main_v49 m c, fold_main_v51 m c]; rfl
theorem fold_main_call0_cst : Wf (Proc.devRef .tc main_call0_cst) = val_main_call0_cst (F := Ideal) := by
  rw [after_nullary hW 58 rfl _ (by decide)]; rfl
theorem fold_main_call0_v0 : Wf (Proc.devRef .tc main_call0_v0) = val_main_call0_v0 (F := Ideal) := by
  rw [after_unary hW 59 rfl _ (by decide) (by decide), fold_main_call0_cst m c]; rfl
theorem fold_main_v53 : Wf (Proc.devRef .tc main_v53) = val_main_v53 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_binary hW 60 rfl _ (by decide) (by decide) (by decide), fold_main_v52 m c, fold_main_call0_v0 m c]; rfl
theorem fold_main_v54 : Wf (Proc.devRef .tc main_v54) = val_main_v54 (F := Ideal) (m ((c.tc : Thread nD τ).loc main_arg12)) := by
  rw [after_unary hW 61 rfl _ (by decide) (by decide), fold_arg12 m c]; rfl
theorem fold_main_v55 : Wf (Proc.devRef .tc main_v55) = val_main_v55 (F := Ideal) (m ((c.tc : Thread nD τ).loc main_arg12)) := by
  rw [after_reshape hW 62 rfl _ (by decide) (by decide), fold_main_v54 m c]; rfl
theorem fold_main_v56 : Wf (Proc.devRef .tc main_v56) = val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_binary hW 63 rfl _ (by decide) (by decide) (by decide), fold_main_v53 m c, fold_main_v55 m c]; rfl
theorem fold_main_v57 : Wf (Proc.devRef .tc main_v57) = val_main_v57 (F := Ideal) (m ((c.tc : Thread nD τ).loc main_arg13)) := by
  rw [after_unary hW 64 rfl _ (by decide) (by decide), fold_arg13 m c]; rfl
theorem fold_main_v58 : Wf (Proc.devRef .tc main_v58) = val_main_v58 (F := Ideal) (m ((c.tc : Thread nD τ).loc main_arg13)) := by
  rw [after_reshape hW 65 rfl _ (by decide) (by decide), fold_main_v57 m c]; rfl
theorem fold_main_v59 : Wf (Proc.devRef .tc main_v59) = val_main_v59 (F := Ideal) (m ((c.tc : Thread nD τ).loc main_arg13)) := by
  rw [after_unary hW 66 rfl _ (by decide) (by decide), fold_main_v58 m c]; rfl
theorem fold_main_v60 : Wf (Proc.devRef .tc main_v60) = val_main_v60 (F := Ideal) (m ((c.tc : Thread nD τ).loc main_arg13)) := by
  rw [after_unary hW 67 rfl _ (by decide) (by decide), fold_main_v59 m c]; rfl
theorem fold_main_v61 : Wf (Proc.devRef .tc main_v61) = val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary hW 68 rfl _ (by decide) (by decide) (by decide), fold_main_v56 m c, fold_main_v60 m c]; rfl
theorem fold_main_v62 : Wf (Proc.devRef .tc main_v62) = val_main_v62 (F := Ideal) (m ((c.tc : Thread nD τ).loc main_arg14)) := by
  rw [after_unary hW 69 rfl _ (by decide) (by decide), fold_arg14 m c]; rfl
theorem fold_main_v63 : Wf (Proc.devRef .tc main_v63) = val_main_v63 (F := Ideal) (m ((c.tc : Thread nD τ).loc main_arg14)) := by
  rw [after_reshape hW 70 rfl _ (by decide) (by decide), fold_main_v62 m c]; rfl
theorem fold_main_v64 : Wf (Proc.devRef .tc main_v64) = val_main_v64 (F := Ideal) (m ((c.tc : Thread nD τ).loc main_arg15)) := by
  rw [after_unary hW 71 rfl _ (by decide) (by decide), fold_arg15 m c]; rfl
theorem fold_main_v65 : Wf (Proc.devRef .tc main_v65) = val_main_v65 (F := Ideal) (m ((c.tc : Thread nD τ).loc main_arg15)) := by
  rw [after_reshape hW 72 rfl _ (by decide) (by decide), fold_main_v64 m c]; rfl
theorem fold_main_v66 : Wf (Proc.devRef .tc main_v66) = val_main_v66 (F := Ideal) (m ((c.tc : Thread nD τ).loc main_arg16)) := by
  rw [after_unary hW 73 rfl _ (by decide) (by decide), fold_arg16 m c]; rfl
theorem fold_main_v67 : Wf (Proc.devRef .tc main_v67) = val_main_v67 (F := Ideal) (m ((c.tc : Thread nD τ).loc main_arg16)) := by
  rw [after_reshape hW 74 rfl _ (by decide) (by decide), fold_main_v66 m c]; rfl
theorem fold_main_v68 : Wf (Proc.devRef .tc main_v68) = val_main_v68 (F := Ideal) (m ((c.tc : Thread nD τ).loc main_arg17)) := by
  rw [after_unary hW 75 rfl _ (by decide) (by decide), fold_arg17 m c]; rfl
theorem fold_main_v69 : Wf (Proc.devRef .tc main_v69) = val_main_v69 (F := Ideal) (m ((c.tc : Thread nD τ).loc main_arg17)) := by
  rw [after_reshape hW 76 rfl _ (by decide) (by decide), fold_main_v68 m c]; rfl
theorem fold_main_v70 : Wf (Proc.devRef .tc main_v70) = val_main_v70 (F := Ideal) (m ((c.tc : Thread nD τ).loc main_arg16)) := by
  rw [after_unary hW 77 rfl _ (by decide) (by decide), fold_main_v67 m c]; rfl
theorem fold_main_v71 : Wf (Proc.devRef .tc main_v71) = val_main_v71 (F := Ideal) (m ((c.tc : Thread nD τ).loc main_arg16)) := by
  rw [after_unary hW 78 rfl _ (by decide) (by decide), fold_main_v70 m c]; rfl
theorem fold_main_v72 : Wf (Proc.devRef .tc main_v72) = val_main_v72 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) := by
  rw [after_binary hW 79 rfl _ (by decide) (by decide) (by decide), fold_main_v61 m c, fold_main_v71 m c]; rfl
theorem fold_main_cst_3 : Wf (Proc.devRef .tc main_cst_3) = val_main_cst_3 (F := Ideal) := by
  rw [after_nullary hW 80 rfl _ (by decide)]; rfl
theorem fold_main_v73 : Wf (Proc.devRef .tc main_v73) = val_main_v73 (F := Ideal) := by
  rw [after_unary hW 81 rfl _ (by decide) (by decide), fold_main_cst_3 m c]; rfl
theorem fold_main_v74 : Wf (Proc.devRef .tc main_v74) = val_main_v74 (F := Ideal) (m ((c.tc : Thread nD τ).loc main_arg17)) := by
  rw [after_binary hW 82 rfl _ (by decide) (by decide) (by decide), fold_main_v69 m c, fold_main_v73 m c]; rfl
theorem fold_main_v75 : Wf (Proc.devRef .tc main_v75) = val_main_v75 (F := Ideal) (m ((c.tc : Thread nD τ).loc main_arg17)) := by
  rw [after_unary hW 83 rfl _ (by decide) (by decide), fold_main_v74 m c]; rfl
theorem fold_main_v76 : Wf (Proc.devRef .tc main_v76) = val_main_v76 (F := Ideal) (m ((c.tc : Thread nD τ).loc main_arg14)) (m ((c.tc : Thread nD τ).loc main_arg17)) := by
  rw [after_binary hW 84 rfl _ (by decide) (by decide) (by decide), fold_main_v63 m c, fold_main_v75 m c]; rfl
theorem fold_main_v77 : Wf (Proc.devRef .tc main_v77) = val_main_v77 (F := Ideal) (m ((c.tc : Thread nD τ).loc main_arg14)) (m ((c.tc : Thread nD τ).loc main_arg17)) := by
  rw [after_unary hW 85 rfl _ (by decide) (by decide), fold_main_v76 m c]; rfl
theorem fold_main_v78 : Wf (Proc.devRef .tc main_v78) = val_main_v78 (F := Ideal) (m ((c.tc : Thread nD τ).loc main_arg14)) (m ((c.tc : Thread nD τ).loc main_arg17)) := by
  rw [after_unary hW 86 rfl _ (by decide) (by decide), fold_main_v77 m c]; rfl
theorem fold_main_v79 : Wf (Proc.devRef .tc main_v79) = val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg16)) (m ((c.tc : Thread nD τ).loc main_arg17)) := by
  rw [after_binary hW 87 rfl _ (by decide) (by decide) (by decide), fold_main_v72 m c, fold_main_v78 m c]; rfl
theorem fold_main_v80 : Wf (Proc.devRef .tc main_v80) = val_main_v80 (F := Ideal) (m ((c.tc : Thread nD τ).loc main_arg15)) := by
  rw [after_unary hW 88 rfl _ (by decide) (by decide), fold_main_v65 m c]; rfl
theorem fold_main_v81 : Wf (Proc.devRef .tc main_v81) = val_main_v81 (F := Ideal) (m ((c.tc : Thread nD τ).loc main_arg15)) := by
  rw [after_unary hW 89 rfl _ (by decide) (by decide), fold_main_v80 m c]; rfl
theorem fold_main_v82 : Wf (Proc.devRef .tc main_v82) = val_main_v82 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 90 rfl _ (by decide) (by decide) (by decide), fold_main_v79 m c, fold_main_v81 m c]; rfl
theorem fold_main_call1_cst : Wf (Proc.devRef .tc main_call1_cst) = val_main_call1_cst (F := Ideal) := by
  rw [after_nullary hW 91 rfl _ (by decide)]; rfl
theorem fold_main_call1_v0 : Wf (Proc.devRef .tc main_call1_v0) = val_main_call1_v0 (F := Ideal) := by
  rw [after_unary hW 92 rfl _ (by decide) (by decide), fold_main_call1_cst m c]; rfl
theorem fold_main_v83 : Wf (Proc.devRef .tc main_v83) = val_main_v83 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 93 rfl _ (by decide) (by decide) (by decide), fold_main_v82 m c, fold_main_call1_v0 m c]; rfl
theorem fold_main_v84 : Wf (Proc.devRef .tc main_v84) = val_main_v84 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 94 rfl _ (by decide) (by decide) (by decide), fold_main_v83 m c, fold_main_v7 m c]; rfl
theorem fold_main_c_4 : Wf (Proc.devRef .tc main_c_4) = val_main_c_4 (F := Ideal) := by
  rw [after_nullary hW 95 rfl _ (by decide)]; rfl
theorem fold_main_v85 : Wf (Proc.devRef .tc main_v85) = val_main_v85 (F := Ideal) := by
  rw [after_unary hW 96 rfl _ (by decide) (by decide), fold_main_c_4 m c]; rfl
theorem fold_main_v86 : Wf (Proc.devRef .tc main_v86) = val_main_v86 (F := Ideal) (m ((c.tc : Thread nD τ).loc main_arg1)) := by
  rw [after_binary hW 97 rfl _ (by decide) (by decide) (by decide), fold_main_v1 m c, fold_main_v85 m c]; rfl
theorem fold_main_c_5 : Wf (Proc.devRef .tc main_c_5) = val_main_c_5 (F := Ideal) := by
  rw [after_nullary hW 98 rfl _ (by decide)]; rfl
theorem fold_main_v87 : Wf (Proc.devRef .tc main_v87) = val_main_v87 (F := Ideal) := by
  rw [after_unary hW 99 rfl _ (by decide) (by decide), fold_main_c_5 m c]; rfl
theorem fold_main_v88 : Wf (Proc.devRef .tc main_v88) = val_main_v88 (F := Ideal) (m ((c.tc : Thread nD τ).loc main_arg1)) := by
  rw [after_binary hW 100 rfl _ (by decide) (by decide) (by decide), fold_main_v1 m c, fold_main_v87 m c]; rfl
theorem fold_main_v89 : Wf (Proc.devRef .tc main_v89) = val_main_v89 (F := Ideal) (m ((c.tc : Thread nD τ).loc main_arg1)) := by
  rw [after_ternary hW 101 rfl _ (by decide) (by decide) (by decide) (by decide), fold_main_v86 m c, fold_main_v88 m c, fold_main_v1 m c]; rfl
theorem fold_main_v90 : Wf (Proc.devRef .tc main_v90) = val_main_v90 (F := Ideal) (m ((c.tc : Thread nD τ).loc main_arg1)) := by
  rw [after_unary hW 102 rfl _ (by decide) (by decide), fold_main_v89 m c]; rfl
theorem fold_main_v91 : Wf (Proc.devRef .tc main_v91) = val_main_v91 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 103 rfl _ (by decide) (by decide) (by decide), fold_main_v84 m c, fold_main_v90 m c]; rfl
theorem fold_main_cst_6 : Wf (Proc.devRef .tc main_cst_6) = val_main_cst_6 (F := Ideal) := by
  rw [after_nullary hW 104 rfl _ (by decide)]; rfl
theorem fold_main_v92 : Wf (Proc.devRef .tc main_v92) = val_main_v92 (F := Ideal) := by
  rw [after_unary hW 105 rfl _ (by decide) (by decide), fold_main_cst_6 m c]; rfl
theorem fold_main_v93 : Wf (Proc.devRef .tc main_v93) = val_main_v93 (F := Ideal) (m ((c.tc : Thread nD τ).loc main_arg1)) := by
  rw [after_unary hW 106 rfl _ (by decide) (by decide), fold_main_v3 m c]; rfl
theorem fold_main_v94 : Wf (Proc.devRef .tc main_v94) = val_main_v94 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_ternary hW 107 rfl _ (by decide) (by decide) (by decide) (by decide), fold_main_v92 m c, fold_main_v93 m c, fold_main_v91 m c]; rfl
theorem fold_main_v95 : Wf (Proc.devRef .tc main_v95) = val_main_v95 (F := Ideal) (m ((c.tc : Thread nD τ).loc main_arg5)) := by
  rw [after_unary hW 108 rfl _ (by decide) (by decide), fold_arg5 m c]; rfl
theorem fold_main_v96 : Wf (Proc.devRef .tc main_v96) = val_main_v96 (F := Ideal) (m ((c.tc : Thread nD τ).loc main_arg5)) := by
  rw [after_reshape hW 109 rfl _ (by decide) (by decide), fold_main_v95 m c]; rfl
theorem fold_main_cst_7 : Wf (Proc.devRef .tc main_cst_7) = val_main_cst_7 (F := Ideal) := by
  rw [after_nullary hW 110 rfl _ (by decide)]; rfl
theorem fold_main_v97 : Wf (Proc.devRef .tc main_v97) = val_main_v97 (F := Ideal) (m ((c.tc : Thread nD τ).loc main_arg5)) := by
  rw [after_binary hW 111 rfl _ (by decide) (by decide) (by decide), fold_main_cst_7 m c, fold_main_v96 m c]; rfl
theorem fold_main_v98 : Wf (Proc.devRef .tc main_v98) = val_main_v98 (F := Ideal) (m ((c.tc : Thread nD τ).loc main_arg5)) := by
  rw [after_unary hW 112 rfl _ (by decide) (by decide), fold_main_v97 m c]; rfl
theorem fold_main_v99 : Wf (Proc.devRef .tc main_v99) = val_main_v99 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 113 rfl _ (by decide) (by decide) (by decide), fold_main_v98 m c, fold_main_v84 m c]; rfl
theorem fold_main_v100 : Wf (Proc.devRef .tc main_v100) = val_main_v100 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 114 rfl _ (by decide) (by decide) (by decide), fold_main_v99 m c, fold_main_v94 m c]; rfl
theorem fold_main_v101 : Wf (Proc.devRef .tc main_v101) = val_main_v101 (F := Ideal) (m ((c.tc : Thread nD τ).loc main_arg6)) := by
  rw [after_unary hW 115 rfl _ (by decide) (by decide), fold_arg6 m c]; rfl
theorem fold_main_v102 : Wf (Proc.devRef .tc main_v102) = val_main_v102 (F := Ideal) (m ((c.tc : Thread nD τ).loc main_arg6)) := by
  rw [after_reshape hW 116 rfl _ (by decide) (by decide), fold_main_v101 m c]; rfl
theorem fold_main_v103 : Wf (Proc.devRef .tc main_v103) = val_main_v103 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 117 rfl _ (by decide) (by decide) (by decide), fold_main_v100 m c, fold_main_v102 m c]; rfl
theorem fold_main_v104 : Wf (Proc.devRef .tc main_v104) = val_main_v104 (F := Ideal) (m ((c.tc : Thread nD τ).loc main_arg7)) := by
  rw [after_unary hW 118 rfl _ (by decide) (by decide), fold_arg7 m c]; rfl
theorem fold_main_v105 : Wf (Proc.devRef .tc main_v105) = val_main_v105 (F := Ideal) (m ((c.tc : Thread nD τ).loc main_arg7)) := by
  rw [after_reshape hW 119 rfl _ (by decide) (by decide), fold_main_v104 m c]; rfl
theorem fold_main_v106 : Wf (Proc.devRef .tc main_v106) = val_main_v106 (F := Ideal) (m ((c.tc : Thread nD τ).loc main_arg7)) := by
  rw [after_unary hW 120 rfl _ (by decide) (by decide), fold_main_v105 m c]; rfl
theorem fold_main_v107 : Wf (Proc.devRef .tc main_v107) = val_main_v107 (F := Ideal) (m ((c.tc : Thread nD τ).loc main_arg7)) := by
  rw [after_unary hW 121 rfl _ (by decide) (by decide), fold_main_v106 m c]; rfl
theorem fold_main_v108 : Wf (Proc.devRef .tc main_v108) = val_main_v108 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 122 rfl _ (by decide) (by decide) (by decide), fold_main_v103 m c, fold_main_v107 m c]; rfl
theorem fold_main_v109 : Wf (Proc.devRef .tc main_v109) = val_main_v109 (F := Ideal) (m ((c.tc : Thread nD τ).loc main_arg8)) := by
  rw [after_unary hW 123 rfl _ (by decide) (by decide), fold_arg8 m c]; rfl
theorem fold_main_v110 : Wf (Proc.devRef .tc main_v110) = val_main_v110 (F := Ideal) (m ((c.tc : Thread nD τ).loc main_arg8)) := by
  rw [after_reshape hW 124 rfl _ (by decide) (by decide), fold_main_v109 m c]; rfl
theorem fold_main_v111 : Wf (Proc.devRef .tc main_v111) = val_main_v111 (F := Ideal) (m ((c.tc : Thread nD τ).loc main_arg9)) := by
  rw [after_unary hW 125 rfl _ (by decide) (by decide), fold_arg9 m c]; rfl
theorem fold_main_v112 : Wf (Proc.devRef .tc main_v112) = val_main_v112 (F := Ideal) (m ((c.tc : Thread nD τ).loc main_arg9)) := by
  rw [after_reshape hW 126 rfl _ (by decide) (by decide), fold_main_v111 m c]; rfl
theorem fold_main_v113 : Wf (Proc.devRef .tc main_v113) = val_main_v113 (F := Ideal) (m ((c.tc : Thread nD τ).loc main_arg10)) := by
  rw [after_unary hW 127 rfl _ (by decide) (by decide), fold_arg10 m c]; rfl
theorem fold_main_v114 : Wf (Proc.devRef .tc main_v114) = val_main_v114 (F := Ideal) (m ((c.tc : Thread nD τ).loc main_arg10)) := by
  rw [after_reshape hW 128 rfl _ (by decide) (by decide), fold_main_v113 m c]; rfl
theorem fold_main_v115 : Wf (Proc.devRef .tc main_v115) = val_main_v115 (F := Ideal) (m ((c.tc : Thread nD τ).loc main_arg11)) := by
  rw [after_unary hW 129 rfl _ (by decide) (by decide), fold_arg11 m c]; rfl
theorem fold_main_v116 : Wf (Proc.devRef .tc main_v116) = val_main_v116 (F := Ideal) (m ((c.tc : Thread nD τ).loc main_arg11)) := by
  rw [after_reshape hW 130 rfl _ (by decide) (by decide), fold_main_v115 m c]; rfl
theorem fold_main_v117 : Wf (Proc.devRef .tc main_v117) = val_main_v117 (F := Ideal) (m ((c.tc : Thread nD τ).loc main_arg10)) := by
  rw [after_unary hW 131 rfl _ (by decide) (by decide), fold_main_v114 m c]; rfl
theorem fold_main_v118 : Wf (Proc.devRef .tc main_v118) = val_main_v118 (F := Ideal) (m ((c.tc : Thread nD τ).loc main_arg10)) := by
  rw [after_unary hW 132 rfl _ (by decide) (by decide), fold_main_v117 m c]; rfl
theorem fold_main_v119 : Wf (Proc.devRef .tc main_v119) = val_main_v119 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 133 rfl _ (by decide) (by decide) (by decide), fold_main_v108 m c, fold_main_v118 m c]; rfl
theorem fold_main_cst_8 : Wf (Proc.devRef .tc main_cst_8) = val_main_cst_8 (F := Ideal) := by
  rw [after_nullary hW 134 rfl _ (by decide)]; rfl
theorem fold_main_v120 : Wf (Proc.devRef .tc main_v120) = val_main_v120 (F := Ideal) := by
  rw [after_unary hW 135 rfl _ (by decide) (by decide), fold_main_cst_8 m c]; rfl
theorem fold_main_v121 : Wf (Proc.devRef .tc main_v121) = val_main_v121 (F := Ideal) (m ((c.tc : Thread nD τ).loc main_arg11)) := by
  rw [after_binary hW 136 rfl _ (by decide) (by decide) (by decide), fold_main_v116 m c, fold_main_v120 m c]; rfl
theorem fold_main_v122 : Wf (Proc.devRef .tc main_v122) = val_main_v122 (F := Ideal) (m ((c.tc : Thread nD τ).loc main_arg11)) := by
  rw [after_unary hW 137 rfl _ (by decide) (by decide), fold_main_v121 m c]; rfl
theorem fold_main_v123 : Wf (Proc.devRef .tc main_v123) = val_main_v123 (F := Ideal) (m ((c.tc : Thread nD τ).loc main_arg8)) (m ((c.tc : Thread nD τ).loc main_arg11)) := by
  rw [after_binary hW 138 rfl _ (by decide) (by decide) (by decide), fold_main_v110 m c, fold_main_v122 m c]; rfl
theorem fold_main_v124 : Wf (Proc.devRef .tc main_v124) = val_main_v124 (F := Ideal) (m ((c.tc : Thread nD τ).loc main_arg8)) (m ((c.tc : Thread nD τ).loc main_arg11)) := by
  rw [after_unary hW 139 rfl _ (by decide) (by decide), fold_main_v123 m c]; rfl
theorem fold_main_v125 : Wf (Proc.devRef .tc main_v125) = val_main_v125 (F := Ideal) (m ((c.tc : Thread nD τ).loc main_arg8)) (m ((c.tc : Thread nD τ).loc main_arg11)) := by
  rw [after_unary hW 140 rfl _ (by decide) (by decide), fold_main_v124 m c]; rfl
theorem fold_main_v126 : Wf (Proc.devRef .tc main_v126) = val_main_v126 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 141 rfl _ (by decide) (by decide) (by decide), fold_main_v119 m c, fold_main_v125 m c]; rfl
theorem fold_main_v127 : Wf (Proc.devRef .tc main_v127) = val_main_v127 (F := Ideal) (m ((c.tc : Thread nD τ).loc main_arg9)) := by
  rw [after_unary hW 142 rfl _ (by decide) (by decide), fold_main_v112 m c]; rfl
theorem fold_main_v128 : Wf (Proc.devRef .tc main_v128) = val_main_v128 (F := Ideal) (m ((c.tc : Thread nD τ).loc main_arg9)) := by
  rw [after_unary hW 143 rfl _ (by decide) (by decide), fold_main_v127 m c]; rfl
theorem fold_main_v129 : Wf (Proc.devRef .tc main_v129) = val_main_v129 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 144 rfl _ (by decide) (by decide) (by decide), fold_main_v126 m c, fold_main_v128 m c]; rfl
theorem fold_main_call2_cst : Wf (Proc.devRef .tc main_call2_cst) = val_main_call2_cst (F := Ideal) := by
  rw [after_nullary hW 145 rfl _ (by decide)]; rfl
theorem fold_main_call2_v0 : Wf (Proc.devRef .tc main_call2_v0) = val_main_call2_v0 (F := Ideal) := by
  rw [after_unary hW 146 rfl _ (by decide) (by decide), fold_main_call2_cst m c]; rfl
theorem fold_main_v130 : Wf (Proc.devRef .tc main_v130) = val_main_v130 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 147 rfl _ (by decide) (by decide) (by decide), fold_main_v129 m c, fold_main_call2_v0 m c]; rfl
theorem fold_main_v131 : Wf (Proc.devRef .tc main_v131) = val_main_v131 (F := Ideal) (m ((c.tc : Thread nD τ).loc main_arg12)) := by
  rw [after_unary hW 148 rfl _ (by decide) (by decide), fold_arg12 m c]; rfl
theorem fold_main_v132 : Wf (Proc.devRef .tc main_v132) = val_main_v132 (F := Ideal) (m ((c.tc : Thread nD τ).loc main_arg12)) := by
  rw [after_reshape hW 149 rfl _ (by decide) (by decide), fold_main_v131 m c]; rfl
theorem fold_main_v133 : Wf (Proc.devRef .tc main_v133) = val_main_v133 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 150 rfl _ (by decide) (by decide) (by decide), fold_main_v130 m c, fold_main_v132 m c]; rfl
theorem fold_main_v134 : Wf (Proc.devRef .tc main_v134) = val_main_v134 (F := Ideal) (m ((c.tc : Thread nD τ).loc main_arg13)) := by
  rw [after_unary hW 151 rfl _ (by decide) (by decide), fold_arg13 m c]; rfl
theorem fold_main_v135 : Wf (Proc.devRef .tc main_v135) = val_main_v135 (F := Ideal) (m ((c.tc : Thread nD τ).loc main_arg13)) := by
  rw [after_reshape hW 152 rfl _ (by decide) (by decide), fold_main_v134 m c]; rfl
theorem fold_main_v136 : Wf (Proc.devRef .tc main_v136) = val_main_v136 (F := Ideal) (m ((c.tc : Thread nD τ).loc main_arg13)) := by
  rw [after_unary hW 153 rfl _ (by decide) (by decide), fold_main_v135 m c]; rfl
theorem fold_main_v137 : Wf (Proc.devRef .tc main_v137) = val_main_v137 (F := Ideal) (m ((c.tc : Thread nD τ).loc main_arg13)) := by
  rw [after_unary hW 154 rfl _ (by decide) (by decide), fold_main_v136 m c]; rfl
theorem fold_main_v138 : Wf (Proc.devRef .tc main_v138) = val_main_v138 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 155 rfl _ (by decide) (by decide) (by decide), fold_main_v133 m c, fold_main_v137 m c]; rfl
theorem fold_main_v139 : Wf (Proc.devRef .tc main_v139) = val_main_v139 (F := Ideal) (m ((c.tc : Thread nD τ).loc main_arg14)) := by
  rw [after_unary hW 156 rfl _ (by decide) (by decide), fold_arg14 m c]; rfl
theorem fold_main_v140 : Wf (Proc.devRef .tc main_v140) = val_main_v140 (F := Ideal) (m ((c.tc : Thread nD τ).loc main_arg14)) := by
  rw [after_reshape hW 157 rfl _ (by decide) (by decide), fold_main_v139 m c]; rfl
theorem fold_main_v141 : Wf (Proc.devRef .tc main_v141) = val_main_v141 (F := Ideal) (m ((c.tc : Thread nD τ).loc main_arg15)) := by
  rw [after_unary hW 158 rfl _ (by decide) (by decide), fold_arg15 m c]; rfl
theorem fold_main_v142 : Wf (Proc.devRef .tc main_v142) = val_main_v142 (F := Ideal) (m ((c.tc : Thread nD τ).loc main_arg15)) := by
  rw [after_reshape hW 159 rfl _ (by decide) (by decide), fold_main_v141 m c]; rfl
theorem fold_main_v143 : Wf (Proc.devRef .tc main_v143) = val_main_v143 (F := Ideal) (m ((c.tc : Thread nD τ).loc main_arg16)) := by
  rw [after_unary hW 160 rfl _ (by decide) (by decide), fold_arg16 m c]; rfl
theorem fold_main_v144 : Wf (Proc.devRef .tc main_v144) = val_main_v144 (F := Ideal) (m ((c.tc : Thread nD τ).loc main_arg16)) := by
  rw [after_reshape hW 161 rfl _ (by decide) (by decide), fold_main_v143 m c]; rfl
theorem fold_main_v145 : Wf (Proc.devRef .tc main_v145) = val_main_v145 (F := Ideal) (m ((c.tc : Thread nD τ).loc main_arg17)) := by
  rw [after_unary hW 162 rfl _ (by decide) (by decide), fold_arg17 m c]; rfl
theorem fold_main_v146 : Wf (Proc.devRef .tc main_v146) = val_main_v146 (F := Ideal) (m ((c.tc : Thread nD τ).loc main_arg17)) := by
  rw [after_reshape hW 163 rfl _ (by decide) (by decide), fold_main_v145 m c]; rfl
theorem fold_main_v147 : Wf (Proc.devRef .tc main_v147) = val_main_v147 (F := Ideal) (m ((c.tc : Thread nD τ).loc main_arg16)) := by
  rw [after_unary hW 164 rfl _ (by decide) (by decide), fold_main_v144 m c]; rfl
theorem fold_main_v148 : Wf (Proc.devRef .tc main_v148) = val_main_v148 (F := Ideal) (m ((c.tc : Thread nD τ).loc main_arg16)) := by
  rw [after_unary hW 165 rfl _ (by decide) (by decide), fold_main_v147 m c]; rfl
theorem fold_main_v149 : Wf (Proc.devRef .tc main_v149) = val_main_v149 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 166 rfl _ (by decide) (by decide) (by decide), fold_main_v138 m c, fold_main_v148 m c]; rfl
theorem fold_main_cst_9 : Wf (Proc.devRef .tc main_cst_9) = val_main_cst_9 (F := Ideal) := by
  rw [after_nullary hW 167 rfl _ (by decide)]; rfl
theorem fold_main_v150 : Wf (Proc.devRef .tc main_v150) = val_main_v150 (F := Ideal) := by
  rw [after_unary hW 168 rfl _ (by decide) (by decide), fold_main_cst_9 m c]; rfl
theorem fold_main_v151 : Wf (Proc.devRef .tc main_v151) = val_main_v151 (F := Ideal) (m ((c.tc : Thread nD τ).loc main_arg17)) := by
  rw [after_binary hW 169 rfl _ (by decide) (by decide) (by decide), fold_main_v146 m c, fold_main_v150 m c]; rfl
theorem fold_main_v152 : Wf (Proc.devRef .tc main_v152) = val_main_v152 (F := Ideal) (m ((c.tc : Thread nD τ).loc main_arg17)) := by
  rw [after_unary hW 170 rfl _ (by decide) (by decide), fold_main_v151 m c]; rfl
theorem fold_main_v153 : Wf (Proc.devRef .tc main_v153) = val_main_v153 (F := Ideal) (m ((c.tc : Thread nD τ).loc main_arg14)) (m ((c.tc : Thread nD τ).loc main_arg17)) := by
  rw [after_binary hW 171 rfl _ (by decide) (by decide) (by decide), fold_main_v140 m c, fold_main_v152 m c]; rfl
theorem fold_main_v154 : Wf (Proc.devRef .tc main_v154) = val_main_v154 (F := Ideal) (m ((c.tc : Thread nD τ).loc main_arg14)) (m ((c.tc : Thread nD τ).loc main_arg17)) := by
  rw [after_unary hW 172 rfl _ (by decide) (by decide), fold_main_v153 m c]; rfl
theorem fold_main_v155 : Wf (Proc.devRef .tc main_v155) = val_main_v155 (F := Ideal) (m ((c.tc : Thread nD τ).loc main_arg14)) (m ((c.tc : Thread nD τ).loc main_arg17)) := by
  rw [after_unary hW 173 rfl _ (by decide) (by decide), fold_main_v154 m c]; rfl
theorem fold_main_v156 : Wf (Proc.devRef .tc main_v156) = val_main_v156 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 174 rfl _ (by decide) (by decide) (by decide), fold_main_v149 m c, fold_main_v155 m c]; rfl
theorem fold_main_v157 : Wf (Proc.devRef .tc main_v157) = val_main_v157 (F := Ideal) (m ((c.tc : Thread nD τ).loc main_arg15)) := by
  rw [after_unary hW 175 rfl _ (by decide) (by decide), fold_main_v142 m c]; rfl
theorem fold_main_v158 : Wf (Proc.devRef .tc main_v158) = val_main_v158 (F := Ideal) (m ((c.tc : Thread nD τ).loc main_arg15)) := by
  rw [after_unary hW 176 rfl _ (by decide) (by decide), fold_main_v157 m c]; rfl
theorem fold_main_v159 : Wf (Proc.devRef .tc main_v159) = val_main_v159 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 177 rfl _ (by decide) (by decide) (by decide), fold_main_v156 m c, fold_main_v158 m c]; rfl
theorem fold_main_call3_cst : Wf (Proc.devRef .tc main_call3_cst) = val_main_call3_cst (F := Ideal) := by
  rw [after_nullary hW 178 rfl _ (by decide)]; rfl
theorem fold_main_call3_v0 : Wf (Proc.devRef .tc main_call3_v0) = val_main_call3_v0 (F := Ideal) := by
  rw [after_unary hW 179 rfl _ (by decide) (by decide), fold_main_call3_cst m c]; rfl
theorem fold_main_v160 : Wf (Proc.devRef .tc main_v160) = val_main_v160 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 180 rfl _ (by decide) (by decide) (by decide), fold_main_v159 m c, fold_main_call3_v0 m c]; rfl
theorem fold_main_v161 : Wf (Proc.devRef .tc main_v161) = val_main_v161 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 181 rfl _ (by decide) (by decide) (by decide), fold_main_v160 m c, fold_main_v84 m c]; rfl
theorem fold_main_c_10 : Wf (Proc.devRef .tc main_c_10) = val_main_c_10 (F := Ideal) := by
  rw [after_nullary hW 182 rfl _ (by decide)]; rfl
theorem fold_main_v162 : Wf (Proc.devRef .tc main_v162) = val_main_v162 (F := Ideal) := by
  rw [after_unary hW 183 rfl _ (by decide) (by decide), fold_main_c_10 m c]; rfl
theorem fold_main_v163 : Wf (Proc.devRef .tc main_v163) = val_main_v163 (F := Ideal) (m ((c.tc : Thread nD τ).loc main_arg1)) := by
  rw [after_binary hW 184 rfl _ (by decide) (by decide) (by decide), fold_main_v1 m c, fold_main_v162 m c]; rfl
theorem fold_main_c_11 : Wf (Proc.devRef .tc main_c_11) = val_main_c_11 (F := Ideal) := by
  rw [after_nullary hW 185 rfl _ (by decide)]; rfl
theorem fold_main_v164 : Wf (Proc.devRef .tc main_v164) = val_main_v164 (F := Ideal) := by
  rw [after_unary hW 186 rfl _ (by decide) (by decide), fold_main_c_11 m c]; rfl
theorem fold_main_v165 : Wf (Proc.devRef .tc main_v165) = val_main_v165 (F := Ideal) (m ((c.tc : Thread nD τ).loc main_arg1)) := by
  rw [after_binary hW 187 rfl _ (by decide) (by decide) (by decide), fold_main_v1 m c, fold_main_v164 m c]; rfl
theorem fold_main_v166 : Wf (Proc.devRef .tc main_v166) = val_main_v166 (F := Ideal) (m ((c.tc : Thread nD τ).loc main_arg1)) := by
  rw [after_ternary hW 188 rfl _ (by decide) (by decide) (by decide) (by decide), fold_main_v163 m c, fold_main_v165 m c, fold_main_v1 m c]; rfl
theorem fold_main_v167 : Wf (Proc.devRef .tc main_v167) = val_main_v167 (F := Ideal) (m ((c.tc : Thread nD τ).loc main_arg1)) := by
  rw [after_unary hW 189 rfl _ (by decide) (by decide), fold_main_v166 m c]; rfl
theorem fold_main_v168 : Wf (Proc.devRef .tc main_v168) = val_main_v168 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 190 rfl _ (by decide) (by decide) (by decide), fold_main_v161 m c, fold_main_v167 m c]; rfl
theorem fold_main_cst_12 : Wf (Proc.devRef .tc main_cst_12) = val_main_cst_12 (F := Ideal) := by
  rw [after_nullary hW 191 rfl _ (by decide)]; rfl
theorem fold_main_v169 : Wf (Proc.devRef .tc main_v169) = val_main_v169 (F := Ideal) := by
  rw [after_unary hW 192 rfl _ (by decide) (by decide), fold_main_cst_12 m c]; rfl
theorem fold_main_v170 : Wf (Proc.devRef .tc main_v170) = val_main_v170 (F := Ideal) (m ((c.tc : Thread nD τ).loc main_arg1)) := by
  rw [after_unary hW 193 rfl _ (by decide) (by decide), fold_main_v3 m c]; rfl
theorem fold_main_v171 : Wf (Proc.devRef .tc main_v171) = val_main_v171 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_ternary hW 194 rfl _ (by decide) (by decide) (by decide) (by decide), fold_main_v169 m c, fold_main_v170 m c, fold_main_v168 m c]; rfl
theorem fold_main_v172 : Wf (Proc.devRef .tc main_v172) = val_main_v172 (F := Ideal) (m ((c.tc : Thread nD τ).loc main_arg5)) := by
  rw [after_unary hW 195 rfl _ (by decide) (by decide), fold_arg5 m c]; rfl
theorem fold_main_v173 : Wf (Proc.devRef .tc main_v173) = val_main_v173 (F := Ideal) (m ((c.tc : Thread nD τ).loc main_arg5)) := by
  rw [after_reshape hW 196 rfl _ (by decide) (by decide), fold_main_v172 m c]; rfl
theorem fold_main_cst_13 : Wf (Proc.devRef .tc main_cst_13) = val_main_cst_13 (F := Ideal) := by
  rw [after_nullary hW 197 rfl _ (by decide)]; rfl
theorem fold_main_v174 : Wf (Proc.devRef .tc main_v174) = val_main_v174 (F := Ideal) (m ((c.tc : Thread nD τ).loc main_arg5)) := by
  rw [after_binary hW 198 rfl _ (by decide) (by decide) (by decide), fold_main_cst_13 m c, fold_main_v173 m c]; rfl
theorem fold_main_v175 : Wf (Proc.devRef .tc main_v175) = val_main_v175 (F := Ideal) (m ((c.tc : Thread nD τ).loc main_arg5)) := by
  rw [after_unary hW 199 rfl _ (by decide) (by decide), fold_main_v174 m c]; rfl
theorem fold_main_v176 : Wf (Proc.devRef .tc main_v176) = val_main_v176 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 200 rfl _ (by decide) (by decide) (by decide), fold_main_v175 m c, fold_main_v161 m c]; rfl
theorem fold_main_v177 : Wf (Proc.devRef .tc main_v177) = val_main_v177 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 201 rfl _ (by decide) (by decide) (by decide), fold_main_v176 m c, fold_main_v171 m c]; rfl
theorem fold_main_v178 : Wf (Proc.devRef .tc main_v178) = val_main_v178 (F := Ideal) (m ((c.tc : Thread nD τ).loc main_arg6)) := by
  rw [after_unary hW 202 rfl _ (by decide) (by decide), fold_arg6 m c]; rfl
theorem fold_main_v179 : Wf (Proc.devRef .tc main_v179) = val_main_v179 (F := Ideal) (m ((c.tc : Thread nD τ).loc main_arg6)) := by
  rw [after_reshape hW 203 rfl _ (by decide) (by decide), fold_main_v178 m c]; rfl
theorem fold_main_v180 : Wf (Proc.devRef .tc main_v180) = val_main_v180 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 204 rfl _ (by decide) (by decide) (by decide), fold_main_v177 m c, fold_main_v179 m c]; rfl
theorem fold_main_v181 : Wf (Proc.devRef .tc main_v181) = val_main_v181 (F := Ideal) (m ((c.tc : Thread nD τ).loc main_arg7)) := by
  rw [after_unary hW 205 rfl _ (by decide) (by decide), fold_arg7 m c]; rfl
theorem fold_main_v182 : Wf (Proc.devRef .tc main_v182) = val_main_v182 (F := Ideal) (m ((c.tc : Thread nD τ).loc main_arg7)) := by
  rw [after_reshape hW 206 rfl _ (by decide) (by decide), fold_main_v181 m c]; rfl
theorem fold_main_v183 : Wf (Proc.devRef .tc main_v183) = val_main_v183 (F := Ideal) (m ((c.tc : Thread nD τ).loc main_arg7)) := by
  rw [after_unary hW 207 rfl _ (by decide) (by decide), fold_main_v182 m c]; rfl
theorem fold_main_v184 : Wf (Proc.devRef .tc main_v184) = val_main_v184 (F := Ideal) (m ((c.tc : Thread nD τ).loc main_arg7)) := by
  rw [after_unary hW 208 rfl _ (by decide) (by decide), fold_main_v183 m c]; rfl
theorem fold_main_v185 : Wf (Proc.devRef .tc main_v185) = val_main_v185 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 209 rfl _ (by decide) (by decide) (by decide), fold_main_v180 m c, fold_main_v184 m c]; rfl
theorem fold_main_v186 : Wf (Proc.devRef .tc main_v186) = val_main_v186 (F := Ideal) (m ((c.tc : Thread nD τ).loc main_arg8)) := by
  rw [after_unary hW 210 rfl _ (by decide) (by decide), fold_arg8 m c]; rfl
theorem fold_main_v187 : Wf (Proc.devRef .tc main_v187) = val_main_v187 (F := Ideal) (m ((c.tc : Thread nD τ).loc main_arg8)) := by
  rw [after_reshape hW 211 rfl _ (by decide) (by decide), fold_main_v186 m c]; rfl
theorem fold_main_v188 : Wf (Proc.devRef .tc main_v188) = val_main_v188 (F := Ideal) (m ((c.tc : Thread nD τ).loc main_arg9)) := by
  rw [after_unary hW 212 rfl _ (by decide) (by decide), fold_arg9 m c]; rfl
theorem fold_main_v189 : Wf (Proc.devRef .tc main_v189) = val_main_v189 (F := Ideal) (m ((c.tc : Thread nD τ).loc main_arg9)) := by
  rw [after_reshape hW 213 rfl _ (by decide) (by decide), fold_main_v188 m c]; rfl
theorem fold_main_v190 : Wf (Proc.devRef .tc main_v190) = val_main_v190 (F := Ideal) (m ((c.tc : Thread nD τ).loc main_arg10)) := by
  rw [after_unary hW 214 rfl _ (by decide) (by decide), fold_arg10 m c]; rfl
theorem fold_main_v191 : Wf (Proc.devRef .tc main_v191) = val_main_v191 (F := Ideal) (m ((c.tc : Thread nD τ).loc main_arg10)) := by
  rw [after_reshape hW 215 rfl _ (by decide) (by decide), fold_main_v190 m c]; rfl
theorem fold_main_v192 : Wf (Proc.devRef .tc main_v192) = val_main_v192 (F := Ideal) (m ((c.tc : Thread nD τ).loc main_arg11)) := by
  rw [after_unary hW 216 rfl _ (by decide) (by decide), fold_arg11 m c]; rfl
theorem fold_main_v193 : Wf (Proc.devRef .tc main_v193) = val_main_v193 (F := Ideal) (m ((c.tc : Thread nD τ).loc main_arg11)) := by
  rw [after_reshape hW 217 rfl _ (by decide) (by decide), fold_main_v192 m c]; rfl
theorem fold_main_v194 : Wf (Proc.devRef .tc main_v194) = val_main_v194 (F := Ideal) (m ((c.tc : Thread nD τ).loc main_arg10)) := by
  rw [after_unary hW 218 rfl _ (by decide) (by decide), fold_main_v191 m c]; rfl
theorem fold_main_v195 : Wf (Proc.devRef .tc main_v195) = val_main_v195 (F := Ideal) (m ((c.tc : Thread nD τ).loc main_arg10)) := by
  rw [after_unary hW 219 rfl _ (by decide) (by decide), fold_main_v194 m c]; rfl
theorem fold_main_v196 : Wf (Proc.devRef .tc main_v196) = val_main_v196 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 220 rfl _ (by decide) (by decide) (by decide), fold_main_v185 m c, fold_main_v195 m c]; rfl
theorem fold_main_cst_14 : Wf (Proc.devRef .tc main_cst_14) = val_main_cst_14 (F := Ideal) := by
  rw [after_nullary hW 221 rfl _ (by decide)]; rfl
theorem fold_main_v197 : Wf (Proc.devRef .tc main_v197) = val_main_v197 (F := Ideal) := by
  rw [after_unary hW 222 rfl _ (by decide) (by decide), fold_main_cst_14 m c]; rfl
theorem fold_main_v198 : Wf (Proc.devRef .tc main_v198) = val_main_v198 (F := Ideal) (m ((c.tc : Thread nD τ).loc main_arg11)) := by
  rw [after_binary hW 223 rfl _ (by decide) (by decide) (by decide), fold_main_v193 m c, fold_main_v197 m c]; rfl
theorem fold_main_v199 : Wf (Proc.devRef .tc main_v199) = val_main_v199 (F := Ideal) (m ((c.tc : Thread nD τ).loc main_arg11)) := by
  rw [after_unary hW 224 rfl _ (by decide) (by decide), fold_main_v198 m c]; rfl
theorem fold_main_v200 : Wf (Proc.devRef .tc main_v200) = val_main_v200 (F := Ideal) (m ((c.tc : Thread nD τ).loc main_arg8)) (m ((c.tc : Thread nD τ).loc main_arg11)) := by
  rw [after_binary hW 225 rfl _ (by decide) (by decide) (by decide), fold_main_v187 m c, fold_main_v199 m c]; rfl
theorem fold_main_v201 : Wf (Proc.devRef .tc main_v201) = val_main_v201 (F := Ideal) (m ((c.tc : Thread nD τ).loc main_arg8)) (m ((c.tc : Thread nD τ).loc main_arg11)) := by
  rw [after_unary hW 226 rfl _ (by decide) (by decide), fold_main_v200 m c]; rfl
theorem fold_main_v202 : Wf (Proc.devRef .tc main_v202) = val_main_v202 (F := Ideal) (m ((c.tc : Thread nD τ).loc main_arg8)) (m ((c.tc : Thread nD τ).loc main_arg11)) := by
  rw [after_unary hW 227 rfl _ (by decide) (by decide), fold_main_v201 m c]; rfl
theorem fold_main_v203 : Wf (Proc.devRef .tc main_v203) = val_main_v203 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 228 rfl _ (by decide) (by decide) (by decide), fold_main_v196 m c, fold_main_v202 m c]; rfl
theorem fold_main_v204 : Wf (Proc.devRef .tc main_v204) = val_main_v204 (F := Ideal) (m ((c.tc : Thread nD τ).loc main_arg9)) := by
  rw [after_unary hW 229 rfl _ (by decide) (by decide), fold_main_v189 m c]; rfl
theorem fold_main_v205 : Wf (Proc.devRef .tc main_v205) = val_main_v205 (F := Ideal) (m ((c.tc : Thread nD τ).loc main_arg9)) := by
  rw [after_unary hW 230 rfl _ (by decide) (by decide), fold_main_v204 m c]; rfl
theorem fold_main_v206 : Wf (Proc.devRef .tc main_v206) = val_main_v206 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 231 rfl _ (by decide) (by decide) (by decide), fold_main_v203 m c, fold_main_v205 m c]; rfl
theorem fold_main_call4_cst : Wf (Proc.devRef .tc main_call4_cst) = val_main_call4_cst (F := Ideal) := by
  rw [after_nullary hW 232 rfl _ (by decide)]; rfl
theorem fold_main_call4_v0 : Wf (Proc.devRef .tc main_call4_v0) = val_main_call4_v0 (F := Ideal) := by
  rw [after_unary hW 233 rfl _ (by decide) (by decide), fold_main_call4_cst m c]; rfl
theorem fold_main_v207 : Wf (Proc.devRef .tc main_v207) = val_main_v207 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 234 rfl _ (by decide) (by decide) (by decide), fold_main_v206 m c, fold_main_call4_v0 m c]; rfl
theorem fold_main_v208 : Wf (Proc.devRef .tc main_v208) = val_main_v208 (F := Ideal) (m ((c.tc : Thread nD τ).loc main_arg12)) := by
  rw [after_unary hW 235 rfl _ (by decide) (by decide), fold_arg12 m c]; rfl
theorem fold_main_v209 : Wf (Proc.devRef .tc main_v209) = val_main_v209 (F := Ideal) (m ((c.tc : Thread nD τ).loc main_arg12)) := by
  rw [after_reshape hW 236 rfl _ (by decide) (by decide), fold_main_v208 m c]; rfl
theorem fold_main_v210 : Wf (Proc.devRef .tc main_v210) = val_main_v210 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 237 rfl _ (by decide) (by decide) (by decide), fold_main_v207 m c, fold_main_v209 m c]; rfl
theorem fold_main_v211 : Wf (Proc.devRef .tc main_v211) = val_main_v211 (F := Ideal) (m ((c.tc : Thread nD τ).loc main_arg13)) := by
  rw [after_unary hW 238 rfl _ (by decide) (by decide), fold_arg13 m c]; rfl
theorem fold_main_v212 : Wf (Proc.devRef .tc main_v212) = val_main_v212 (F := Ideal) (m ((c.tc : Thread nD τ).loc main_arg13)) := by
  rw [after_reshape hW 239 rfl _ (by decide) (by decide), fold_main_v211 m c]; rfl
theorem fold_main_v213 : Wf (Proc.devRef .tc main_v213) = val_main_v213 (F := Ideal) (m ((c.tc : Thread nD τ).loc main_arg13)) := by
  rw [after_unary hW 240 rfl _ (by decide) (by decide), fold_main_v212 m c]; rfl
theorem fold_main_v214 : Wf (Proc.devRef .tc main_v214) = val_main_v214 (F := Ideal) (m ((c.tc : Thread nD τ).loc main_arg13)) := by
  rw [after_unary hW 241 rfl _ (by decide) (by decide), fold_main_v213 m c]; rfl
theorem fold_main_v215 : Wf (Proc.devRef .tc main_v215) = val_main_v215 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 242 rfl _ (by decide) (by decide) (by decide), fold_main_v210 m c, fold_main_v214 m c]; rfl
theorem fold_main_v216 : Wf (Proc.devRef .tc main_v216) = val_main_v216 (F := Ideal) (m ((c.tc : Thread nD τ).loc main_arg14)) := by
  rw [after_unary hW 243 rfl _ (by decide) (by decide), fold_arg14 m c]; rfl
theorem fold_main_v217 : Wf (Proc.devRef .tc main_v217) = val_main_v217 (F := Ideal) (m ((c.tc : Thread nD τ).loc main_arg14)) := by
  rw [after_reshape hW 244 rfl _ (by decide) (by decide), fold_main_v216 m c]; rfl
theorem fold_main_v218 : Wf (Proc.devRef .tc main_v218) = val_main_v218 (F := Ideal) (m ((c.tc : Thread nD τ).loc main_arg15)) := by
  rw [after_unary hW 245 rfl _ (by decide) (by decide), fold_arg15 m c]; rfl
theorem fold_main_v219 : Wf (Proc.devRef .tc main_v219) = val_main_v219 (F := Ideal) (m ((c.tc : Thread nD τ).loc main_arg15)) := by
  rw [after_reshape hW 246 rfl _ (by decide) (by decide), fold_main_v218 m c]; rfl
theorem fold_main_v220 : Wf (Proc.devRef .tc main_v220) = val_main_v220 (F := Ideal) (m ((c.tc : Thread nD τ).loc main_arg16)) := by
  rw [after_unary hW 247 rfl _ (by decide) (by decide), fold_arg16 m c]; rfl
theorem fold_main_v221 : Wf (Proc.devRef .tc main_v221) = val_main_v221 (F := Ideal) (m ((c.tc : Thread nD τ).loc main_arg16)) := by
  rw [after_reshape hW 248 rfl _ (by decide) (by decide), fold_main_v220 m c]; rfl
theorem fold_main_v222 : Wf (Proc.devRef .tc main_v222) = val_main_v222 (F := Ideal) (m ((c.tc : Thread nD τ).loc main_arg17)) := by
  rw [after_unary hW 249 rfl _ (by decide) (by decide), fold_arg17 m c]; rfl
theorem fold_main_v223 : Wf (Proc.devRef .tc main_v223) = val_main_v223 (F := Ideal) (m ((c.tc : Thread nD τ).loc main_arg17)) := by
  rw [after_reshape hW 250 rfl _ (by decide) (by decide), fold_main_v222 m c]; rfl
theorem fold_main_v224 : Wf (Proc.devRef .tc main_v224) = val_main_v224 (F := Ideal) (m ((c.tc : Thread nD τ).loc main_arg16)) := by
  rw [after_unary hW 251 rfl _ (by decide) (by decide), fold_main_v221 m c]; rfl
theorem fold_main_v225 : Wf (Proc.devRef .tc main_v225) = val_main_v225 (F := Ideal) (m ((c.tc : Thread nD τ).loc main_arg16)) := by
  rw [after_unary hW 252 rfl _ (by decide) (by decide), fold_main_v224 m c]; rfl
theorem fold_main_v226 : Wf (Proc.devRef .tc main_v226) = val_main_v226 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 253 rfl _ (by decide) (by decide) (by decide), fold_main_v215 m c, fold_main_v225 m c]; rfl
theorem fold_main_cst_15 : Wf (Proc.devRef .tc main_cst_15) = val_main_cst_15 (F := Ideal) := by
  rw [after_nullary hW 254 rfl _ (by decide)]; rfl
theorem fold_main_v227 : Wf (Proc.devRef .tc main_v227) = val_main_v227 (F := Ideal) := by
  rw [after_unary hW 255 rfl _ (by decide) (by decide), fold_main_cst_15 m c]; rfl
theorem fold_main_v228 : Wf (Proc.devRef .tc main_v228) = val_main_v228 (F := Ideal) (m ((c.tc : Thread nD τ).loc main_arg17)) := by
  rw [after_binary hW 256 rfl _ (by decide) (by decide) (by decide), fold_main_v223 m c, fold_main_v227 m c]; rfl
theorem fold_main_v229 : Wf (Proc.devRef .tc main_v229) = val_main_v229 (F := Ideal) (m ((c.tc : Thread nD τ).loc main_arg17)) := by
  rw [after_unary hW 257 rfl _ (by decide) (by decide), fold_main_v228 m c]; rfl
theorem fold_main_v230 : Wf (Proc.devRef .tc main_v230) = val_main_v230 (F := Ideal) (m ((c.tc : Thread nD τ).loc main_arg14)) (m ((c.tc : Thread nD τ).loc main_arg17)) := by
  rw [after_binary hW 258 rfl _ (by decide) (by decide) (by decide), fold_main_v217 m c, fold_main_v229 m c]; rfl
theorem fold_main_v231 : Wf (Proc.devRef .tc main_v231) = val_main_v231 (F := Ideal) (m ((c.tc : Thread nD τ).loc main_arg14)) (m ((c.tc : Thread nD τ).loc main_arg17)) := by
  rw [after_unary hW 259 rfl _ (by decide) (by decide), fold_main_v230 m c]; rfl
theorem fold_main_v232 : Wf (Proc.devRef .tc main_v232) = val_main_v232 (F := Ideal) (m ((c.tc : Thread nD τ).loc main_arg14)) (m ((c.tc : Thread nD τ).loc main_arg17)) := by
  rw [after_unary hW 260 rfl _ (by decide) (by decide), fold_main_v231 m c]; rfl
theorem fold_main_v233 : Wf (Proc.devRef .tc main_v233) = val_main_v233 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 261 rfl _ (by decide) (by decide) (by decide), fold_main_v226 m c, fold_main_v232 m c]; rfl
theorem fold_main_v234 : Wf (Proc.devRef .tc main_v234) = val_main_v234 (F := Ideal) (m ((c.tc : Thread nD τ).loc main_arg15)) := by
  rw [after_unary hW 262 rfl _ (by decide) (by decide), fold_main_v219 m c]; rfl
theorem fold_main_v235 : Wf (Proc.devRef .tc main_v235) = val_main_v235 (F := Ideal) (m ((c.tc : Thread nD τ).loc main_arg15)) := by
  rw [after_unary hW 263 rfl _ (by decide) (by decide), fold_main_v234 m c]; rfl
theorem fold_main_v236 : Wf (Proc.devRef .tc main_v236) = val_main_v236 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 264 rfl _ (by decide) (by decide) (by decide), fold_main_v233 m c, fold_main_v235 m c]; rfl
theorem fold_main_call5_cst : Wf (Proc.devRef .tc main_call5_cst) = val_main_call5_cst (F := Ideal) := by
  rw [after_nullary hW 265 rfl _ (by decide)]; rfl
theorem fold_main_call5_v0 : Wf (Proc.devRef .tc main_call5_v0) = val_main_call5_v0 (F := Ideal) := by
  rw [after_unary hW 266 rfl _ (by decide) (by decide), fold_main_call5_cst m c]; rfl
theorem fold_main_v237 : Wf (Proc.devRef .tc main_v237) = val_main_v237 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 267 rfl _ (by decide) (by decide) (by decide), fold_main_v236 m c, fold_main_call5_v0 m c]; rfl
theorem fold_main_v238 : Wf (Proc.devRef .tc main_v238) = val_main_v238 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_binary hW 268 rfl _ (by decide) (by decide) (by decide), fold_main_v237 m c, fold_main_v161 m c]; rfl
theorem fold_main_cst_16 : Wf (Proc.devRef .tc main_cst_16) = val_main_cst_16 (F := Ideal) := by
  rw [after_nullary hW 269 rfl _ (by decide)]; rfl
theorem fold_main_v239 : Wf (Proc.devRef .tc main_v239) = val_main_v239 (F := Ideal) := by
  rw [after_unary hW 270 rfl _ (by decide) (by decide), fold_main_cst_16 m c]; rfl
theorem fold_main_v240 : Wf (Proc.devRef .tc main_v240) = val_main_v240 (F := Ideal) (m ((c.tc : Thread nD τ).loc main_arg2)) := by
  rw [after_unary hW 271 rfl _ (by decide) (by decide), fold_arg2 m c]; rfl
theorem fold_main_v241 : Wf (Proc.devRef .tc main_v241) = val_main_v241 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_ternary hW 272 rfl _ (by decide) (by decide) (by decide) (by decide), fold_main_v239 m c, fold_main_v240 m c, fold_main_v238 m c]; rfl
theorem fold_main_v242 : Wf (Proc.devRef .tc main_v242) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [after_binary hW 273 rfl _ (by decide) (by decide) (by decide), fold_main_v241 m c, fold_arg18 m c]; rfl
theorem fold_main_v243 : Wf (Proc.devRef .tc main_v243) = val_main_v243 (F := Ideal) (m ((c.tc : Thread nD τ).loc main_arg19)) := by
  rw [after_unary hW 274 rfl _ (by decide) (by decide), fold_arg19 m c]; rfl
theorem fold_main_v244 : Wf (Proc.devRef .tc main_v244) = val_main_v244 (F := Ideal) (m ((c.tc : Thread nD τ).loc main_arg19)) := by
  rw [after_unary hW 275 rfl _ (by decide) (by decide), fold_main_v243 m c]; rfl
theorem fold_main_v245 : Wf (Proc.devRef .tc main_v245) = val_main_v245 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [after_binary hW 276 rfl _ (by decide) (by decide) (by decide), fold_main_v242 m c, fold_main_v244 m c]; rfl
theorem fold_main_call6_cst : Wf (Proc.devRef .tc main_call6_cst) = val_main_call6_cst (F := Ideal) := by
  rw [after_nullary hW 277 rfl _ (by decide)]; rfl
theorem fold_main_call6_v0 : Wf (Proc.devRef .tc main_call6_v0) = val_main_call6_v0 (F := Ideal) := by
  rw [after_unary hW 278 rfl _ (by decide) (by decide), fold_main_call6_cst m c]; rfl
theorem fold_main_v246 : Wf (Proc.devRef .tc main_v246) = val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [after_binary hW 279 rfl _ (by decide) (by decide) (by decide), fold_main_v245 m c, fold_main_call6_v0 m c]; rfl
theorem fold_main_v247 : Wf (Proc.devRef .tc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [after_binary hW 280 rfl _ (by decide) (by decide) (by decide), fold_main_v246 m c, fold_arg20 m c]; rfl
theorem fold_main_v248 : Wf (Proc.devRef .tc main_v248) = val_main_v248 (F := Ideal) (m ((c.tc : Thread nD τ).loc main_arg21)) := by
  rw [after_unary hW 281 rfl _ (by decide) (by decide), fold_arg21 m c]; rfl
theorem fold_main_v249 : Wf (Proc.devRef .tc main_v249) = val_main_v249 (F := Ideal) (m ((c.tc : Thread nD τ).loc main_arg21)) := by
  rw [after_unary hW 282 rfl _ (by decide) (by decide), fold_main_v248 m c]; rfl
theorem fold_main_v250 : Wf (Proc.devRef .tc main_v250) = val_main_v250 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [after_binary hW 283 rfl _ (by decide) (by decide) (by decide), fold_main_v247 m c, fold_main_v249 m c]; rfl
theorem fold_main_call7_cst : Wf (Proc.devRef .tc main_call7_cst) = val_main_call7_cst (F := Ideal) := by
  rw [after_nullary hW 284 rfl _ (by decide)]; rfl
theorem fold_main_call7_v0 : Wf (Proc.devRef .tc main_call7_v0) = val_main_call7_v0 (F := Ideal) := by
  rw [after_unary hW 285 rfl _ (by decide) (by decide), fold_main_call7_cst m c]; rfl
theorem fold_main_v251 : Wf (Proc.devRef .tc main_v251) = val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [after_binary hW 286 rfl _ (by decide) (by decide) (by decide), fold_main_v250 m c, fold_main_call7_v0 m c]; rfl
theorem fold_main_v252 : Wf (Proc.devRef .tc main_v252) = val_main_v252 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [after_binary hW 287 rfl _ (by decide) (by decide) (by decide), fold_main_v251 m c, fold_arg22 m c]; rfl
theorem fold_main_v253 : Wf (Proc.devRef .tc main_v253) = val_main_v253 (F := Ideal) (m ((c.tc : Thread nD τ).loc main_arg23)) := by
  rw [after_unary hW 288 rfl _ (by decide) (by decide), fold_arg23 m c]; rfl
theorem fold_main_v254 : Wf (Proc.devRef .tc main_v254) = val_main_v254 (F := Ideal) (m ((c.tc : Thread nD τ).loc main_arg23)) := by
  rw [after_unary hW 289 rfl _ (by decide) (by decide), fold_main_v253 m c]; rfl
theorem fold_main_v255 : Wf (Proc.devRef .tc main_v255) = val_main_v255 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  rw [after_binary hW 290 rfl _ (by decide) (by decide) (by decide), fold_main_v252 m c, fold_main_v254 m c]; rfl

end Cert.ReferenceIdeal.Fold

end
-- ==== Proof.RefRun.lean ====
/-
  The reference program's run, with its result at its stage of the arguments.

  The reference is a straight line of host operations with no kernel launch: from any memory with zero counters every weakly
  fair execution terminates with every buffer at the fold of the operations over the launch contents. In single-assignment
  form that fold puts, in each result buffer, the buffer's stage of the program's arguments (Proof/RefFoldTable.lean) and leaves
  the argument buffers as launched. So the run ends with the returned array at `val_main_v255` of the arguments — the read-out
  of the pooled features of the third layer's output — and the arguments unchanged; forgetting the result gives the frame.
-/
import proofs.«156994_j78795470012791_1_alg».proof.Proof.RefFoldTable

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Every weakly fair execution of the reference terminates without a fault, the returned array at its stage of the
    arguments and every argument array as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v255) = val_main_v255 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c =>
    ⟨(h c main_v255).trans (fold_main_v255 m c),
     (h c main_arg0).trans (fold_arg0 m c),
     (h c main_arg1).trans (fold_arg1 m c),
     (h c main_arg2).trans (fold_arg2 m c),
     (h c main_arg3).trans (fold_arg3 m c),
     (h c main_arg4).trans (fold_arg4 m c),
     (h c main_arg5).trans (fold_arg5 m c),
     (h c main_arg6).trans (fold_arg6 m c),
     (h c main_arg7).trans (fold_arg7 m c),
     (h c main_arg8).trans (fold_arg8 m c),
     (h c main_arg9).trans (fold_arg9 m c),
     (h c main_arg10).trans (fold_arg10 m c),
     (h c main_arg11).trans (fold_arg11 m c),
     (h c main_arg12).trans (fold_arg12 m c),
     (h c main_arg13).trans (fold_arg13 m c),
     (h c main_arg14).trans (fold_arg14 m c),
     (h c main_arg15).trans (fold_arg15 m c),
     (h c main_arg16).trans (fold_arg16 m c),
     (h c main_arg17).trans (fold_arg17 m c),
     (h c main_arg18).trans (fold_arg18 m c),
     (h c main_arg19).trans (fold_arg19 m c),
     (h c main_arg20).trans (fold_arg20 m c),
     (h c main_arg21).trans (fold_arg21 m c),
     (h c main_arg22).trans (fold_arg22 m c),
     (h c main_arg23).trans (fold_arg23 m c)⟩)
    (run_fold (F := Ideal) m ρ)

end Cert.ReferenceIdeal.Fold

end
-- ==== Proof.PreDecode.lean ====
import proofs.«156994_j78795470012791_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreDecode

open Idealize.ShloMosaic Idealize.ShloMosaic.ValueIdx Cert.Pre_finite_inputs

/-- The rank-0 shape has exactly one index. -/
instance : Subsingleton S_.Idx := ⟨fun a b => funext fun d => d.elim0⟩

/-- The f32 pattern 0x7F800000 denotes +∞. -/
theorem top_f32 : Ideal.ofBits .f32 0x7F800000#32 = (⊤ : EReal) := by simp [Ideal.ofBits, Ideal.ieee]

theorem ofBool_eq_one (b : Bool) : BitVec.ofBool b = 1#1 ↔ b = true := by cases b <;> decide

/-- An extended real whose absolute value max a (-a) is below ⊤ is a real number:
    at ⊤ the maximum is ⊤, at ⊥ the negation is ⊤. -/
theorem real_of_abs_lt_top (a : EReal) (h : max a (-a) < ⊤) : ∃ r : ℝ, a = (r : EReal) := by
  induction a using EReal.rec with
  | bot => simp at h
  | coe r => exact ⟨r, rfl⟩
  | top => simp at h

/-- If the conjunction over all indices of |x i| < +∞ is 1, every element of x is a real number. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : ∃ r : ℝ, x i = (r : EReal) := by
  have h1 := Host.reduce_andi_all _ _ hr hu ix0 e i
  have h2 : Ideal.cmp .olt (max (x i) (-(x i))) (Ideal.ofBits .f32 0x7F800000#32) = 1#1 := h1
  rw [top_f32] at h2
  unfold Ideal.cmp at h2
  rw [ofBool_eq_one] at h2
  exact real_of_abs_lt_top _ (of_decide_eq_true h2)

/-- If the conjunction over all indices of x i ≥ 0 is 1, every element of x is at least 0. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .oge x (broadcastInDim s ![] hb (constant (F := Ideal) S_ .f32 0x00000000#32)))
          (constantI S_ 1 1#1) hr hu ix0 = 1#1) (i : s.Idx) : (0 : EReal) ≤ x i := by
  have h1 := Host.reduce_andi_all _ _ hr hu ix0 e i
  have h2 : Ideal.cmp .oge (x i) (Ideal.ofBits .f32 0x00000000#32) = 1#1 := h1
  rw [Ideal.ofBits_zero_f32] at h2
  unfold Ideal.cmp at h2
  rw [ofBool_eq_one] at h2
  exact of_decide_eq_true h2

/-- A real element that is at least 0 as an extended real is a nonnegative real. -/
theorem nonneg_real {a : EReal} (hf : ∃ r : ℝ, a = (r : EReal)) (h0 : (0 : EReal) ≤ a) : ∃ r : ℝ, 0 ≤ r ∧ a = (r : EReal) := by
  obtain ⟨r, rfl⟩ := hf
  exact ⟨r, EReal.coe_nonneg.1 h0, rfl⟩

/-- The precondition read back: the biases, scales and running means of both normalisations are real everywhere,
    and both running variances are nonnegative reals everywhere. -/
theorem facts [hP : Cert.Pre_finite_inputs.Facts] (x0 : FVec Ideal S100000x64 .f32) (x1 : IVec S2x1600000 32) (x2 : IVec S100000 32) (x3 : FVec Ideal S64x128 .f32) (x4 : FVec Ideal S128 .f32) (x5 : FVec Ideal S3 .f32) (x6 : FVec Ideal S3x128x256 .f32) (x7 : FVec Ideal S3x256 .f32) (x8 : FVec Ideal S3x256 .f32) (x9 : FVec Ideal S3x256 .f32) (x10 : FVec Ideal S3x256 .f32) (x11 : FVec Ideal S3x256 .f32) (x12 : FVec Ideal S3x256x128 .f32) (x13 : FVec Ideal S3x128 .f32) (x14 : FVec Ideal S3x128 .f32) (x15 : FVec Ideal S3x128 .f32) (x16 : FVec Ideal S3x128 .f32) (x17 : FVec Ideal S3x128 .f32) (x18 : FVec Ideal S128x128 .f32) (x19 : FVec Ideal S128 .f32) (x20 : FVec Ideal S128x64 .f32) (x21 : FVec Ideal S64 .f32) (x22 : FVec Ideal S64x3 .f32) (x23 : FVec Ideal S3 .f32)
    (h : Cert.Pre_finite_inputs.fn (F := Ideal) x0 x1 x2 x3 x4 x5 x6 x7 x8 x9 x10 x11 x12 x13 x14 x15 x16 x17 x18 x19 x20 x21 x22 x23 = (fun _ => 1#1)) :
    (∀ i, ∃ r : ℝ, x7 i = (r : EReal)) ∧ (∀ i, ∃ r : ℝ, x8 i = (r : EReal)) ∧ (∀ i, ∃ r : ℝ, x10 i = (r : EReal)) ∧ (∀ i, ∃ r : ℝ, 0 ≤ r ∧ x11 i = (r : EReal))
      ∧ (∀ i, ∃ r : ℝ, x13 i = (r : EReal)) ∧ (∀ i, ∃ r : ℝ, x14 i = (r : EReal)) ∧ (∀ i, ∃ r : ℝ, x16 i = (r : EReal)) ∧ (∀ i, ∃ r : ℝ, 0 ≤ r ∧ x17 i = (r : EReal)) := by
  have e := congrFun h ix0
  dsimp only [fn, fn_part1, fn_part2, fn_part3, fn_part4, fn_part5, fn_part6] at e
  simp only [Idealize.ShloMosaic.andi, IntOp.andi_eq_one] at e
  obtain ⟨⟨⟨⟨⟨⟨⟨⟨⟨⟨⟨⟨⟨⟨⟨⟨⟨⟨⟨⟨⟨⟨⟨f0, f3⟩, f4⟩, f5⟩, f6⟩, f7⟩, f8⟩, f9⟩, f10⟩, f11⟩, f12⟩, f13⟩, f14⟩, f15⟩, f16⟩, f17⟩, f18⟩, f19⟩, f20⟩, f21⟩, f22⟩, f23⟩, g11⟩, g17⟩ := e
  exact ⟨fun i => finite_of_all x7 _ _ _ f7 i, fun i => finite_of_all x8 _ _ _ f8 i, fun i => finite_of_all x10 _ _ _ f10 i,
    fun i => nonneg_real (finite_of_all x11 _ _ _ f11 i) (nonneg_of_all x11 _ _ _ g11 i),
    fun i => finite_of_all x13 _ _ _ f13 i, fun i => finite_of_all x14 _ _ _ f14 i, fun i => finite_of_all x16 _ _ _ f16 i,
    fun i => nonneg_real (finite_of_all x17 _ _ _ f17 i) (nonneg_of_all x17 _ _ _ g17 i)⟩

end Cert.PreDecode

end
-- ==== Proof.lean ====
/-
  A three-layer GIN with a global-add-pool read-out, as Pallas kernels, against its jnp reference: equal as extended reals.

  The kernel program embeds the node features (`x W₀ + b₀`), runs three GIN layers — each a host gather and scatter-add for
  the neighbour sum followed by one kernel launch that computes `relu (BN₂ (relu (BN₁ (z W₁ + b₁)) W₂ + b₂)) + h` with
  `z = (1 + ε_l) h + aggr` — pools the node features by graph and applies a three-layer read-out in a last launch. The reference
  does the same in plain array operations. Matrix products, sums, format changes and tilings mean the same extended reals on
  both sides. The one real difference is how the batch normalisations are written: the reference normalises the biased
  pre-activation, `((u + b) - m) * (g * rsqrt (v + ε)) + β`, while the kernel program folds each normalisation on the host into a
  scale `s = g * rsqrt (v + ε)` and a bias `(b - m) * s + β` and its kernel computes `u * s + bias`. These agree by distributing `s`
  over `u + (b - m)`, a law that fails on the extended reals when `s` is infinite; it holds for a real `s` and real `b - m`
  whatever `u` is (Proof/BnFold.lean). The precondition — finite inputs and non-negative running variances — makes `b`, `m`, `g`
  real and `v + ε` a positive real, hence `s` real.

  The claim's parts: the two kernel programs' frames are the generated ones; the reference has no kernel, and its frame is its
  run (Proof/RefRun.lean) with the result forgotten; the idealization rewrote nothing, so `preserves` is trivial; and for
  `algebraic` the kernel program's run ends with its result array at the last launch's output (Proof/KernelRun.lean), which is
  the reference's last stage of the arguments (Proof/Bridge.lean), where the reference's run puts its own result.
-/
import proofs.«156994_j78795470012791_1_alg».proof.Defs
import proofs.«156994_j78795470012791_1_alg».proof.Proof.Gen.Kernel
import proofs.«156994_j78795470012791_1_alg».proof.Proof.Gen.Kernel.Frame
import proofs.«156994_j78795470012791_1_alg».proof.Proof.Gen.KernelIdeal
import proofs.«156994_j78795470012791_1_alg».proof.Proof.Gen.KernelIdeal.Frame
import proofs.«156994_j78795470012791_1_alg».proof.Proof.Gen.ReferenceIdeal
import proofs.«156994_j78795470012791_1_alg».proof.Proof.Gen.Pre_finite_inputs
import proofs.«156994_j78795470012791_1_alg».proof.Proof.KernelRun
import proofs.«156994_j78795470012791_1_alg».proof.Proof.Bridge
import proofs.«156994_j78795470012791_1_alg».proof.Proof.RefRun
import proofs.«156994_j78795470012791_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Fold.ref_run m ρ)

/-- The idealization rewrote nothing. -/
theorem preserves : Cert.preserves_Kernel_KernelIdeal := trivial

/-- From memories agreeing on the arguments, under the precondition, both idealized programs end with their result arrays at
    the reference's last stage of the arguments. -/
theorem algebraic : Cert.algebraic_KernelIdeal_ReferenceIdeal := by
  intro m ρ m' ρ' hpre hagree
  refine ⟨fun c => Cert.ReferenceIdeal.ReadP.val_main_v255 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · refine (θ_run Cert.KernelIdeal.defs _ _).mono (fun r h c => ⟨(h c).1.trans ?_, (h c).2⟩)
      (Cert.KernelIdeal.RunValue.run_result (F := Ideal) m ρ)
    obtain ⟨h7, h8, h10, h11, h13, h14, h16, h17⟩ :=
      Cert.PreDecode.facts _ _ _ _ _ _ _ _ _ _ _ _ _ _ _ _ _ _ _ _ _ _ _ _ (hpre c)
    exact Cert.Bridge.readout_eq m ρ c (Cert.Bridge.layers_eq m ρ c h7 h8 h10 h11 h13 h14 h16 h17)
  · refine (θ_run Cert.ReferenceIdeal.defs _ _).mono (fun r h c => ⟨(h c).1.trans ?_, (h c).2⟩)
      (Cert.ReferenceIdeal.Fold.ref_run m' ρ')
    obtain ⟨e0, e1, e2, e3, e4, e5, e6, e7, e8, e9, e10, e11, e12, e13, e14, e15, e16, e17, e18, e19, e20, e21, e22, e23⟩ := hagree c
    rw [e0, e1, e2, e3, e4, e5, e6, e7, e8, e9, e10, e11, e12, e13, e14, e15, e16, e17, e18, e19, e20, e21, e22, e23]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
